-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x640000 : Shape := ⟨2, ![2, 640000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S200000x2 .f32) (main_arg1 : IVec S2x640000 32) (main_arg2 : FVec F S2x32 .f32) (main_arg3 : FVec F S32 .f32) (main_arg4 : FVec F S32x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_arg8 main_arg9 main_arg10 main_arg11 main_arg12 main_arg13 main_v13 main_v16
-- ==== Kernel.lean ====
abbrev S200000x2 : Shape := ⟨2, ![200000, 2]⟩
abbrev S2x640000 : Shape := ⟨2, ![2, 640000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S200000 : Shape := ⟨1, ![200000]⟩
abbrev S840000 : Shape := ⟨1, ![840000]⟩
abbrev S_ : Shape := ⟨0, ![]⟩
abbrev S840000x1 : Shape := ⟨2, ![840000, 1]⟩
abbrev S200000x1 : Shape := ⟨2, ![200000, 1]⟩
abbrev S200000x32 : Shape := ⟨2, ![200000, 32]⟩
abbrev S8000x2 : Shape := ⟨2, ![8000, 2]⟩
abbrev S8000x1 : Shape := ⟨2, ![8000, 1]⟩
abbrev S8000x32 : Shape := ⟨2, ![8000, 32]⟩
abbrev S840000x32 : Shape := ⟨2, ![840000, 32]⟩
abbrev S1x32 : Shape := ⟨2, ![1, 32]⟩
abbrev S200000x128 : Shape := ⟨2, ![200000, 128]⟩
abbrev S8000x128 : Shape := ⟨2, ![8000, 128]⟩
abbrev S840000x128 : Shape := ⟨2, ![840000, 128]⟩
abbrev S1x128 : Shape := ⟨2, ![1, 128]⟩
abbrev S1x1 : Shape := ⟨2, ![1, 1]⟩

abbrev nBuf : Space → Nat
  | .hbm => 120
  | .vmem => 48
  | .smem => 0
  | _ => 0

abbrev bufTy : (tb : Table) → Fin (tcTables nBuf tb) → BufTy
  | .hbm, ⟨0, _⟩ => ⟨S200000x2, .f32⟩
  | .hbm, ⟨1, _⟩ => ⟨S2x640000, .i32⟩
  | .hbm, ⟨2, _⟩ => ⟨S2x32, .f32⟩
  | .hbm, ⟨3, _⟩ => ⟨S32, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S200000, .i32⟩
  | .hbm, ⟨19, _⟩ => ⟨S840000, .i32⟩
  | .hbm, ⟨20, _⟩ => ⟨S840000, .i32⟩
  | .hbm, ⟨21, _⟩ => ⟨S_, .f32⟩
  | .hbm, ⟨22, _⟩ => ⟨S840000, .f32⟩
  | .hbm, ⟨23, _⟩ => ⟨S_, .f32⟩
  | .hbm, ⟨24, _⟩ => ⟨S200000, .f32⟩
  | .hbm, ⟨25, _⟩ => ⟨S840000x1, .i32⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .i1⟩
  | .hbm, ⟨30, _⟩ => ⟨S_, .f32⟩
  | .hbm, ⟨31, _⟩ => ⟨S200000, .f32⟩
  | .hbm, ⟨32, _⟩ => ⟨S200000, .i1⟩
  | .hbm, ⟨33, _⟩ => ⟨S_, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000, .f32⟩
  | .hbm, ⟨38, _⟩ => ⟨S_, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S200000x1, .f32⟩
  | .hbm, ⟨43, _⟩ => ⟨S200000x32, .f32⟩
  | .hbm, ⟨44, _⟩ => ⟨S_, .i32⟩
  | .hbm, ⟨45, _⟩ => ⟨S840000, .i32⟩
  | .hbm, ⟨46, _⟩ => ⟨S840000, .i1⟩
  | .hbm, ⟨47, _⟩ => ⟨S_, .i32⟩
  | .hbm, ⟨48, _⟩ => ⟨S840000, .i32⟩
  | .hbm, ⟨49, _⟩ => ⟨S840000, .i32⟩
  | .hbm, ⟨50, _⟩ => ⟨S840000, .i32⟩
  | .hbm, ⟨51, _⟩ => ⟨S840000x1, .i32⟩
  | .hbm, ⟨52, _⟩ => ⟨S840000x32, .f32⟩
  | .hbm, ⟨53, _⟩ => ⟨S_, .f32⟩
  | .hbm, ⟨54, _⟩ => ⟨S200000x32, .f32⟩
  | .hbm, ⟨55, _⟩ => ⟨S840000x1, .i32⟩
  | .hbm, ⟨56, _⟩ => ⟨S200000x32, .f32⟩
  | .hbm, ⟨57, _⟩ => ⟨S1x32, .f32⟩
  | .hbm, ⟨58, _⟩ => ⟨S200000x128, .f32⟩
  | .hbm, ⟨59, _⟩ => ⟨S_, .i32⟩
  | .hbm, ⟨60, _⟩ => ⟨S840000, .i32⟩
  | .hbm, ⟨61, _⟩ => ⟨S840000, .i1⟩
  | .hbm, ⟨62, _⟩ => ⟨S_, .i32⟩
  | .hbm, ⟨63, _⟩ => ⟨S840000, .i32⟩
  | .hbm, ⟨64, _⟩ => ⟨S840000, .i32⟩
  | .hbm, ⟨65, _⟩ => ⟨S840000, .i32⟩
  | .hbm, ⟨66, _⟩ => ⟨S840000x1, .i32⟩
  | .hbm, ⟨67, _⟩ => ⟨S840000x128, .f32⟩
  | .hbm, ⟨68, _⟩ => ⟨S_, .f32⟩
  | .hbm, ⟨69, _⟩ => ⟨S200000x128, .f32⟩
  | .hbm, ⟨70, _⟩ => ⟨S840000x1, .i32⟩
  | .hbm, ⟨71, _⟩ => ⟨S200000x128, .f32⟩
  | .hbm, ⟨72, _⟩ => ⟨S1x128, .f32⟩
  | .hbm, ⟨73, _⟩ => ⟨S200000x128, .f32⟩
  | .hbm, ⟨74, _⟩ => ⟨S_, .i32⟩
  | .hbm, ⟨75, _⟩ => ⟨S840000, .i32⟩
  | .hbm, ⟨76, _⟩ => ⟨S840000, .i1⟩
  | .hbm, ⟨77, _⟩ => ⟨S_, .i32⟩
  | .hbm, ⟨78, _⟩ => ⟨S840000, .i32⟩
  | .hbm, ⟨79, _⟩ => ⟨S840000, .i32⟩
  | .hbm, ⟨80, _⟩ => ⟨S840000, .i32⟩
  | .hbm, ⟨81, _⟩ => ⟨S840000x1, .i32⟩
  | .hbm, ⟨82, _⟩ => ⟨S840000x128, .f32⟩
  | .hbm, ⟨83, _⟩ => ⟨S_, .f32⟩
  | .hbm, ⟨84, _⟩ => ⟨S200000x128, .f32⟩
  | .hbm, ⟨85, _⟩ => ⟨S840000x1, .i32⟩
  | .hbm, ⟨86, _⟩ => ⟨S200000x128, .f32⟩
  | .hbm, ⟨87, _⟩ => ⟨S1x128, .f32⟩
  | .hbm, ⟨88, _⟩ => ⟨S200000x128, .f32⟩
  | .hbm, ⟨89, _⟩ => ⟨S_, .i32⟩
  | .hbm, ⟨90, _⟩ => ⟨S840000, .i32⟩
  | .hbm, ⟨91, _⟩ => ⟨S840000, .i1⟩
  | .hbm, ⟨92, _⟩ => ⟨S_, .i32⟩
  | .hbm, ⟨93, _⟩ => ⟨S840000, .i32⟩
  | .hbm, ⟨94, _⟩ => ⟨S840000, .i32⟩
  | .hbm, ⟨95, _⟩ => ⟨S840000, .i32⟩
  | .hbm, ⟨96, _⟩ => ⟨S840000x1, .i32⟩
  | .hbm, ⟨97, _⟩ => ⟨S840000x128, .f32⟩
  | .hbm, ⟨98, _⟩ => ⟨S_, .f32⟩
  | .hbm, ⟨99, _⟩ => ⟨S200000x128, .f32⟩
  | .hbm, ⟨100, _⟩ => ⟨S840000x1, .i32⟩
  | .hbm, ⟨101, _⟩ => ⟨S200000x128, .f32⟩
  | .hbm, ⟨102, _⟩ => ⟨S1x128, .f32⟩
  | .hbm, ⟨103, _⟩ => ⟨S200000x128, .f32⟩
  | .hbm, ⟨104, _⟩ => ⟨S_, .i32⟩
  | .hbm, ⟨105, _⟩ => ⟨S840000, .i32⟩
  | .hbm, ⟨106, _⟩ => ⟨S840000, .i1⟩
  | .hbm, ⟨107, _⟩ => ⟨S_, .i32⟩
  | .hbm, ⟨108, _⟩ => ⟨S840000, .i32⟩
  | .hbm, ⟨109, _⟩ => ⟨S840000, .i32⟩
  | .hbm, ⟨110, _⟩ => ⟨S840000, .i32⟩
  | .hbm, ⟨111, _⟩ => ⟨S840000x1, .i32⟩
  | .hbm, ⟨112, _⟩ => ⟨S840000x128, .f32⟩
  | .hbm, ⟨113, _⟩ => ⟨S_, .f32⟩
  | .hbm, ⟨114, _⟩ => ⟨S200000x128, .f32⟩
  | .hbm, ⟨115, _⟩ => ⟨S840000x1, .i32⟩
  | .hbm, ⟨116, _⟩ => ⟨S200000x128, .f32⟩
  | .hbm, ⟨117, _⟩ => ⟨S1x128, .f32⟩
  | .hbm, ⟨118, _⟩ => ⟨S1x1, .f32⟩
  | .hbm, ⟨119, _⟩ => ⟨S200000x1, .f32⟩
  | .local _ .vmem, ⟨0, _⟩ => ⟨S8000x2, .f32⟩
  | .local _ .vmem, ⟨1, _⟩ => ⟨S8000x2, .f32⟩
  | .local _ .vmem, ⟨2, _⟩ => ⟨S2x32, .f32⟩
  | .local _ .vmem, ⟨3, _⟩ => ⟨S8000x1, .f32⟩
  | .local _ .vmem, ⟨4, _⟩ => ⟨S8000x1, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S1x32, .f32⟩
  | .local _ .vmem, ⟨10, _⟩ => ⟨S8000x1, .f32⟩
  | .local _ .vmem, ⟨11, _⟩ => ⟨S8000x1, .f32⟩
  | .local _ .vmem, ⟨12, _⟩ => ⟨S32x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S1x128, .f32⟩
  | .local _ .vmem, ⟨18, _⟩ => ⟨S8000x1, .f32⟩
  | .local _ .vmem, ⟨19, _⟩ => ⟨S8000x1, .f32⟩
  | .local _ .vmem, ⟨20, _⟩ => ⟨S128x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S1x128, .f32⟩
  | .local _ .vmem, ⟨26, _⟩ => ⟨S8000x1, .f32⟩
  | .local _ .vmem, ⟨27, _⟩ => ⟨S8000x1, .f32⟩
  | .local _ .vmem, ⟨28, _⟩ => ⟨S128x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x128, .f32⟩
  | .local _ .vmem, ⟨33, _⟩ => ⟨S1x128, .f32⟩
  | .local _ .vmem, ⟨34, _⟩ => ⟨S8000x1, .f32⟩
  | .local _ .vmem, ⟨35, _⟩ => ⟨S8000x1, .f32⟩
  | .local _ .vmem, ⟨36, _⟩ => ⟨S128x128, .f32⟩
  | .local _ .vmem, ⟨37, _⟩ => ⟨S8000x128, .f32⟩
  | .local _ .vmem, ⟨38, _⟩ => ⟨S8000x128, .f32⟩
  | .local _ .vmem, ⟨39, _⟩ => ⟨S8000x128, .f32⟩
  | .local _ .vmem, ⟨40, _⟩ => ⟨S8000x128, .f32⟩
  | .local _ .vmem, ⟨41, _⟩ => ⟨S1x128, .f32⟩
  | .local _ .vmem, ⟨42, _⟩ => ⟨S8000x1, .f32⟩
  | .local _ .vmem, ⟨43, _⟩ => ⟨S8000x1, .f32⟩
  | .local _ .vmem, ⟨44, _⟩ => ⟨S128x1, .f32⟩
  | .local _ .vmem, ⟨45, _⟩ => ⟨S1x1, .f32⟩
  | .local _ .vmem, ⟨46, _⟩ => ⟨S8000x1, .f32⟩
  | .local _ .vmem, ⟨47, _⟩ => ⟨S8000x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_10 : Ref sig .tc := ⟨.hbm, 74, rfl⟩
abbrev main_v44 : Ref sig .tc := ⟨.hbm, 75, rfl⟩
abbrev main_v45 : Ref sig .tc := ⟨.hbm, 76, rfl⟩
abbrev main_c_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_c_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S200000_S840000_d0 : Shape.Concatenates [S640000, S200000] S840000 0
  bcast_S_S840000 : S_.BroadcastsInDim S840000 (![] : Fin 0 → Fin S840000.rank)
  bcast_S_S200000 : S_.BroadcastsInDim S200000 (![] : Fin 0 → Fin S200000.rank)
  bcast_S840000_S840000x1_0 : S840000.BroadcastsInDim S840000x1 (![0] : Fin 1 → Fin S840000x1.rank)
  shapeCasts_S200000_S200000x1 : S200000.ShapeCasts S200000x1
  inb_S8000x2_S8000x2_0_0 : ∀ a, (![0, 0] : Fin 2 → Nat) a + S8000x2.size a ≤ S8000x2.size a
  h_S8000x2 : 0 < S8000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  inb_S8000x32_S8000x32_0_0 : ∀ a, (![0, 0] : Fin 2 → Nat) a + S8000x32.size a ≤ S8000x32.size a
  h_S8000x32 : 0 < S8000x32.numel
  bcast_S_S200000x32 : S_.BroadcastsInDim S200000x32 (![] : Fin 0 → Fin S200000x32.rank)
  shapeCasts_S32_S1x32 : S32.ShapeCasts S1x32
  shapeCasts_S8000x32_S8000x32 : S8000x32.ShapeCasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x128_S32x128_0_0 : ∀ a, (![0, 0] : Fin 2 → Nat) a + S32x128.size a ≤ S32x128.size a
  h_S32x128 : 0 < S32x128.numel
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  bcast_S_S200000x128 : S_.BroadcastsInDim S200000x128 (![] : Fin 0 → Fin S200000x128.rank)
  shapeCasts_S128_S1x128 : S128.ShapeCasts S1x128
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  scatter_S200000_S840000x1_S840000_n_0_0_1_wf : ScatterDims.WF S200000 S840000x1 S840000 [] [0] [0] 1
  dot_S8000x2_S2x32_S8000x32_1_0_0_1_n_n_wf : DotDims.WF S8000x2 S2x32 S8000x32 [1] [0] [0] [1] [] []
  gather_S200000x32_S840000x1_S840000x32_1_0_n_n_0_1_132_wf : GatherDims.WF S200000x32 S840000x1 S840000x32 [1] [0] [] [0] [] 1 ![1, 32]
  scatter_S200000x32_S840000x1_S840000x32_1_0_0_1_wf : ScatterDims.WF S200000x32 S840000x1 S840000x32 [1] [0] [0] 1
  dot_S8000x32_S32x128_S8000x128_1_0_0_1_n_n_wf : DotDims.WF S8000x32 S32x128 S8000x128 [1] [0] [0] [1] [] []
  gather_S200000x128_S840000x1_S840000x128_1_0_n_n_0_1_1128_wf : GatherDims.WF S200000x128 S840000x1 S840000x128 [1] [0] [] [0] [] 1 ![1, 128]
  scatter_S200000x128_S840000x1_S840000x128_1_0_0_1_wf : ScatterDims.WF S200000x128 S840000x1 S840000x128 [1] [0] [0] 1
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S200000x2.size a
  hwx0_0 : ∀ i : grid0.Coords, EltTy.bits .f32 = 32 ∨ (Rect.block (s := S200000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S200000x1.size a
  hwx0_2 : ∀ i : grid0.Coords, EltTy.bits .f32 = 32 ∨ (Rect.block (s := S200000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S200000x32.size a
  hwx0_3 : ∀ i : grid0.Coords, EltTy.bits .f32 = 32 ∨ (Rect.block (s := S200000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S200000x32.size a
  hwx1_0 : ∀ i : grid1.Coords, EltTy.bits .f32 = 32 ∨ (Rect.block (s := S200000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S200000x128.size a
  hwx1_4 : ∀ i : grid1.Coords, EltTy.bits .f32 = 32 ∨ (Rect.block (s := S200000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S200000x128.size a
  hwx2_4 : ∀ i : grid2.Coords, EltTy.bits .f32 = 32 ∨ (Rect.block (s := S200000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x128.size a ≤ S200000x128.size a
  hwx3_4 : ∀ i : grid3.Coords, EltTy.bits .f32 = 32 ∨ (Rect.block (s := S200000x128) S8000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .f32 = 32 ∨ (Rect.block (s := S200000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S200000x1.size a
  hwx4_2 : ∀ i : grid4.Coords, EltTy.bits .f32 = 32 ∨ (Rect.block (s := S200000x1) S8000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x128.size a ≤ S200000x128.size a
  hwx4_4 : ∀ i : grid4.Coords, EltTy.bits .f32 = 32 ∨ (Rect.block (s := S200000x128) S8000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S200000x128.size a
  hwx5_0 : ∀ i : grid5.Coords, EltTy.bits .f32 = 32 ∨ (Rect.block (s := S200000x128) S8000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S200000x1.size a
  hwx5_2 : ∀ i : grid5.Coords, EltTy.bits .f32 = 32 ∨ (Rect.block (s := S200000x1) S8000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x1.size a ≤ S200000x1.size a
  hwx5_5 : ∀ i : grid5.Coords, EltTy.bits .f32 = 32 ∨ (Rect.block (s := S200000x1) S8000x1.size (cc5_transform_5 i) (hinb5_5 i)).WholeWords (EltTy.packing .f32)

variable [Facts₀]

def scatter_S200000_S840000x1_S840000_n_0_0_1 : ScatterDims S200000 S840000x1 S840000 where
  updateWindowDims := []
  insertedWindowDims := [0]
  scatterDimsToOperandDims := [0]
  indexVectorDim := 1
  wf := scatter_S200000_S840000x1_S840000_n_0_0_1_wf
def dot_S8000x2_S2x32_S8000x32_1_0_0_1_n_n : DotDims S8000x2 S2x32 S8000x32 where
  lhsContracting := [1]
  rhsContracting := [0]
  lhsNonContracting := [0]
  rhsNonContracting := [1]
  lhsBatch := []
  rhsBatch := []
  wf := dot_S8000x2_S2x32_S8000x32_1_0_0_1_n_n_wf
def gather_S200000x32_S840000x1_S840000x32_1_0_n_n_0_1_132 : GatherDims S200000x32 S840000x1 S840000x32 where
  offsetDims := [1]
  collapsedSliceDims := [0]
  operandBatchingDims := []
  startIndicesBatchingDims := []
  startIndexMap := [0]
  indexVectorDim := 1
  sliceSizes := ![1, 32]
  wf := gather_S200000x32_S840000x1_S840000x32_1_0_n_n_0_1_132_wf
def scatter_S200000x32_S840000x1_S840000x32_1_0_0_1 : ScatterDims S200000x32 S840000x1 S840000x32 where
  updateWindowDims := [1]
  insertedWindowDims := [0]
  scatterDimsToOperandDims := [0]
  indexVectorDim := 1
  wf := scatter_S200000x32_S840000x1_S840000x32_1_0_0_1_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def gather_S200000x128_S840000x1_S840000x128_1_0_n_n_0_1_1128 : GatherDims S200000x128 S840000x1 S840000x128 where
  offsetDims := [1]
  collapsedSliceDims := [0]
  operandBatchingDims := []
  startIndicesBatchingDims := []
  startIndexMap := [0]
  indexVectorDim := 1
  sliceSizes := ![1, 128]
  wf := gather_S200000x128_S840000x1_S840000x128_1_0_n_n_0_1_1128_wf
def scatter_S200000x128_S840000x1_S840000x128_1_0_0_1 : ScatterDims S200000x128 S840000x1 S840000x128 where
  updateWindowDims := [1]
  insertedWindowDims := [0]
  scatterDimsToOperandDims := [0]
  indexVectorDim := 1
  wf := scatter_S200000x128_S840000x1_S840000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S8000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S8000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S8000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v77) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18) S8000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S8000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000x2 : Shape := ⟨2, ![200000, 2]⟩
abbrev S2x640000 : Shape := ⟨2, ![2, 640000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S200000 : Shape := ⟨1, ![200000]⟩
abbrev S1x640000 : Shape := ⟨2, ![1, 640000]⟩
abbrev S640000 : Shape := ⟨1, ![640000]⟩
abbrev S840000 : Shape := ⟨1, ![840000]⟩
abbrev S_ : Shape := ⟨0, ![]⟩
abbrev S840000x1 : Shape := ⟨2, ![840000, 1]⟩
abbrev S200000x32 : Shape := ⟨2, ![200000, 32]⟩
abbrev S840000x32 : Shape := ⟨2, ![840000, 32]⟩
abbrev S1x32 : Shape := ⟨2, ![1, 32]⟩
abbrev S200000x128 : Shape := ⟨2, ![200000, 128]⟩
abbrev S840000x128 : Shape := ⟨2, ![840000, 128]⟩
abbrev S1x128 : Shape := ⟨2, ![1, 128]⟩
abbrev S200000x1 : Shape := ⟨2, ![200000, 1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S200000x2, .f32⟩
  | 1 => ⟨S2x640000, .i32⟩
  | 2 => ⟨S2x32, .f32⟩
  | 3 => ⟨S32, .f32⟩
  | 4 => ⟨S32x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S200000, .i32⟩
  | 15 => ⟨S1x640000, .i32⟩
  | 16 => ⟨S640000, .i32⟩
  | 17 => ⟨S840000, .i32⟩
  | 18 => ⟨S1x640000, .i32⟩
  | 19 => ⟨S640000, .i32⟩
  | 20 => ⟨S840000, .i32⟩
  | 21 => ⟨S_, .f32⟩
  | 22 => ⟨S840000, .f32⟩
  | 23 => ⟨S_, .f32⟩
  | 24 => ⟨S200000, .f32⟩
  | 25 => ⟨S840000x1, .i32⟩
  | 26 => ⟨S200000, .f32⟩
  | 27 => ⟨S_, .f32⟩
  | 28 => ⟨S200000, .f32⟩
  | 29 => ⟨S200000, .i1⟩
  | 30 => ⟨S_, .f32⟩
  | 31 => ⟨S200000, .f32⟩
  | 32 => ⟨S200000, .i1⟩
  | 33 => ⟨S_, .f32⟩
  | 34 => ⟨S_, .f32⟩
  | 35 => ⟨S200000, .f32⟩
  | 36 => ⟨S200000, .f32⟩
  | 37 => ⟨S200000, .f32⟩
  | 38 => ⟨S_, .f32⟩
  | 39 => ⟨S_, .f32⟩
  | 40 => ⟨S200000, .f32⟩
  | 41 => ⟨S200000, .f32⟩
  | 42 => ⟨S_, .i32⟩
  | 43 => ⟨S840000, .i32⟩
  | 44 => ⟨S840000, .i1⟩
  | 45 => ⟨S_, .i32⟩
  | 46 => ⟨S840000, .i32⟩
  | 47 => ⟨S840000, .i32⟩
  | 48 => ⟨S840000, .i32⟩
  | 49 => ⟨S840000x1, .i32⟩
  | 50 => ⟨S840000, .f32⟩
  | 51 => ⟨S_, .i32⟩
  | 52 => ⟨S840000, .i32⟩
  | 53 => ⟨S840000, .i1⟩
  | 54 => ⟨S_, .i32⟩
  | 55 => ⟨S840000, .i32⟩
  | 56 => ⟨S840000, .i32⟩
  | 57 => ⟨S840000, .i32⟩
  | 58 => ⟨S840000x1, .i32⟩
  | 59 => ⟨S840000, .f32⟩
  | 60 => ⟨S840000, .f32⟩
  | 61 => ⟨S200000x32, .f32⟩
  | 62 => ⟨S_, .i32⟩
  | 63 => ⟨S840000, .i32⟩
  | 64 => ⟨S840000, .i1⟩
  | 65 => ⟨S_, .i32⟩
  | 66 => ⟨S840000, .i32⟩
  | 67 => ⟨S840000, .i32⟩
  | 68 => ⟨S840000, .i32⟩
  | 69 => ⟨S840000x1, .i32⟩
  | 70 => ⟨S840000x32, .f32⟩
  | 71 => ⟨S840000x1, .f32⟩
  | 72 => ⟨S840000x32, .f32⟩
  | 73 => ⟨S840000x32, .f32⟩
  | 74 => ⟨S_, .f32⟩
  | 75 => ⟨S200000x32, .f32⟩
  | 76 => ⟨S840000x1, .i32⟩
  | 77 => ⟨S200000x32, .f32⟩
  | 78 => ⟨S1x32, .f32⟩
  | 79 => ⟨S200000x32, .f32⟩
  | 80 => ⟨S200000x32, .f32⟩
  | 81 => ⟨S_, .f32⟩
  | 82 => ⟨S200000x32, .f32⟩
  | 83 => ⟨S200000x32, .f32⟩
  | 84 => ⟨S200000x128, .f32⟩
  | 85 => ⟨S_, .i32⟩
  | 86 => ⟨S840000, .i32⟩
  | 87 => ⟨S840000, .i1⟩
  | 88 => ⟨S_, .i32⟩
  | 89 => ⟨S840000, .i32⟩
  | 90 => ⟨S840000, .i32⟩
  | 91 => ⟨S840000, .i32⟩
  | 92 => ⟨S840000x1, .i32⟩
  | 93 => ⟨S840000x128, .f32⟩
  | 94 => ⟨S840000x1, .f32⟩
  | 95 => ⟨S840000x128, .f32⟩
  | 96 => ⟨S840000x128, .f32⟩
  | 97 => ⟨S_, .f32⟩
  | 98 => ⟨S200000x128, .f32⟩
  | 99 => ⟨S840000x1, .i32⟩
  | 100 => ⟨S200000x128, .f32⟩
  | 101 => ⟨S1x128, .f32⟩
  | 102 => ⟨S200000x128, .f32⟩
  | 103 => ⟨S200000x128, .f32⟩
  | 104 => ⟨S_, .f32⟩
  | 105 => ⟨S200000x128, .f32⟩
  | 106 => ⟨S200000x128, .f32⟩
  | 107 => ⟨S200000x128, .f32⟩
  | 108 => ⟨S_, .i32⟩
  | 109 => ⟨S840000, .i32⟩
  | 110 => ⟨S840000, .i1⟩
  | 111 => ⟨S_, .i32⟩
  | 112 => ⟨S840000, .i32⟩
  | 113 => ⟨S840000, .i32⟩
  | 114 => ⟨S840000, .i32⟩
  | 115 => ⟨S840000x1, .i32⟩
  | 116 => ⟨S840000x128, .f32⟩
  | 117 => ⟨S840000x1, .f32⟩
  | 118 => ⟨S840000x128, .f32⟩
  | 119 => ⟨S840000x128, .f32⟩
  | 120 => ⟨S_, .f32⟩
  | 121 => ⟨S200000x128, .f32⟩
  | 122 => ⟨S840000x1, .i32⟩
  | 123 => ⟨S200000x128, .f32⟩
  | 124 => ⟨S1x128, .f32⟩
  | 125 => ⟨S200000x128, .f32⟩
  | 126 => ⟨S200000x128, .f32⟩
  | 127 => ⟨S_, .f32⟩
  | _ => ⟨S200000x2, .f32⟩

abbrev hbmTy0_1 (i : Nat) : BufTy := match i % 128 with
  | 0 => ⟨S200000x128, .f32⟩
  | 1 => ⟨S200000x128, .f32⟩
  | 2 => ⟨S200000x128, .f32⟩
  | 3 => ⟨S_, .i32⟩
  | 4 => ⟨S840000, .i32⟩
  | 5 => ⟨S840000, .i1⟩
  | 6 => ⟨S_, .i32⟩
  | 7 => ⟨S840000, .i32⟩
  | 8 => ⟨S840000, .i32⟩
  | 9 => ⟨S840000, .i32⟩
  | 10 => ⟨S840000x1, .i32⟩
  | 11 => ⟨S840000x128, .f32⟩
  | 12 => ⟨S840000x1, .f32⟩
  | 13 => ⟨S840000x128, .f32⟩
  | 14 => ⟨S840000x128, .f32⟩
  | 15 => ⟨S_, .f32⟩
  | 16 => ⟨S200000x128, .f32⟩
  | 17 => ⟨S840000x1, .i32⟩
  | 18 => ⟨S200000x128, .f32⟩
  | 19 => ⟨S1x128, .f32⟩
  | 20 => ⟨S200000x128, .f32⟩
  | 21 => ⟨S200000x128, .f32⟩
  | 22 => ⟨S_, .f32⟩
  | 23 => ⟨S200000x128, .f32⟩
  | 24 => ⟨S200000x128, .f32⟩
  | 25 => ⟨S200000x128, .f32⟩
  | 26 => ⟨S_, .i32⟩
  | 27 => ⟨S840000, .i32⟩
  | 28 => ⟨S840000, .i1⟩
  | 29 => ⟨S_, .i32⟩
  | 30 => ⟨S840000, .i32⟩
  | 31 => ⟨S840000, .i32⟩
  | 32 => ⟨S840000, .i32⟩
  | 33 => ⟨S840000x1, .i32⟩
  | 34 => ⟨S840000x128, .f32⟩
  | 35 => ⟨S840000x1, .f32⟩
  | 36 => ⟨S840000x128, .f32⟩
  | 37 => ⟨S840000x128, .f32⟩
  | 38 => ⟨S_, .f32⟩
  | 39 => ⟨S200000x128, .f32⟩
  | 40 => ⟨S840000x1, .i32⟩
  | 41 => ⟨S200000x128, .f32⟩
  | 42 => ⟨S1x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S200000x1, .f32⟩
  | 49 => ⟨S1x1, .f32⟩
  | 50 => ⟨S200000x1, .f32⟩
  | 51 => ⟨S200000x1, .f32⟩
  | 52 => ⟨S_, .f32⟩
  | 53 => ⟨S200000x1, .f32⟩
  | 54 => ⟨S200000x1, .i1⟩
  | 55 => ⟨S_, .f32⟩
  | 56 => ⟨S200000x1, .f32⟩
  | 57 => ⟨S200000x1, .f32⟩
  | 58 => ⟨S200000x1, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call2_cst : Ref sig .tc := ⟨.hbm, 81, rfl⟩
abbrev main_call2_v0 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_c_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call3_cst : Ref sig .tc := ⟨.hbm, 104, rfl⟩
abbrev main_call3_v0 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call4_cst : Ref sig .tc := ⟨.hbm, 127, rfl⟩
abbrev main_call4_v0 : Ref sig .tc := ⟨.hbm, 128, rfl⟩
abbrev main_v86 : Ref sig .tc := ⟨.hbm, 129, rfl⟩
abbrev main_v87 : Ref sig .tc := ⟨.hbm, 130, rfl⟩
abbrev main_c_17 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_19 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call5_cst : Ref sig .tc := ⟨.hbm, 150, rfl⟩
abbrev main_call5_v0 : Ref sig .tc := ⟨.hbm, 151, rfl⟩
abbrev main_v104 : Ref sig .tc := ⟨.hbm, 152, rfl⟩
abbrev main_v105 : Ref sig .tc := ⟨.hbm, 153, rfl⟩
abbrev main_c_20 : Ref sig .tc := ⟨.hbm, 154, rfl⟩
abbrev main_v106 : Ref sig .tc := ⟨.hbm, 155, rfl⟩
abbrev main_v107 : Ref sig .tc := ⟨.hbm, 156, rfl⟩
abbrev main_c_21 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_22 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call6_cst : Ref sig .tc := ⟨.hbm, 173, rfl⟩
abbrev main_call6_v0 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_23 : Ref sig .tc := ⟨.hbm, 180, rfl⟩
abbrev main_v127 : Ref sig .tc := ⟨.hbm, 181, rfl⟩
abbrev main_v128 : Ref sig .tc := ⟨.hbm, 182, rfl⟩
abbrev main_cst_24 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S200000_S840000_d0 : Shape.Concatenates [S640000, S200000] S840000 0
  slices_S2x640000_S1x640000_1_0 : S2x640000.Slices ![1, 0] S1x640000
  bcast_S_S840000 : S_.BroadcastsInDim S840000 (![] : Fin 0 → Fin S840000.rank)
  bcast_S_S200000 : S_.BroadcastsInDim S200000 (![] : Fin 0 → Fin S200000.rank)
  bcast_S840000_S840000x1_0 : S840000.BroadcastsInDim S840000x1 (![0] : Fin 1 → Fin S840000x1.rank)
  bcast_S840000x1_S840000x32_0_1 : S840000x1.BroadcastsInDim S840000x32 (![0, 1] : Fin 2 → Fin S840000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S840000x1_S840000x128_0_1 : S840000x1.BroadcastsInDim S840000x128 (![0, 1] : Fin 2 → Fin S840000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S200000_S840000x1_S840000_n_0_0_1_wf : ScatterDims.WF S200000 S840000x1 S840000 [] [0] [0] 1
  gather_S200000_S840000x1_S840000_n_0_n_n_0_1_1_wf : GatherDims.WF S200000 S840000x1 S840000 [] [0] [] [0] [] 1 ![1]
  dot_S200000x2_S2x32_S200000x32_1_0_0_1_n_n_wf : DotDims.WF S200000x2 S2x32 S200000x32 [1] [0] [0] [1] [] []
  gather_S200000x32_S840000x1_S840000x32_1_0_n_n_0_1_132_wf : GatherDims.WF S200000x32 S840000x1 S840000x32 [1] [0] [] [0] [] 1 ![1, 32]
  scatter_S200000x32_S840000x1_S840000x32_1_0_0_1_wf : ScatterDims.WF S200000x32 S840000x1 S840000x32 [1] [0] [0] 1
  dot_S200000x32_S32x128_S200000x128_1_0_0_1_n_n_wf : DotDims.WF S200000x32 S32x128 S200000x128 [1] [0] [0] [1] [] []
  gather_S200000x128_S840000x1_S840000x128_1_0_n_n_0_1_1128_wf : GatherDims.WF S200000x128 S840000x1 S840000x128 [1] [0] [] [0] [] 1 ![1, 128]
  scatter_S200000x128_S840000x1_S840000x128_1_0_0_1_wf : ScatterDims.WF S200000x128 S840000x1 S840000x128 [1] [0] [0] 1
  dot_S200000x128_S128x128_S200000x128_1_0_0_1_n_n_wf : DotDims.WF S200000x128 S128x128 S200000x128 [1] [0] [0] [1] [] []
  dot_S200000x128_S128x1_S200000x1_1_0_0_1_n_n_wf : DotDims.WF S200000x128 S128x1 S200000x1 [1] [0] [0] [1] [] []

variable [Facts₀]

def scatter_S200000_S840000x1_S840000_n_0_0_1 : ScatterDims S200000 S840000x1 S840000 where
  updateWindowDims := []
  insertedWindowDims := [0]
  scatterDimsToOperandDims := [0]
  indexVectorDim := 1
  wf := scatter_S200000_S840000x1_S840000_n_0_0_1_wf
def gather_S200000_S840000x1_S840000_n_0_n_n_0_1_1 : GatherDims S200000 S840000x1 S840000 where
  offsetDims := []
  collapsedSliceDims := [0]
  operandBatchingDims := []
  startIndicesBatchingDims := []
  startIndexMap := [0]
  indexVectorDim := 1
  sliceSizes := ![1]
  wf := gather_S200000_S840000x1_S840000_n_0_n_n_0_1_1_wf
def dot_S200000x2_S2x32_S200000x32_1_0_0_1_n_n : DotDims S200000x2 S2x32 S200000x32 where
  lhsContracting := [1]
  rhsContracting := [0]
  lhsNonContracting := [0]
  rhsNonContracting := [1]
  lhsBatch := []
  rhsBatch := []
  wf := dot_S200000x2_S2x32_S200000x32_1_0_0_1_n_n_wf
def gather_S200000x32_S840000x1_S840000x32_1_0_n_n_0_1_132 : GatherDims S200000x32 S840000x1 S840000x32 where
  offsetDims := [1]
  collapsedSliceDims := [0]
  operandBatchingDims := []
  startIndicesBatchingDims := []
  startIndexMap := [0]
  indexVectorDim := 1
  sliceSizes := ![1, 32]
  wf := gather_S200000x32_S840000x1_S840000x32_1_0_n_n_0_1_132_wf
def scatter_S200000x32_S840000x1_S840000x32_1_0_0_1 : ScatterDims S200000x32 S840000x1 S840000x32 where
  updateWindowDims := [1]
  insertedWindowDims := [0]
  scatterDimsToOperandDims := [0]
  indexVectorDim := 1
  wf := scatter_S200000x32_S840000x1_S840000x32_1_0_0_1_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf
def gather_S200000x128_S840000x1_S840000x128_1_0_n_n_0_1_1128 : GatherDims S200000x128 S840000x1 S840000x128 where
  offsetDims := [1]
  collapsedSliceDims := [0]
  operandBatchingDims := []
  startIndicesBatchingDims := []
  startIndexMap := [0]
  indexVectorDim := 1
  sliceSizes := ![1, 128]
  wf := gather_S200000x128_S840000x1_S840000x128_1_0_n_n_0_1_1128_wf
def scatter_S200000x128_S840000x1_S840000x128_1_0_0_1 : ScatterDims S200000x128 S840000x1 S840000x128 where
  updateWindowDims := [1]
  insertedWindowDims := [0]
  scatterDimsToOperandDims := [0]
  indexVectorDim := 1
  wf := scatter_S200000x128_S840000x1_S840000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.GcnSpec.lean ====
/-
  A graph convolution with symmetric normalisation, entry by entry on the extended reals, in two arrangements.

  The graph is given by what the programs compute from the edge list: for every edge `e` the row `s e` its source
  selects, the row `g e` its destination selects when read as a gather index, the set `L p` of the edges whose
  destination lands on node `p` in the accumulating scatter, and for every node `p` the factor `d p`, the inverse
  square root of its degree.

  One arrangement multiplies every message by `d (s e) * d (g e)` before the scatter sums it: entry `(p, q)` of a layer is
  `max (∑ e ∈ L p, (H·W) (s e) q * (d (s e) * d (g e)) + b q) 0`.  The other multiplies the rows of `H·W` by `d` before the
  gather, sums the plain rows, and multiplies the sum by `d p` afterwards.  They agree when every `d p` is a
  nonnegative real (a nonnegative real factor distributes over any finite sum of extended reals, infinite terms
  included) and every edge that lands on `p` reads `p` as its gather index.
-/
import Idealize.ShloMosaic.PureOps.Ideal.Laws

noncomputable section

open scoped BigOperators

namespace Gcn

/-- A nonnegative real factor distributes over a finite sum of extended reals. -/
theorem coe_mul_sum {ι : Type} (S : Finset ι) (r : ℝ) (hr : 0 ≤ r) (f : ι → EReal) :
    (r : EReal) * ∑ e ∈ S, f e = ∑ e ∈ S, (r : EReal) * f e := by
  classical
  induction S using Finset.induction_on with
  | empty => simp
  | insert a S ha ih =>
    rw [Finset.sum_insert ha, Finset.sum_insert ha,
      EReal.left_distrib_of_nonneg_of_ne_top (EReal.coe_nonneg.2 hr) (EReal.coe_ne_top r), ih]

variable {N E : Nat}

/-- Entry `(p, q)` of the product of the activations `H` by the weights `W`. -/
def mm {K D : Nat} (H : Fin N → Fin K → EReal) (W : Fin K → Fin D → EReal) (p : Fin N) (q : Fin D) : EReal :=
  ∑ k : Fin K, H p k * W k q

section Graph

variable (d : Fin N → EReal) (s g : Fin E → Fin N) (L : Fin N → Finset (Fin E))

/-- The rows of `H·W` multiplied by the node factor: what is gathered in the second arrangement. -/
def scaled {K D : Nat} (H : Fin N → Fin K → EReal) (W : Fin K → Fin D → EReal) : Fin N → Fin D → EReal :=
  fun p q => mm H W p q * d p

/-- The plain sum of the gathered rows over the edges landing on `p`, from zero. -/
def aggK {D : Nat} (hs : Fin N → Fin D → EReal) : Fin N → Fin D → EReal :=
  fun p q => 0 + ∑ e ∈ L p, hs (s e) q

/-- The sum multiplied by the node factor, plus the bias, clamped at zero. -/
def actK {D : Nat} (agg : Fin N → Fin D → EReal) (b : Fin D → EReal) : Fin N → Fin D → EReal :=
  fun p q => max (d p * agg p q + b q) 0

/-- The sum of the gathered rows each multiplied by its edge weight `d (s e) * d (g e)`, from zero. -/
def aggR {D : Nat} (M : Fin N → Fin D → EReal) : Fin N → Fin D → EReal :=
  fun p q => 0 + ∑ e ∈ L p, M (s e) q * (d (s e) * d (g e))

/-- The sum plus the bias, clamped at zero. -/
def actR {D : Nat} (agg : Fin N → Fin D → EReal) (b : Fin D → EReal) : Fin N → Fin D → EReal :=
  fun p q => max (agg p q + b q) 0

/-- The two arrangements of the weighted aggregation agree entry by entry. -/
theorem agg_eq (hd : ∀ p, ∃ r : ℝ, 0 ≤ r ∧ d p = (r : EReal)) (hg : ∀ p, ∀ e ∈ L p, g e = p)
    {D : Nat} (M : Fin N → Fin D → EReal) (p : Fin N) (q : Fin D) :
    d p * aggK s L (fun p q => M p q * d p) p q = aggR d s g L M p q := by
  obtain ⟨r, hr, hdp⟩ := hd p
  unfold aggK aggR
  rw [zero_add, zero_add, hdp, coe_mul_sum _ r hr]
  refine Finset.sum_congr rfl fun e he => ?_
  show (r : EReal) * (M (s e) q * d (s e)) = M (s e) q * (d (s e) * d (g e))
  rw [hg p e he, hdp, mul_comm ((r : EReal)) (M (s e) q * d (s e)), mul_assoc]

/-- One layer in the two arrangements. -/
theorem layer_eq (hd : ∀ p, ∃ r : ℝ, 0 ≤ r ∧ d p = (r : EReal)) (hg : ∀ p, ∀ e ∈ L p, g e = p)
    {K D : Nat} (H : Fin N → Fin K → EReal) (W : Fin K → Fin D → EReal) (b : Fin D → EReal) :
    actK d (aggK s L (scaled d H W)) b = actR (aggR d s g L (mm H W)) b := by
  funext p q
  unfold actK actR scaled
  rw [agg_eq d s g L hd hg (mm H W) p q]

/-- The output head after the last layer: an affine map to one column, then the leaky clamp `f`. -/
def head {K : Nat} (f : EReal → EReal) (H : Fin N → Fin K → EReal) (W : Fin K → Fin 1 → EReal) (b : EReal) :
    Fin N → Fin 1 → EReal :=
  fun p q => f (mm H W p q + b)

end Graph

end Gcn

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«153643_j6382321401984_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.GcnLayers.lean ====
/-
  The five graph-convolution layers and the output head, composed, in the two arrangements of GcnSpec, over the
  arrays the programs hold: the node features [200000, 2], the weights and biases of the layers, the edge index
  columns [840000, 1] (sources as gather indices, destinations as scatter indices, destinations as gather indices)
  and the vector [200000] of node factors.  An array of rank two is read as a function of its two coordinates and
  back; the row a gather index selects is the index read signed, clamped into the rows; the edges landing on a
  node are those whose scatter index, read signed, is the node's number.
-/
import Idealize.ShloMosaic.PureOps.Ideal.Laws
import Idealize.ShloMosaic.Lib.ValueIdx
import proofs.«153643_j6382321401984_2_alg».proof.Proof.GcnSpec
import proofs.«153643_j6382321401984_2_alg».proof.Proof.LibGraphIdx

noncomputable section

open scoped BigOperators

namespace Gcn

open Idealize.ShloMosaic Idealize.ShloMosaic.ValueIdx

/-- The number of nodes and the number of edges once every node's loop is appended. -/
abbrev NN : Nat := 200000
abbrev EE : Nat := 840000

theorem NN_pos : 0 < NN := by norm_num

/-- A rank-two array as a function of its two coordinates, and back. -/
def f2 {n k : Nat} (A : (⟨2, ![n, k]⟩ : Shape).Idx → EReal) : Fin n → Fin k → EReal := fun p q => A (ix2 p q)
def f1 {k : Nat} (v : (⟨1, ![k]⟩ : Shape).Idx → EReal) : Fin k → EReal := fun q => v (ix1 q)
def arr2 {n k : Nat} (f : Fin n → Fin k → EReal) : (⟨2, ![n, k]⟩ : Shape).Idx → EReal := fun i => f (i 0) (i 1)

theorem arr2_ix2 {n k : Nat} (f : Fin n → Fin k → EReal) (p : Fin n) (q : Fin k) : arr2 f (ix2 p q) = f p q := rfl
theorem f2_arr2 {n k : Nat} (f : Fin n → Fin k → EReal) : f2 (arr2 f) = f := rfl
theorem arr2_f2 {n k : Nat} (A : (⟨2, ![n, k]⟩ : Shape).Idx → EReal) : arr2 (f2 A) = A :=
  funext fun i => congrArg A (eq_ix2 i).symm

/-- The node factors, the row each edge's source selects, the row each edge's destination selects as a gather
    index, and the edges landing on a node. -/
def dF (dis : (⟨1, ![NN]⟩ : Shape).Idx → EReal) : Fin NN → EReal := fun p => dis (ix1 p)
def sF (srcI : IVec ⟨2, ![EE, 1]⟩ 32) : Fin EE → Fin NN := Cert.GraphIdx.rowOf NN_pos srcI
def LF (dstI : IVec ⟨2, ![EE, 1]⟩ 32) (p : Fin NN) : Finset (Fin EE) :=
  Finset.univ.filter fun e : Fin EE => (dstI (ix2 e 0)).toInt = (p.val : Int)

/-- The output's leaky clamp: the value itself above zero, a hundredth of it (the single-precision pattern) otherwise. -/
def leaky (v : EReal) : EReal :=
  Scalar.select (FloatOps.cmpf (F := Ideal) (φ := .f32) .ogt v 0) v (Ideal.ofBits .f32 0x3C23D70A#32 * v)

section Layers

variable (x : (⟨2, ![NN, 2]⟩ : Shape).Idx → EReal)
  (W1 : (⟨2, ![2, 32]⟩ : Shape).Idx → EReal) (b1 : (⟨1, ![32]⟩ : Shape).Idx → EReal)
  (W2 : (⟨2, ![32, 128]⟩ : Shape).Idx → EReal) (b2 : (⟨1, ![128]⟩ : Shape).Idx → EReal)
  (W3 : (⟨2, ![128, 128]⟩ : Shape).Idx → EReal) (b3 : (⟨1, ![128]⟩ : Shape).Idx → EReal)
  (W4 : (⟨2, ![128, 128]⟩ : Shape).Idx → EReal) (b4 : (⟨1, ![128]⟩ : Shape).Idx → EReal)
  (W5 : (⟨2, ![128, 128]⟩ : Shape).Idx → EReal) (b5 : (⟨1, ![128]⟩ : Shape).Idx → EReal)
  (Wl : (⟨2, ![128, 1]⟩ : Shape).Idx → EReal) (bl : (⟨1, ![1]⟩ : Shape).Idx → EReal)
  (srcI dstI dstW : IVec ⟨2, ![EE, 1]⟩ 32) (dis : (⟨1, ![NN]⟩ : Shape).Idx → EReal)

/-- The arrangement that scales rows before the gather and the sum after the scatter. -/
def layersK : Fin NN → Fin 1 → EReal :=
  head leaky
    (actK (dF dis) (aggK (sF srcI) (LF dstI) (scaled (dF dis)
      (actK (dF dis) (aggK (sF srcI) (LF dstI) (scaled (dF dis)
        (actK (dF dis) (aggK (sF srcI) (LF dstI) (scaled (dF dis)
          (actK (dF dis) (aggK (sF srcI) (LF dstI) (scaled (dF dis)
            (actK (dF dis) (aggK (sF srcI) (LF dstI) (scaled (dF dis) (f2 x) (f2 W1))) (f1 b1))
            (f2 W2))) (f1 b2))
          (f2 W3))) (f1 b3))
        (f2 W4))) (f1 b4))
      (f2 W5))) (f1 b5))
    (f2 Wl) (bl (ix1 0))

/-- The arrangement that weighs every message by both factors before the scatter. -/
def layersR : Fin NN → Fin 1 → EReal :=
  head leaky
    (actR (aggR (dF dis) (sF srcI) (sF dstW) (LF dstI) (mm
      (actR (aggR (dF dis) (sF srcI) (sF dstW) (LF dstI) (mm
        (actR (aggR (dF dis) (sF srcI) (sF dstW) (LF dstI) (mm
          (actR (aggR (dF dis) (sF srcI) (sF dstW) (LF dstI) (mm
            (actR (aggR (dF dis) (sF srcI) (sF dstW) (LF dstI) (mm (f2 x) (f2 W1))) (f1 b1))
            (f2 W2))) (f1 b2))
          (f2 W3))) (f1 b3))
        (f2 W4))) (f1 b4))
      (f2 W5))) (f1 b5))
    (f2 Wl) (bl (ix1 0))

/-- The two compositions are one function when the node factors are nonnegative reals and every edge landing on a
    node selects that node as its destination's gather row. -/
theorem layersK_eq_layersR (hd : ∀ p, ∃ r : ℝ, 0 ≤ r ∧ dF dis p = (r : EReal))
    (hg : ∀ p, ∀ e ∈ LF dstI p, sF dstW e = p) :
    layersK x W1 b1 W2 b2 W3 b3 W4 b4 W5 b5 Wl bl srcI dstI dis
      = layersR x W1 b1 W2 b2 W3 b3 W4 b4 W5 b5 Wl bl srcI dstI dstW dis := by
  unfold layersK layersR
  simp only [layer_eq (dF dis) (sF srcI) (sF dstW) (LF dstI) hd hg]

end Layers

end Gcn

end
-- ==== Proof.KGraph.lean ====
/-
  The graph arrays the kernel's host code computes, at the ideal reading, from the edge list, as terms of the edge-index argument:
  the sources and destinations with every node's loop appended, the wrap of a negative index, the one-column index
  arrays, every node's degree and the node factor, its inverse square root.
-/
import proofs.«153643_j6382321401984_2_alg».proof.Proof.Gen.KernelIdeal.Frame
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The graph arrays the host computes from the edge list -/

/-- The sources, and the destinations, of the edges followed by every node's own loop. -/
def srcVec (a1 : IVec S2x640000 32) : IVec S840000 32 :=
  concatenate S840000 0 [⟨S640000, shapeCast _ (extractStridedSlice S1x640000 ![0, 0] a1 slices_S2x640000_S1x640000_0_0) shapeCasts_S1x640000_S640000⟩, ⟨S200000, iotaInDim S200000 32 0⟩] concatenates_S640000_S200000_S840000_d0
def dstVec (a1 : IVec S2x640000 32) : IVec S840000 32 :=
  concatenate S840000 0 [⟨S640000, shapeCast _ (extractStridedSlice S1x640000 ![1, 0] a1 slices_S2x640000_S1x640000_1_0) shapeCasts_S1x640000_S640000⟩, ⟨S200000, iotaInDim S200000 32 0⟩] concatenates_S640000_S200000_S840000_d0
/-- A negative index counts from the end: the node count is added to it. -/
def wrap (v : IVec S840000 32) : IVec S840000 32 :=
  select (cmpi .slt v (broadcastInDim S840000 ![] bcast_S_S840000 (constantI S_ 32 0#32))) (addi v (broadcastInDim S840000 ![] bcast_S_S840000 (constantI S_ 32 200000#32))) v
/-- An index vector as the one-column index array a gather or a scatter takes. -/
def col (v : IVec S840000 32) : IVec S840000x1 32 := broadcastInDim S840000x1 ![0] bcast_S840000_S840000x1_0 v
def srcIdx (a1 : IVec S2x640000 32) : IVec S840000x1 32 := col (wrap (srcVec a1))
def dstIdx (a1 : IVec S2x640000 32) : IVec S840000x1 32 := col (dstVec a1)
def zerosN : FVec Ideal S200000 .f32 := broadcastInDim S200000 ![] bcast_S_S200000 (constant S_ .f32 0x00000000#32)
def onesN : FVec Ideal S200000 .f32 := broadcastInDim S200000 ![] bcast_S_S200000 (constant S_ .f32 0x3F800000#32)
/-- The degree of every node: ones accumulated at the destinations. -/
def deg (a1 : IVec S2x640000 32) : FVec Ideal S200000 .f32 :=
  Host.scatterAdd scatter_S200000_S840000x1_S840000_n_0_0_1 zerosN (dstIdx a1) (broadcastInDim S840000 ![] bcast_S_S840000 (constant S_ .f32 0x3F800000#32))
/-- The node factor: the inverse square root of a positive degree, zero otherwise. -/
def disVec (a1 : IVec S2x640000 32) : FVec Ideal S200000 .f32 :=
  select (cmpf .ogt (deg a1) zerosN) (Host.rsqrt (select (cmpf .ogt (deg a1) zerosN) (deg a1) onesN)) zerosN

end Cert.KernelIdeal.KValue

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.KCarry.lean ====
/-
  The kernel's buffers, at the ideal reading, at the boundaries of @main's segments: what each stretch of host operations writes
  as a term of the buffers before it, and which buffers every stretch and every region leaves as they were.  The edge
  list's index vectors, the node factor's column and the argument arrays are carried from where they are made to
  every region and stretch that reads them.
-/
import proofs.«153643_j6382321401984_2_alg».proof.Proof.Gen.KernelIdeal.Frame
import proofs.«153643_j6382321401984_2_alg».proof.Proof.KGraph
import proofs.«153643_j6382321401984_2_alg».proof.Proof.LibTypedRef
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## What each stretch of host operations writes, and what every boundary keeps -/

abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_cst_3]
theorem hostOps0_writes : (hostOps0 : List (HloOp τ sig (Elt Ideal))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps0_1_W : List (Ref sig .tc) := [main_call0_v0, main_call0_v1, main_v15]
theorem hostOps0_1_writes : (hostOps0_1 : List (HloOp τ sig (Elt Ideal))).Forall fun op => op.writes ⊆ (hostOps0_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps0_2_W : List (Ref sig .tc) := [main_v16, main_cst_4]
theorem hostOps0_2_writes : (hostOps0_2 : List (HloOp τ sig (Elt Ideal))).Forall fun op => op.writes ⊆ (hostOps0_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps0_3_W : List (Ref sig .tc) := [main_call1_v0, main_call1_v1, main_v17]
theorem hostOps0_3_writes : (hostOps0_3 : List (HloOp τ sig (Elt Ideal))).Forall fun op => op.writes ⊆ (hostOps0_3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps0_4_W : List (Ref sig .tc) := [main_v18]
theorem hostOps0_4_writes : (hostOps0_4 : List (HloOp τ sig (Elt Ideal))).Forall fun op => op.writes ⊆ (hostOps0_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
abbrev hostOps1_W : List (Ref sig .tc) := [main_c, main_v20, main_v21, main_c_5, main_v22, main_v23, main_v24, main_v25, main_v26, main_cst_6, main_v27, main_v28, main_v29, main_v30]
theorem hostOps1_writes : (hostOps1 : List (HloOp τ sig (Elt Ideal))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps2_W : List (Ref sig .tc) := [main_c_7, main_v32, main_v33, main_c_8, main_v34, main_v35, main_v36, main_v37, main_v38, main_cst_9, main_v39, main_v40, main_v41, main_v42]
theorem hostOps2_writes : (hostOps2 : List (HloOp τ sig (Elt Ideal))).Forall fun op => op.writes ⊆ (hostOps2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps3_W : List (Ref sig .tc) := [main_c_10, main_v44, main_v45, main_c_11, main_v46, main_v47, main_v48, main_v49, main_v50, main_cst_12, main_v51, main_v52, main_v53, main_v54]
theorem hostOps3_writes : (hostOps3 : List (HloOp τ sig (Elt Ideal))).Forall fun op => op.writes ⊆ (hostOps3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps4_W : List (Ref sig .tc) := [main_c_13, main_v56, main_v57, main_c_14, main_v58, main_v59, main_v60, main_v61, main_v62, main_cst_15, main_v63, main_v64, main_v65, main_v66]
theorem hostOps4_writes : (hostOps4 : List (HloOp τ sig (Elt Ideal))).Forall fun op => op.writes ⊆ (hostOps4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
abbrev hostOps5_W : List (Ref sig .tc) := [main_c_16, main_v68, main_v69, main_c_17, main_v70, main_v71, main_v72, main_v73, main_v74, main_cst_18, main_v75, main_v76, main_v77, main_v78, main_v79]
theorem hostOps5_writes : (hostOps5 : List (HloOp τ sig (Elt Ideal))).Forall fun op => op.writes ⊆ (hostOps5_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

variable (m : (ℓ : Loc nD τ sig) → Buf (Elt Ideal) ℓ) (ρ : Dev nD → PrngReg) (c : Dev nD)

theorem keep1 (b : Ref sig .tc) (h : b ∉ hostOps0_W) : W1 m ρ c (Proc.devRef .tc b) = W0 m ρ c (Proc.devRef .tc b) :=
  StableHlo.after_of_writes_sub hostOps0 _ hostOps0_writes h
theorem keep2 (b : Ref sig .tc) (h : b ∉ hostOps0_1_W) : W2 m ρ c (Proc.devRef .tc b) = W1 m ρ c (Proc.devRef .tc b) :=
  StableHlo.after_of_writes_sub hostOps0_1 _ hostOps0_1_writes h
theorem keep3 (b : Ref sig .tc) (h : b ∉ hostOps0_2_W) : W3 m ρ c (Proc.devRef .tc b) = W2 m ρ c (Proc.devRef .tc b) :=
  StableHlo.after_of_writes_sub hostOps0_2 _ hostOps0_2_writes h
theorem keep4 (b : Ref sig .tc) (h : b ∉ hostOps0_3_W) : W4 m ρ c (Proc.devRef .tc b) = W3 m ρ c (Proc.devRef .tc b) :=
  StableHlo.after_of_writes_sub hostOps0_3 _ hostOps0_3_writes h
theorem keep5 (b : Ref sig .tc) (h : b ∉ hostOps0_4_W) : W5 m ρ c (Proc.devRef .tc b) = W4 m ρ c (Proc.devRef .tc b) :=
  StableHlo.after_of_writes_sub hostOps0_4 _ hostOps0_4_writes h
theorem keep6 (b : Ref sig .tc) (h : ∀ w, Pipeline.arrRef spec0 w ≠ b) : W6 m ρ c (Proc.devRef .tc b) = W5 m ρ c (Proc.devRef .tc b) :=
  W6_of_ne m ρ c b h
theorem keep7 (b : Ref sig .tc) (h : b ∉ hostOps1_W) : W7 m ρ c (Proc.devRef .tc b) = W6 m ρ c (Proc.devRef .tc b) :=
  StableHlo.after_of_writes_sub hostOps1 _ hostOps1_writes h
theorem keep8 (b : Ref sig .tc) (h : ∀ w, Pipeline.arrRef spec1 w ≠ b) : W8 m ρ c (Proc.devRef .tc b) = W7 m ρ c (Proc.devRef .tc b) :=
  W8_of_ne m ρ c b h
theorem keep9 (b : Ref sig .tc) (h : b ∉ hostOps2_W) : W9 m ρ c (Proc.devRef .tc b) = W8 m ρ c (Proc.devRef .tc b) :=
  StableHlo.after_of_writes_sub hostOps2 _ hostOps2_writes h
theorem keep10 (b : Ref sig .tc) (h : ∀ w, Pipeline.arrRef spec2 w ≠ b) : W10 m ρ c (Proc.devRef .tc b) = W9 m ρ c (Proc.devRef .tc b) :=
  W10_of_ne m ρ c b h
theorem keep11 (b : Ref sig .tc) (h : b ∉ hostOps3_W) : W11 m ρ c (Proc.devRef .tc b) = W10 m ρ c (Proc.devRef .tc b) :=
  StableHlo.after_of_writes_sub hostOps3 _ hostOps3_writes h
theorem keep12 (b : Ref sig .tc) (h : ∀ w, Pipeline.arrRef spec3 w ≠ b) : W12 m ρ c (Proc.devRef .tc b) = W11 m ρ c (Proc.devRef .tc b) :=
  W12_of_ne m ρ c b h
theorem keep13 (b : Ref sig .tc) (h : b ∉ hostOps4_W) : W13 m ρ c (Proc.devRef .tc b) = W12 m ρ c (Proc.devRef .tc b) :=
  StableHlo.after_of_writes_sub hostOps4 _ hostOps4_writes h
theorem keep14 (b : Ref sig .tc) (h : ∀ w, Pipeline.arrRef spec4 w ≠ b) : W14 m ρ c (Proc.devRef .tc b) = W13 m ρ c (Proc.devRef .tc b) :=
  W14_of_ne m ρ c b h
theorem keep15 (b : Ref sig .tc) (h : b ∉ hostOps5_W) : W15 m ρ c (Proc.devRef .tc b) = W14 m ρ c (Proc.devRef .tc b) :=
  StableHlo.after_of_writes_sub hostOps5 _ hostOps5_writes h

/-! ## Contents carried to a typed reference's own type and back -/

/-- At a literal reference the equation of types holds by computation and each transport is the identity. -/
theorem of_v14 (x : (Proc.devRef (τ := τ) .tc main_v14).ty.Contents (Elt Ideal)) :
    (TRef.of (sig := sig) (T := ⟨S200000, .i1⟩) main_v14).ofBuf (Val := Elt Ideal) x = (x : IVec S200000 1) := rfl
theorem of_v10 (x : (Proc.devRef (τ := τ) .tc main_v10).ty.Contents (Elt Ideal)) :
    (TRef.of (sig := sig) (T := ⟨S200000, .f32⟩) main_v10).ofBuf (Val := Elt Ideal) x = (x : S200000.Idx → EReal) := rfl
theorem of_cst3 (x : (Proc.devRef (τ := τ) .tc main_cst_3).ty.Contents (Elt Ideal)) :
    (TRef.of (sig := sig) (T := ⟨S_, .f32⟩) main_cst_3).ofBuf (Val := Elt Ideal) x = (x : S_.Idx → EReal) := rfl
theorem to_v15 (x : S200000.Idx → EReal) :
    ((TRef.of (sig := sig) (T := ⟨S200000, .f32⟩) main_v15).toBuf (Val := Elt Ideal) x : S200000.Idx → EReal) = x := rfl
theorem of_v12 (x : (Proc.devRef (τ := τ) .tc main_v12).ty.Contents (Elt Ideal)) :
    (TRef.of (sig := sig) (T := ⟨S200000, .i1⟩) main_v12).ofBuf (Val := Elt Ideal) x = (x : IVec S200000 1) := rfl
theorem of_v16 (x : (Proc.devRef (τ := τ) .tc main_v16).ty.Contents (Elt Ideal)) :
    (TRef.of (sig := sig) (T := ⟨S200000, .f32⟩) main_v16).ofBuf (Val := Elt Ideal) x = (x : S200000.Idx → EReal) := rfl
theorem of_cst4 (x : (Proc.devRef (τ := τ) .tc main_cst_4).ty.Contents (Elt Ideal)) :
    (TRef.of (sig := sig) (T := ⟨S_, .f32⟩) main_cst_4).ofBuf (Val := Elt Ideal) x = (x : S_.Idx → EReal) := rfl
theorem to_v17 (x : S200000.Idx → EReal) :
    ((TRef.of (sig := sig) (T := ⟨S200000, .f32⟩) main_v17).toBuf (Val := Elt Ideal) x : S200000.Idx → EReal) = x := rfl

/-! ## What the stretches write -/

set_option maxHeartbeats 4000000 in
theorem v5_at1 : (W1 m ρ c (Proc.devRef .tc main_v5) : IVec S840000 32) = srcVec (m ((c : Thread nD τ).loc main_arg1)) := by
  show StableHlo.after hostOps0 (W0 m ρ c) (Proc.devRef .tc main_v5) = _
  after_results <;> rfl
set_option maxHeartbeats 4000000 in
theorem v6_at1 : (W1 m ρ c (Proc.devRef .tc main_v6) : IVec S840000 32) = dstVec (m ((c : Thread nD τ).loc main_arg1)) := by
  show StableHlo.after hostOps0 (W0 m ρ c) (Proc.devRef .tc main_v6) = _
  after_results <;> rfl
set_option maxHeartbeats 4000000 in
theorem v10_at1 : (W1 m ρ c (Proc.devRef .tc main_v10) : S200000.Idx → EReal) = deg (m ((c : Thread nD τ).loc main_arg1)) := by
  show StableHlo.after hostOps0 (W0 m ρ c) (Proc.devRef .tc main_v10) = _
  after_results <;> rfl
set_option maxHeartbeats 4000000 in
theorem v12_at1 : (W1 m ρ c (Proc.devRef .tc main_v12) : IVec S200000 1) = cmpf .ogt (deg (m ((c : Thread nD τ).loc main_arg1))) zerosN := by
  show StableHlo.after hostOps0 (W0 m ρ c) (Proc.devRef .tc main_v12) = _
  after_results <;> rfl
set_option maxHeartbeats 4000000 in
theorem v14_at1 : (W1 m ρ c (Proc.devRef .tc main_v14) : IVec S200000 1) = cmpf .ogt (deg (m ((c : Thread nD τ).loc main_arg1))) zerosN := by
  show StableHlo.after hostOps0 (W0 m ρ c) (Proc.devRef .tc main_v14) = _
  after_results <;> rfl
set_option maxHeartbeats 4000000 in
theorem cst3_at1 : (W1 m ρ c (Proc.devRef .tc main_cst_3) : S_.Idx → EReal) = constant (F := Ideal) S_ .f32 0x3F800000#32 := by
  show StableHlo.after hostOps0 (W0 m ρ c) (Proc.devRef .tc main_cst_3) = _
  after_results <;> rfl
set_option maxHeartbeats 4000000 in
theorem v15_at2 : (W2 m ρ c (Proc.devRef .tc main_v15) : S200000.Idx → EReal) = select (W1 m ρ c (Proc.devRef .tc main_v14) : IVec S200000 1) (W1 m ρ c (Proc.devRef .tc main_v10) : S200000.Idx → EReal) (broadcastInDim S200000 ![] bcast_S_S200000 (W1 m ρ c (Proc.devRef .tc main_cst_3) : S_.Idx → EReal)) := by
  show StableHlo.after hostOps0_1 (W1 m ρ c) (Proc.devRef .tc main_v15) = _
  after_results
  generalize W1 m ρ c (Proc.devRef .tc main_v14) = y0
  generalize W1 m ρ c (Proc.devRef .tc main_v10) = y1
  generalize W1 m ρ c (Proc.devRef .tc main_cst_3) = y2
  simp only [TRef.ofBuf_toBuf, of_v14, of_v10, of_cst3, to_v15, id]
set_option maxHeartbeats 4000000 in
theorem v16_at3 : (W3 m ρ c (Proc.devRef .tc main_v16) : S200000.Idx → EReal) = Host.rsqrt (F := Ideal) (φ := .f32) (W2 m ρ c (Proc.devRef .tc main_v15) : S200000.Idx → EReal) := by
  show StableHlo.after hostOps0_2 (W2 m ρ c) (Proc.devRef .tc main_v16) = _
  after_results <;> rfl
set_option maxHeartbeats 4000000 in
theorem cst4_at3 : (W3 m ρ c (Proc.devRef .tc main_cst_4) : S_.Idx → EReal) = constant (F := Ideal) S_ .f32 0x00000000#32 := by
  show StableHlo.after hostOps0_2 (W2 m ρ c) (Proc.devRef .tc main_cst_4) = _
  after_results <;> rfl
set_option maxHeartbeats 4000000 in
theorem v17_at4 : (W4 m ρ c (Proc.devRef .tc main_v17) : S200000.Idx → EReal) = select (W3 m ρ c (Proc.devRef .tc main_v12) : IVec S200000 1) (W3 m ρ c (Proc.devRef .tc main_v16) : S200000.Idx → EReal) (broadcastInDim S200000 ![] bcast_S_S200000 (W3 m ρ c (Proc.devRef .tc main_cst_4) : S_.Idx → EReal)) := by
  show StableHlo.after hostOps0_3 (W3 m ρ c) (Proc.devRef .tc main_v17) = _
  after_results
  generalize W3 m ρ c (Proc.devRef .tc main_v12) = y0
  generalize W3 m ρ c (Proc.devRef .tc main_v16) = y1
  generalize W3 m ρ c (Proc.devRef .tc main_cst_4) = y2
  simp only [TRef.ofBuf_toBuf, of_v12, of_v16, of_cst4, to_v17, id]
set_option maxHeartbeats 4000000 in
theorem v18_at5' : (W5 m ρ c (Proc.devRef .tc main_v18) : S200000x1.Idx → EReal) = shapeCast S200000x1 (W4 m ρ c (Proc.devRef .tc main_v17) : S200000.Idx → EReal) shapeCasts_S200000_S200000x1 := by
  show StableHlo.after hostOps0_4 (W4 m ρ c) (Proc.devRef .tc main_v18) = _
  after_results <;> rfl
theorem v12_at3 : (W3 m ρ c (Proc.devRef .tc main_v12) : IVec S200000 1) = cmpf .ogt (deg (m ((c : Thread nD τ).loc main_arg1))) zerosN :=
  (keep3 m ρ c main_v12 (by decide)).trans ((keep2 m ρ c main_v12 (by decide)).trans (v12_at1 m ρ c))
/-- The node factor's column as the regions find it. -/
theorem v18_at5 : (W5 m ρ c (Proc.devRef .tc main_v18) : S200000x1.Idx → EReal) = shapeCast S200000x1 (disVec (m ((c : Thread nD τ).loc main_arg1))) shapeCasts_S200000_S200000x1 := by
  rw [v18_at5', v17_at4, v12_at3, v16_at3, cst4_at3, v15_at2, v14_at1, v10_at1, cst3_at1]
  rfl
set_option maxHeartbeats 4000000 in
theorem agg1_at7 : (W7 m ρ c (Proc.devRef .tc main_v29) : S200000x32.Idx → EReal) = Host.scatterAdd (F := Ideal) scatter_S200000x32_S840000x1_S840000x32_1_0_0_1 (broadcastInDim S200000x32 ![] bcast_S_S200000x32 (constant (F := Ideal) S_ .f32 0x00000000#32))
        (col (W6 m ρ c (Proc.devRef .tc main_v6) : IVec S840000 32))
        (Host.gather gather_S200000x32_S840000x1_S840000x32_1_0_n_n_0_1_132 (W6 m ρ c (Proc.devRef .tc main_v19) : S200000x32.Idx → EReal) (col (wrap (W6 m ρ c (Proc.devRef .tc main_v5) : IVec S840000 32)))) := by
  show StableHlo.after hostOps1 (W6 m ρ c) (Proc.devRef .tc main_v29) = _
  after_results <;> rfl
set_option maxHeartbeats 4000000 in
theorem b1_at7 : (W7 m ρ c (Proc.devRef .tc main_v30) : S1x32.Idx → EReal) = shapeCast S1x32 (W6 m ρ c (Proc.devRef .tc main_arg3) : S32.Idx → EReal) shapeCasts_S32_S1x32 := by
  show StableHlo.after hostOps1 (W6 m ρ c) (Proc.devRef .tc main_v30) = _
  after_results <;> rfl
set_option maxHeartbeats 4000000 in
theorem agg2_at9 : (W9 m ρ c (Proc.devRef .tc main_v41) : S200000x128.Idx → EReal) = Host.scatterAdd (F := Ideal) scatter_S200000x128_S840000x1_S840000x128_1_0_0_1 (broadcastInDim S200000x128 ![] bcast_S_S200000x128 (constant (F := Ideal) S_ .f32 0x00000000#32))
        (col (W8 m ρ c (Proc.devRef .tc main_v6) : IVec S840000 32))
        (Host.gather gather_S200000x128_S840000x1_S840000x128_1_0_n_n_0_1_1128 (W8 m ρ c (Proc.devRef .tc main_v31) : S200000x128.Idx → EReal) (col (wrap (W8 m ρ c (Proc.devRef .tc main_v5) : IVec S840000 32)))) := by
  show StableHlo.after hostOps2 (W8 m ρ c) (Proc.devRef .tc main_v41) = _
  after_results <;> rfl
set_option maxHeartbeats 4000000 in
theorem b2_at9 : (W9 m ρ c (Proc.devRef .tc main_v42) : S1x128.Idx → EReal) = shapeCast S1x128 (W8 m ρ c (Proc.devRef .tc main_arg5) : S128.Idx → EReal) shapeCasts_S128_S1x128 := by
  show StableHlo.after hostOps2 (W8 m ρ c) (Proc.devRef .tc main_v42) = _
  after_results <;> rfl
set_option maxHeartbeats 4000000 in
theorem agg3_at11 : (W11 m ρ c (Proc.devRef .tc main_v53) : S200000x128.Idx → EReal) = Host.scatterAdd (F := Ideal) scatter_S200000x128_S840000x1_S840000x128_1_0_0_1 (broadcastInDim S200000x128 ![] bcast_S_S200000x128 (constant (F := Ideal) S_ .f32 0x00000000#32))
        (col (W10 m ρ c (Proc.devRef .tc main_v6) : IVec S840000 32))
        (Host.gather gather_S200000x128_S840000x1_S840000x128_1_0_n_n_0_1_1128 (W10 m ρ c (Proc.devRef .tc main_v43) : S200000x128.Idx → EReal) (col (wrap (W10 m ρ c (Proc.devRef .tc main_v5) : IVec S840000 32)))) := by
  show StableHlo.after hostOps3 (W10 m ρ c) (Proc.devRef .tc main_v53) = _
  after_results <;> rfl
set_option maxHeartbeats 4000000 in
theorem b3_at11 : (W11 m ρ c (Proc.devRef .tc main_v54) : S1x128.Idx → EReal) = shapeCast S1x128 (W10 m ρ c (Proc.devRef .tc main_arg7) : S128.Idx → EReal) shapeCasts_S128_S1x128 := by
  show StableHlo.after hostOps3 (W10 m ρ c) (Proc.devRef .tc main_v54) = _
  after_results <;> rfl
set_option maxHeartbeats 4000000 in
theorem agg4_at13 : (W13 m ρ c (Proc.devRef .tc main_v65) : S200000x128.Idx → EReal) = Host.scatterAdd (F := Ideal) scatter_S200000x128_S840000x1_S840000x128_1_0_0_1 (broadcastInDim S200000x128 ![] bcast_S_S200000x128 (constant (F := Ideal) S_ .f32 0x00000000#32))
        (col (W12 m ρ c (Proc.devRef .tc main_v6) : IVec S840000 32))
        (Host.gather gather_S200000x128_S840000x1_S840000x128_1_0_n_n_0_1_1128 (W12 m ρ c (Proc.devRef .tc main_v55) : S200000x128.Idx → EReal) (col (wrap (W12 m ρ c (Proc.devRef .tc main_v5) : IVec S840000 32)))) := by
  show StableHlo.after hostOps4 (W12 m ρ c) (Proc.devRef .tc main_v65) = _
  after_results <;> rfl
set_option maxHeartbeats 4000000 in
theorem b4_at13 : (W13 m ρ c (Proc.devRef .tc main_v66) : S1x128.Idx → EReal) = shapeCast S1x128 (W12 m ρ c (Proc.devRef .tc main_arg9) : S128.Idx → EReal) shapeCasts_S128_S1x128 := by
  show StableHlo.after hostOps4 (W12 m ρ c) (Proc.devRef .tc main_v66) = _
  after_results <;> rfl
set_option maxHeartbeats 4000000 in
theorem agg5_at15 : (W15 m ρ c (Proc.devRef .tc main_v77) : S200000x128.Idx → EReal) = Host.scatterAdd (F := Ideal) scatter_S200000x128_S840000x1_S840000x128_1_0_0_1 (broadcastInDim S200000x128 ![] bcast_S_S200000x128 (constant (F := Ideal) S_ .f32 0x00000000#32))
        (col (W14 m ρ c (Proc.devRef .tc main_v6) : IVec S840000 32))
        (Host.gather gather_S200000x128_S840000x1_S840000x128_1_0_n_n_0_1_1128 (W14 m ρ c (Proc.devRef .tc main_v67) : S200000x128.Idx → EReal) (col (wrap (W14 m ρ c (Proc.devRef .tc main_v5) : IVec S840000 32)))) := by
  show StableHlo.after hostOps5 (W14 m ρ c) (Proc.devRef .tc main_v77) = _
  after_results <;> rfl
set_option maxHeartbeats 4000000 in
theorem b5_at15 : (W15 m ρ c (Proc.devRef .tc main_v78) : S1x128.Idx → EReal) = shapeCast S1x128 (W14 m ρ c (Proc.devRef .tc main_arg11) : S128.Idx → EReal) shapeCasts_S128_S1x128 := by
  show StableHlo.after hostOps5 (W14 m ρ c) (Proc.devRef .tc main_v78) = _
  after_results <;> rfl
set_option maxHeartbeats 4000000 in
theorem bl_at15 : (W15 m ρ c (Proc.devRef .tc main_v79) : S1x1.Idx → EReal) = shapeCast S1x1 (W14 m ρ c (Proc.devRef .tc main_arg13) : S1.Idx → EReal) shapeCasts_S1_S1x1 := by
  show StableHlo.after hostOps5 (W14 m ρ c) (Proc.devRef .tc main_v79) = _
  after_results <;> rfl

/-! ## What is carried to where it is read -/

theorem arg0_at5 : (W5 m ρ c (Proc.devRef .tc main_arg0) : S200000x2.Idx → EReal) = m ((c : Thread nD τ).loc main_arg0) :=
  (keep5 m ρ c main_arg0 (by decide)).trans ((keep4 m ρ c main_arg0 (by decide)).trans ((keep3 m ρ c main_arg0 (by decide)).trans ((keep2 m ρ c main_arg0 (by decide)).trans ((keep1 m ρ c main_arg0 (by decide)).trans (rfl)))))
theorem arg2_at5 : (W5 m ρ c (Proc.devRef .tc main_arg2) : S2x32.Idx → EReal) = m ((c : Thread nD τ).loc main_arg2) :=
  (keep5 m ρ c main_arg2 (by decide)).trans ((keep4 m ρ c main_arg2 (by decide)).trans ((keep3 m ρ c main_arg2 (by decide)).trans ((keep2 m ρ c main_arg2 (by decide)).trans ((keep1 m ρ c main_arg2 (by decide)).trans (rfl)))))
theorem arg3_at6 : (W6 m ρ c (Proc.devRef .tc main_arg3) : S32.Idx → EReal) = m ((c : Thread nD τ).loc main_arg3) :=
  (keep6 m ρ c main_arg3 (by decide)).trans ((keep5 m ρ c main_arg3 (by decide)).trans ((keep4 m ρ c main_arg3 (by decide)).trans ((keep3 m ρ c main_arg3 (by decide)).trans ((keep2 m ρ c main_arg3 (by decide)).trans ((keep1 m ρ c main_arg3 (by decide)).trans (rfl))))))
theorem arg4_at7 : (W7 m ρ c (Proc.devRef .tc main_arg4) : S32x128.Idx → EReal) = m ((c : Thread nD τ).loc main_arg4) :=
  (keep7 m ρ c main_arg4 (by decide)).trans ((keep6 m ρ c main_arg4 (by decide)).trans ((keep5 m ρ c main_arg4 (by decide)).trans ((keep4 m ρ c main_arg4 (by decide)).trans ((keep3 m ρ c main_arg4 (by decide)).trans ((keep2 m ρ c main_arg4 (by decide)).trans ((keep1 m ρ c main_arg4 (by decide)).trans (rfl)))))))
theorem arg5_at8 : (W8 m ρ c (Proc.devRef .tc main_arg5) : S128.Idx → EReal) = m ((c : Thread nD τ).loc main_arg5) :=
  (keep8 m ρ c main_arg5 (by decide)).trans ((keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans ((keep1 m ρ c main_arg5 (by decide)).trans (rfl))))))))
theorem arg6_at9 : (W9 m ρ c (Proc.devRef .tc main_arg6) : S128x128.Idx → EReal) = m ((c : Thread nD τ).loc main_arg6) :=
  (keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans ((keep1 m ρ c main_arg6 (by decide)).trans (rfl)))))))))
theorem arg7_at10 : (W10 m ρ c (Proc.devRef .tc main_arg7) : S128.Idx → EReal) = m ((c : Thread nD τ).loc main_arg7) :=
  (keep10 m ρ c main_arg7 (by decide)).trans ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)).trans (rfl))))))))))
theorem arg8_at11 : (W11 m ρ c (Proc.devRef .tc main_arg8) : S128x128.Idx → EReal) = m ((c : Thread nD τ).loc main_arg8) :=
  (keep11 m ρ c main_arg8 (by decide)).trans ((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans ((keep1 m ρ c main_arg8 (by decide)).trans (rfl)))))))))))
theorem arg9_at12 : (W12 m ρ c (Proc.devRef .tc main_arg9) : S128.Idx → EReal) = m ((c : Thread nD τ).loc main_arg9) :=
  (keep12 m ρ c main_arg9 (by decide)).trans ((keep11 m ρ c main_arg9 (by decide)).trans ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)).trans (rfl))))))))))))
theorem arg10_at13 : (W13 m ρ c (Proc.devRef .tc main_arg10) : S128x128.Idx → EReal) = m ((c : Thread nD τ).loc main_arg10) :=
  (keep13 m ρ c main_arg10 (by decide)).trans ((keep12 m ρ c main_arg10 (by decide)).trans ((keep11 m ρ c main_arg10 (by decide)).trans ((keep10 m ρ c main_arg10 (by decide)).trans ((keep9 m ρ c main_arg10 (by decide)).trans ((keep8 m ρ c main_arg10 (by decide)).trans ((keep7 m ρ c main_arg10 (by decide)).trans ((keep6 m ρ c main_arg10 (by decide)).trans ((keep5 m ρ c main_arg10 (by decide)).trans ((keep4 m ρ c main_arg10 (by decide)).trans ((keep3 m ρ c main_arg10 (by decide)).trans ((keep2 m ρ c main_arg10 (by decide)).trans ((keep1 m ρ c main_arg10 (by decide)).trans (rfl)))))))))))))
theorem arg11_at14 : (W14 m ρ c (Proc.devRef .tc main_arg11) : S128.Idx → EReal) = m ((c : Thread nD τ).loc main_arg11) :=
  (keep14 m ρ c main_arg11 (by decide)).trans ((keep13 m ρ c main_arg11 (by decide)).trans ((keep12 m ρ c main_arg11 (by decide)).trans ((keep11 m ρ c main_arg11 (by decide)).trans ((keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)).trans (rfl))))))))))))))
theorem arg13_at14 : (W14 m ρ c (Proc.devRef .tc main_arg13) : S1.Idx → EReal) = m ((c : Thread nD τ).loc main_arg13) :=
  (keep14 m ρ c main_arg13 (by decide)).trans ((keep13 m ρ c main_arg13 (by decide)).trans ((keep12 m ρ c main_arg13 (by decide)).trans ((keep11 m ρ c main_arg13 (by decide)).trans ((keep10 m ρ c main_arg13 (by decide)).trans ((keep9 m ρ c main_arg13 (by decide)).trans ((keep8 m ρ c main_arg13 (by decide)).trans ((keep7 m ρ c main_arg13 (by decide)).trans ((keep6 m ρ c main_arg13 (by decide)).trans ((keep5 m ρ c main_arg13 (by decide)).trans ((keep4 m ρ c main_arg13 (by decide)).trans ((keep3 m ρ c main_arg13 (by decide)).trans ((keep2 m ρ c main_arg13 (by decide)).trans ((keep1 m ρ c main_arg13 (by decide)).trans (rfl))))))))))))))
theorem arg12_at15 : (W15 m ρ c (Proc.devRef .tc main_arg12) : S128x1.Idx → EReal) = m ((c : Thread nD τ).loc main_arg12) :=
  (keep15 m ρ c main_arg12 (by decide)).trans ((keep14 m ρ c main_arg12 (by decide)).trans ((keep13 m ρ c main_arg12 (by decide)).trans ((keep12 m ρ c main_arg12 (by decide)).trans ((keep11 m ρ c main_arg12 (by decide)).trans ((keep10 m ρ c main_arg12 (by decide)).trans ((keep9 m ρ c main_arg12 (by decide)).trans ((keep8 m ρ c main_arg12 (by decide)).trans ((keep7 m ρ c main_arg12 (by decide)).trans ((keep6 m ρ c main_arg12 (by decide)).trans ((keep5 m ρ c main_arg12 (by decide)).trans ((keep4 m ρ c main_arg12 (by decide)).trans ((keep3 m ρ c main_arg12 (by decide)).trans ((keep2 m ρ c main_arg12 (by decide)).trans ((keep1 m ρ c main_arg12 (by decide)).trans (rfl)))))))))))))))
theorem v5_at6 : (W6 m ρ c (Proc.devRef .tc main_v5) : IVec S840000 32) = srcVec (m ((c : Thread nD τ).loc main_arg1)) :=
  (keep6 m ρ c main_v5 (by decide)).trans ((keep5 m ρ c main_v5 (by decide)).trans ((keep4 m ρ c main_v5 (by decide)).trans ((keep3 m ρ c main_v5 (by decide)).trans ((keep2 m ρ c main_v5 (by decide)).trans (v5_at1 m ρ c)))))
theorem v6_at6 : (W6 m ρ c (Proc.devRef .tc main_v6) : IVec S840000 32) = dstVec (m ((c : Thread nD τ).loc main_arg1)) :=
  (keep6 m ρ c main_v6 (by decide)).trans ((keep5 m ρ c main_v6 (by decide)).trans ((keep4 m ρ c main_v6 (by decide)).trans ((keep3 m ρ c main_v6 (by decide)).trans ((keep2 m ρ c main_v6 (by decide)).trans (v6_at1 m ρ c)))))
theorem v5_at8 : (W8 m ρ c (Proc.devRef .tc main_v5) : IVec S840000 32) = srcVec (m ((c : Thread nD τ).loc main_arg1)) :=
  (keep8 m ρ c main_v5 (by decide)).trans ((keep7 m ρ c main_v5 (by decide)).trans ((keep6 m ρ c main_v5 (by decide)).trans ((keep5 m ρ c main_v5 (by decide)).trans ((keep4 m ρ c main_v5 (by decide)).trans ((keep3 m ρ c main_v5 (by decide)).trans ((keep2 m ρ c main_v5 (by decide)).trans (v5_at1 m ρ c)))))))
theorem v6_at8 : (W8 m ρ c (Proc.devRef .tc main_v6) : IVec S840000 32) = dstVec (m ((c : Thread nD τ).loc main_arg1)) :=
  (keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)).trans (v6_at1 m ρ c)))))))
theorem v5_at10 : (W10 m ρ c (Proc.devRef .tc main_v5) : IVec S840000 32) = srcVec (m ((c : Thread nD τ).loc main_arg1)) :=
  (keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans ((keep3 m ρ c main_v5 (by decide)).trans ((keep2 m ρ c main_v5 (by decide)).trans (v5_at1 m ρ c)))))))))
theorem v6_at10 : (W10 m ρ c (Proc.devRef .tc main_v6) : IVec S840000 32) = dstVec (m ((c : Thread nD τ).loc main_arg1)) :=
  (keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)).trans (v6_at1 m ρ c)))))))))
theorem v5_at12 : (W12 m ρ c (Proc.devRef .tc main_v5) : IVec S840000 32) = srcVec (m ((c : Thread nD τ).loc main_arg1)) :=
  (keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans ((keep3 m ρ c main_v5 (by decide)).trans ((keep2 m ρ c main_v5 (by decide)).trans (v5_at1 m ρ c)))))))))))
theorem v6_at12 : (W12 m ρ c (Proc.devRef .tc main_v6) : IVec S840000 32) = dstVec (m ((c : Thread nD τ).loc main_arg1)) :=
  (keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)).trans (v6_at1 m ρ c)))))))))))
theorem v5_at14 : (W14 m ρ c (Proc.devRef .tc main_v5) : IVec S840000 32) = srcVec (m ((c : Thread nD τ).loc main_arg1)) :=
  (keep14 m ρ c main_v5 (by decide)).trans ((keep13 m ρ c main_v5 (by decide)).trans ((keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans ((keep3 m ρ c main_v5 (by decide)).trans ((keep2 m ρ c main_v5 (by decide)).trans (v5_at1 m ρ c)))))))))))))
theorem v6_at14 : (W14 m ρ c (Proc.devRef .tc main_v6) : IVec S840000 32) = dstVec (m ((c : Thread nD τ).loc main_arg1)) :=
  (keep14 m ρ c main_v6 (by decide)).trans ((keep13 m ρ c main_v6 (by decide)).trans ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans ((keep3 m ρ c main_v6 (by decide)).trans ((keep2 m ρ c main_v6 (by decide)).trans (v6_at1 m ρ c)))))))))))))

/-- The node factor's column is an input window of every region: a region leaves an input's array as it found it. -/
theorem v18_keep6 : W6 m ρ c (Proc.devRef .tc main_v18) = W5 m ρ c (Proc.devRef .tc main_v18) :=
  (W6_arr m ρ c 2).trans (((dat0 (V5 m ρ) c).arrAt_in 2 rfl _).trans (A_eq0 (V5 m ρ) c 2))
theorem v18_keep8 : W8 m ρ c (Proc.devRef .tc main_v18) = W7 m ρ c (Proc.devRef .tc main_v18) :=
  (W8_arr m ρ c 2).trans (((dat1 (V7 m ρ) c).arrAt_in 2 rfl _).trans (A_eq1 (V7 m ρ) c 2))
theorem v18_keep10 : W10 m ρ c (Proc.devRef .tc main_v18) = W9 m ρ c (Proc.devRef .tc main_v18) :=
  (W10_arr m ρ c 2).trans (((dat2 (V9 m ρ) c).arrAt_in 2 rfl _).trans (A_eq2 (V9 m ρ) c 2))
theorem v18_keep12 : W12 m ρ c (Proc.devRef .tc main_v18) = W11 m ρ c (Proc.devRef .tc main_v18) :=
  (W12_arr m ρ c 2).trans (((dat3 (V11 m ρ) c).arrAt_in 2 rfl _).trans (A_eq3 (V11 m ρ) c 2))
theorem v18_keep14 : W14 m ρ c (Proc.devRef .tc main_v18) = W13 m ρ c (Proc.devRef .tc main_v18) :=
  (W14_arr m ρ c 2).trans (((dat4 (V13 m ρ) c).arrAt_in 2 rfl _).trans (A_eq4 (V13 m ρ) c 2))
theorem v18_at7 : (W7 m ρ c (Proc.devRef .tc main_v18) : S200000x1.Idx → EReal) = shapeCast S200000x1 (disVec (m ((c : Thread nD τ).loc main_arg1))) shapeCasts_S200000_S200000x1 :=
  (keep7 m ρ c main_v18 (by decide)).trans ((v18_keep6 m ρ c).trans (v18_at5 m ρ c))
theorem v18_at9 : (W9 m ρ c (Proc.devRef .tc main_v18) : S200000x1.Idx → EReal) = shapeCast S200000x1 (disVec (m ((c : Thread nD τ).loc main_arg1))) shapeCasts_S200000_S200000x1 :=
  (keep9 m ρ c main_v18 (by decide)).trans ((v18_keep8 m ρ c).trans ((keep7 m ρ c main_v18 (by decide)).trans ((v18_keep6 m ρ c).trans (v18_at5 m ρ c))))
theorem v18_at11 : (W11 m ρ c (Proc.devRef .tc main_v18) : S200000x1.Idx → EReal) = shapeCast S200000x1 (disVec (m ((c : Thread nD τ).loc main_arg1))) shapeCasts_S200000_S200000x1 :=
  (keep11 m ρ c main_v18 (by decide)).trans ((v18_keep10 m ρ c).trans ((keep9 m ρ c main_v18 (by decide)).trans ((v18_keep8 m ρ c).trans ((keep7 m ρ c main_v18 (by decide)).trans ((v18_keep6 m ρ c).trans (v18_at5 m ρ c))))))
theorem v18_at13 : (W13 m ρ c (Proc.devRef .tc main_v18) : S200000x1.Idx → EReal) = shapeCast S200000x1 (disVec (m ((c : Thread nD τ).loc main_arg1))) shapeCasts_S200000_S200000x1 :=
  (keep13 m ρ c main_v18 (by decide)).trans ((v18_keep12 m ρ c).trans ((keep11 m ρ c main_v18 (by decide)).trans ((v18_keep10 m ρ c).trans ((keep9 m ρ c main_v18 (by decide)).trans ((v18_keep8 m ρ c).trans ((keep7 m ρ c main_v18 (by decide)).trans ((v18_keep6 m ρ c).trans (v18_at5 m ρ c))))))))
theorem v18_at15 : (W15 m ρ c (Proc.devRef .tc main_v18) : S200000x1.Idx → EReal) = shapeCast S200000x1 (disVec (m ((c : Thread nD τ).loc main_arg1))) shapeCasts_S200000_S200000x1 :=
  (keep15 m ρ c main_v18 (by decide)).trans ((v18_keep14 m ρ c).trans ((keep13 m ρ c main_v18 (by decide)).trans ((v18_keep12 m ρ c).trans ((keep11 m ρ c main_v18 (by decide)).trans ((v18_keep10 m ρ c).trans ((keep9 m ρ c main_v18 (by decide)).trans ((v18_keep8 m ρ c).trans ((keep7 m ρ c main_v18 (by decide)).trans ((v18_keep6 m ρ c).trans (v18_at5 m ρ c))))))))))

end Cert.KernelIdeal.KValue

end
-- ==== Proof.KernelRun.lean ====
/-
  The kernel's run, at any reading of the floats, with its result named: every weakly fair execution of @main terminates, nothing faulting,
  with the result array at what the last boundary of the segments holds there and the argument arrays as launched.
  @main is sixteen segments, ten stretches of host operations and six pipelined regions; the launch over the segments
  ends with every unscoped buffer at the last boundary's contents, and the result buffer is one of them.
-/
import proofs.«153643_j6382321401984_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory, read at the result buffer and at the arguments. -/
theorem run : θ_run defs (onTc (τ := τ) (main (F := F))) ⟨m, fun _ => 0, ρ⟩ (fun r => ∀ c : Dev nD,
      r.2.mem ((c.tc : Thread nD τ).loc main_v80) = W16 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v80 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.KValue

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibVecLayout.lean ====
/-
  Vectors laid along an axis of a rank-two array, read at an index.  A vector of length n placed on axis 1 of a
  [1, n] array reads, at (u, k), its entry k; placed on axis 0 of an [a, 1] array it reads, at (p, u), its entry p; a
  scalar placed everywhere reads the scalar; and a column [a, 1] broadcast over the lanes of [a, b] reads, at (p, c),
  the column's entry of row p.  These are the layout steps of a bias row added to every row of a matrix and of a
  per-row statistic (a maximum, a sum) subtracted from every entry of its row.  General in the extents and the
  element type.
-/
import Idealize.ShloMosaic.Lib.Pipeline.Value
import Idealize.ShloMosaic.Lib.ValueIdx

namespace LibVecLayout

open Idealize.ShloMosaic Idealize.ShloMosaic.ValueIdx

variable {α : Type}

/-- A vector `[n]` placed on axis 1 of `[1, n]` reads, at `(u, k)`, its entry `k`. -/
theorem broadcastInDim_vec_row_apply {n : ℕ} (v : (⟨1, ![n]⟩ : Shape).Idx → α)
    (h : (⟨1, ![n]⟩ : Shape).BroadcastsInDim ⟨2, ![1, n]⟩ ![1]) (u : Fin 1) (k : Fin n) :
    broadcastInDim ⟨2, ![1, n]⟩ ![1] h v (ix2 u k) = v (ix1 k) := by
  refine broadcastInDim_apply _ h v (ix2 u k) (ix1 k) fun ax => ?_
  match ax with
  | ⟨0, _⟩ =>
    show k.val = if n = 1 then 0 else k.val
    split
    · have := k.isLt; omega
    · rfl

/-- A vector `[a]` placed on axis 0 of `[a, 1]` reads, at `(p, u)`, its entry `p`. -/
theorem broadcastInDim_vec_col_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar placed at every index of any shape reads the scalar. -/
theorem broadcastInDim_scalar_apply {t : Shape} (v : (⟨0, ![]⟩ : Shape).Idx → α)
    (h : (⟨0, ![]⟩ : Shape).BroadcastsInDim t ![]) (j : t.Idx) (z : (⟨0, ![]⟩ : Shape).Idx) :
    broadcastInDim t ![] h v j = v z := by
  unfold broadcastInDim
  exact congrArg v (funext fun a => a.elim0)

/-- A column `[a, 1]` broadcast over the lanes of `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibVecLayout
-- ==== Proof.KRegion0.lean ====
/-
  Region 0: what the first layer's kernel leaves in its output array.  A grid point handles 8000 consecutive rows of
  the node features: it multiplies them by the weight matrix and multiplies the product's rows by the rows' node
  factors.  The 25 blocks tile the 200000 rows, so the array ends holding that function of the arrays the region
  finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

theorem dot0_eq : dot_S8000x2_S2x32_S8000x32_1_0_0_1_n_n = DotDims.plain 8000 2 32 := rfl

/-- The body's value at row `r`, column `q` of its block, from the blocks it loads. -/
theorem pay0_apply (v0 : Vec Ideal S8000x2 .f32) (v2 : Vec Ideal S2x32 .f32) (v5 : Vec Ideal S8000x1 .f32) (r : Fin 8000) (q : Fin 32) :
    k0_pay1 v0 v2 v5 (ix2 r q) = (∑ k : Fin 2, v0 (ix2 r k) * v2 (ix2 k q)) * v5 (ix2 r 0) := by
  unfold k0_pay1
  rw [mulf_apply, dot0_eq]
  congr 1
  · refine (LibMatmulNN.matmul_zero_apply 8000 2 32 none _ _ r q).trans (Finset.sum_congr rfl fun k _ => ?_)
    simp only [truncf_apply]
  · simp only [shapeCast_self, LibVecLayout.broadcastTo_a1_ab_apply]

/-- The region's output array as one function of the arrays it finds. -/
def G0 (X : S200000x2.Idx → EReal) (W : S2x32.Idx → EReal) (dcol : S200000x1.Idx → EReal) : S200000x32.Idx → EReal :=
  Gcn.arr2 fun p q => (∑ k : Fin 2, X (ix2 p k) * W (ix2 k q)) * dcol (ix2 p 0)

/-- The windows' index maps over the grid: the row blocks move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

theorem blk0_0 (c : Dev nD) (t : Fin cfg0.N) (r : Fin 8000) (k : Fin 2) (ht : 8000 * t.val + r.val < 200000) :
    iblk0 V c 0 t (ix2 r k) = V c main_arg0 (ix2 (⟨8000 * t.val + r.val, ht⟩ : Fin 200000) k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 8000 + 1 * r.val = 8000 * t.val + r.val; rw [e0]; omega
  | ⟨1, _⟩ => show win0_0.index t (1 : Fin 2) * 2 + 1 * k.val = k.val; rw [e1]; omega

theorem blk0_1 (c : Dev nD) (t : Fin cfg0.N) (k : Fin 2) (q : Fin 32) :
    iblk0 V c 1 t (ix2 k q) = V c main_arg2 (ix2 k q) := by
  obtain ⟨-, -, e0, e1, -⟩ := idx_facts0 t
  unfold iblk0
  rw [View.read_apply]
  show V c main_arg2 _ = V c main_arg2 _
  refine congrArg _ (funext fun a => Fin.ext ?_)
  match a with
  | ⟨0, _⟩ => show win0_1.index t (0 : Fin 2) * 2 + 1 * k.val = k.val; rw [e0]; omega
  | ⟨1, _⟩ => show win0_1.index t (1 : Fin 2) * 32 + 1 * q.val = q.val; rw [e1]; omega

theorem blk0_2 (c : Dev nD) (t : Fin cfg0.N) (r : Fin 8000) (u : Fin 1) (ht : 8000 * t.val + r.val < 200000) :
    iblk0 V c 2 t (ix2 r u) = V c main_v18 (ix2 (⟨8000 * t.val + r.val, ht⟩ : Fin 200000) u) := by
  obtain ⟨-, -, -, -, e0, e1, -⟩ := idx_facts0 t
  unfold iblk0
  rw [View.read_apply]
  show V c main_v18 _ = V c main_v18 _
  refine congrArg _ (funext fun a => Fin.ext ?_)
  match a with
  | ⟨0, _⟩ => show win0_2.index t (0 : Fin 2) * 8000 + 1 * r.val = 8000 * t.val + r.val; rw [e0]; omega
  | ⟨1, _⟩ => show win0_2.index t (1 : Fin 2) * 1 + 1 * u.val = u.val; rw [e1]; omega

/-- What point `t` writes back is block `t` of `G0` of the arrays as the region finds them. -/
theorem flushed0_eq (c : Dev nD) (t : Fin cfg0.N) :
    (dat0 V c).flushed 3 t
      = ((cfg0.win 3).blk t).view.read (Elt Ideal) (G0 (V c main_arg0) (V c main_arg2) (V c main_v18)) := by
  show (cfg0.win 3).cut (grid0.coords t) ((dat0 V c).after 3 t) = _
  rw [after0_3]
  unfold out0_3
  rw [View.canon_unit_zero hz0]
  simp only [View.ld_unit_zero (S := S8000x2) hz0, View.ld_unit_zero (S := S2x32) hz0, View.ld_unit_zero (S := S8000x1) hz0]
  obtain ⟨-, -, -, -, -, -, e0, e1, hlt⟩ := idx_facts0 t
  funext j
  obtain ⟨r, q, rfl⟩ : ∃ (r : Fin 8000) (q : Fin 32), j = ix2 r q := ⟨j 0, j 1, eq_ix2 j⟩
  have ht : 8000 * t.val + r.val < 200000 := by have := r.isLt; omega
  have hemb : ((cfg0.win 3).blk t).view.emb (ix2 r q) = ix2 (⟨8000 * t.val + r.val, ht⟩ : Fin 200000) q := by
    funext a; apply Fin.ext
    match a with
    | ⟨0, _⟩ => show win0_3.index t (0 : Fin 2) * 8000 + 1 * r.val = 8000 * t.val + r.val; rw [e0]; omega
    | ⟨1, _⟩ => show win0_3.index t (1 : Fin 2) * 32 + 1 * q.val = q.val; rw [e1]; omega
  rw [View.read_apply, hemb]
  show k0_pay1 _ _ _ (ix2 r q) = _
  rw [pay0_apply]
  unfold G0
  rw [Gcn.arr2_ix2]
  simp only [blk0_0 V c t r _ ht, blk0_1 V c t, blk0_2 V c t r _ ht]
  exact (cast_eq _ _).symm

theorem mem_blk0 (t : Fin cfg0.N) (i : S200000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v19).slice (win0_3.rect t)).set ↔ _
  rw [View.set_slice_whole, Rect.mem_set_unit]
  exact Iff.rfl

theorem idx_onto0 : ∀ q0 : Fin 25, ∃ t : Fin cfg0.N, win0_3.index t = ![q0.val, 0] :=
  (by decide +kernel : ∀ q0 : Fin 25, ∃ t : Fin grid0.N, win0_3.index t = ![q0.val, 0])

/-- The output array after the region. -/
theorem final0 (c : Dev nD) :
    (dat0 V c).arrAt 3 cfg0.N = G0 (V c main_arg0) (V c main_arg2) (V c main_v18) :=
  (dat0 V c).arrAt_eq_of_cover 3 _ (fun t _ => flushed0_eq V c t) fun i => by
    have hi0 : (i 0).val < 200000 := (i 0).isLt
    have hi1 : (i 1).val < 32 := (i 1).isLt
    obtain ⟨t, ht⟩ := idx_onto0 ⟨(i 0).val / 8000, by omega⟩
    have q0 : win0_3.index t (0 : Fin 2) = (i 0).val / 8000 := congrFun ht 0
    have q1 : win0_3.index t (1 : Fin 2) = 0 := congrFun ht 1
    refine ⟨t, flush0_3 t, ?_⟩
    rw [mem_blk0]
    intro a
    match a with
    | ⟨0, _⟩ => show win0_3.index t (0 : Fin 2) * 8000 ≤ (i 0).val ∧ (i 0).val < win0_3.index t (0 : Fin 2) * 8000 + 8000; omega
    | ⟨1, _⟩ => show win0_3.index t (1 : Fin 2) * 32 ≤ (i 1).val ∧ (i 1).val < win0_3.index t (1 : Fin 2) * 32 + 32; omega

end Cert.KernelIdeal.KValue

end
-- ==== Proof.KRegion1.lean ====
/-
  Region 1: what the fused layer kernel leaves in its output array.  A grid point handles 8000 consecutive rows: it
  multiplies each row of the aggregated features by the row's node factor, adds the bias row, clamps at zero,
  multiplies by the weight matrix and multiplies the product's rows by the node factor again.  The 25 blocks tile the
  200000 rows, so the array ends holding that function of the arrays the region finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

theorem dot1_eq : dot_S8000x32_S32x128_S8000x128_1_0_0_1_n_n = DotDims.plain 8000 32 128 := rfl

/-- The body's value at row `r`, column `q` of its block, from the blocks it loads. -/
theorem pay1_apply (v0 : Vec Ideal S8000x1 .f32) (v2 : Vec Ideal S8000x32 .f32) (v6 : Vec Ideal S1x32 .f32)
    (v13 : Vec Ideal S32x128 .f32) (v16 : Vec Ideal S8000x1 .f32) (r : Fin 8000) (q : Fin 128) :
    k1_pay1 v0 v2 v6 v13 v16 (ix2 r q)
      = (∑ k : Fin 32, max (v0 (ix2 r 0) * v2 (ix2 r k) + v6 (ix2 0 k)) 0 * v13 (ix2 k q)) * v16 (ix2 r 0) := by
  unfold k1_pay1
  rw [mulf_apply, dot1_eq]
  congr 1
  · refine (LibMatmulNN.matmul_zero_apply 8000 32 128 none _ _ r q).trans (Finset.sum_congr rfl fun k _ => ?_)
    simp only [truncf_apply, maximumf_apply, addf_apply, mulf_apply, shapeCast_self, broadcast_apply,
      LibVecLayout.broadcastTo_a1_ab_apply, broadcastTo_1b_ab_apply, Ideal.ofBits_def, Ideal.ofBits_zero_f32]
  · simp only [shapeCast_self, LibVecLayout.broadcastTo_a1_ab_apply]

/-- The region's output array as one function of the arrays it finds. -/
def G1 (A : S200000x32.Idx → EReal) (b : S1x32.Idx → EReal) (dcol : S200000x1.Idx → EReal) (W : S32x128.Idx → EReal) :
    S200000x128.Idx → EReal :=
  Gcn.arr2 fun p q => (∑ k : Fin 32, max (dcol (ix2 p 0) * A (ix2 p k) + b (ix2 0 k)) 0 * W (ix2 k q)) * dcol (ix2 p 0)

/-- The windows' index maps over the grid: the row blocks move with the point, the others stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- The blocks read at coordinates: rows `8000 t + r` of the row-blocked arrays, the whole of the others. -/
theorem blk1_0 (c : Dev nD) (t : Fin cfg1.N) (r : Fin 8000) (k : Fin 32) (ht : 8000 * t.val + r.val < 200000) :
    iblk1 V c 0 t (ix2 r k) = V c main_v29 (ix2 (⟨8000 * t.val + r.val, ht⟩ : Fin 200000) k) := by
  obtain ⟨e0, e1, -⟩ := idx_facts1 t
  unfold iblk1
  rw [View.read_apply]
  show V c main_v29 _ = V c main_v29 _
  refine congrArg _ (funext fun a => Fin.ext ?_)
  match a with
  | ⟨0, _⟩ => show win1_0.index t (0 : Fin 2) * 8000 + 1 * r.val = 8000 * t.val + r.val; rw [e0]; omega
  | ⟨1, _⟩ => show win1_0.index t (1 : Fin 2) * 32 + 1 * k.val = k.val; rw [e1]; omega

theorem blk1_1 (c : Dev nD) (t : Fin cfg1.N) (u : Fin 1) (k : Fin 32) :
    iblk1 V c 1 t (ix2 u k) = V c main_v30 (ix2 u k) := by
  obtain ⟨-, -, e0, e1, -⟩ := idx_facts1 t
  unfold iblk1
  rw [View.read_apply]
  show V c main_v30 _ = V c main_v30 _
  refine congrArg _ (funext fun a => Fin.ext ?_)
  match a with
  | ⟨0, _⟩ => show win1_1.index t (0 : Fin 2) * 1 + 1 * u.val = u.val; rw [e0]; omega
  | ⟨1, _⟩ => show win1_1.index t (1 : Fin 2) * 32 + 1 * k.val = k.val; rw [e1]; omega

theorem blk1_2 (c : Dev nD) (t : Fin cfg1.N) (r : Fin 8000) (u : Fin 1) (ht : 8000 * t.val + r.val < 200000) :
    iblk1 V c 2 t (ix2 r u) = V c main_v18 (ix2 (⟨8000 * t.val + r.val, ht⟩ : Fin 200000) u) := by
  obtain ⟨-, -, -, -, e0, e1, -⟩ := idx_facts1 t
  unfold iblk1
  rw [View.read_apply]
  show V c main_v18 _ = V c main_v18 _
  refine congrArg _ (funext fun a => Fin.ext ?_)
  match a with
  | ⟨0, _⟩ => show win1_2.index t (0 : Fin 2) * 8000 + 1 * r.val = 8000 * t.val + r.val; rw [e0]; omega
  | ⟨1, _⟩ => show win1_2.index t (1 : Fin 2) * 1 + 1 * u.val = u.val; rw [e1]; omega

theorem blk1_3 (c : Dev nD) (t : Fin cfg1.N) (k : Fin 32) (q : Fin 128) :
    iblk1 V c 3 t (ix2 k q) = V c main_arg4 (ix2 k q) := by
  obtain ⟨-, -, -, -, -, -, e0, e1, -⟩ := idx_facts1 t
  unfold iblk1
  rw [View.read_apply]
  show V c main_arg4 _ = V c main_arg4 _
  refine congrArg _ (funext fun a => Fin.ext ?_)
  match a with
  | ⟨0, _⟩ => show win1_3.index t (0 : Fin 2) * 32 + 1 * k.val = k.val; rw [e0]; omega
  | ⟨1, _⟩ => show win1_3.index t (1 : Fin 2) * 128 + 1 * q.val = q.val; rw [e1]; omega

/-- What point `t` writes back is block `t` of `G1` of the arrays as the region finds them. -/
theorem flushed1_eq (c : Dev nD) (t : Fin cfg1.N) :
    (dat1 V c).flushed 4 t
      = ((cfg1.win 4).blk t).view.read (Elt Ideal) (G1 (V c main_v29) (V c main_v30) (V c main_v18) (V c main_arg4)) := by
  show (cfg1.win 4).cut (grid1.coords t) ((dat1 V c).after 4 t) = _
  rw [after1_4]
  unfold out1_4
  rw [View.canon_unit_zero hz1]
  simp only [View.ld_unit_zero (S := S8000x32) hz1, View.ld_unit_zero (S := S1x32) hz1, View.ld_unit_zero (S := S8000x1) hz1,
    View.ld_unit_zero (S := S32x128) hz1]
  obtain ⟨-, -, -, -, -, -, -, -, e0, e1, hlt⟩ := idx_facts1 t
  funext j
  obtain ⟨r, q, rfl⟩ : ∃ (r : Fin 8000) (q : Fin 128), j = ix2 r q := ⟨j 0, j 1, eq_ix2 j⟩
  have ht : 8000 * t.val + r.val < 200000 := by have := r.isLt; omega
  have hemb : ((cfg1.win 4).blk t).view.emb (ix2 r q) = ix2 (⟨8000 * t.val + r.val, ht⟩ : Fin 200000) q := by
    funext a; apply Fin.ext
    match a with
    | ⟨0, _⟩ => show win1_4.index t (0 : Fin 2) * 8000 + 1 * r.val = 8000 * t.val + r.val; rw [e0]; omega
    | ⟨1, _⟩ => show win1_4.index t (1 : Fin 2) * 128 + 1 * q.val = q.val; rw [e1]; omega
  rw [View.read_apply, hemb]
  show k1_pay1 _ _ _ _ _ (ix2 r q) = _
  rw [pay1_apply]
  unfold G1
  rw [Gcn.arr2_ix2]
  simp only [blk1_0 V c t r _ ht, blk1_1 V c t, blk1_2 V c t r _ ht, blk1_3 V c t]
  exact (cast_eq _ _).symm

/-- An index of the array is in point `t`'s block iff each coordinate is in the block's range on its axis. -/
theorem mem_blk1 (t : Fin cfg1.N) (i : S200000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v31).slice (win1_4.rect t)).set ↔ _
  rw [View.set_slice_whole, Rect.mem_set_unit]
  exact Iff.rfl

/-- Every block of rows is some point's. -/
theorem idx_onto1 : ∀ q0 : Fin 25, ∃ t : Fin cfg1.N, win1_4.index t = ![q0.val, 0] :=
  (by decide +kernel : ∀ q0 : Fin 25, ∃ t : Fin grid1.N, win1_4.index t = ![q0.val, 0])

/-- The output array after the region. -/
theorem final1 (c : Dev nD) :
    (dat1 V c).arrAt 4 cfg1.N = G1 (V c main_v29) (V c main_v30) (V c main_v18) (V c main_arg4) :=
  (dat1 V c).arrAt_eq_of_cover 4 _ (fun t _ => flushed1_eq V c t) fun i => by
    have hi0 : (i 0).val < 200000 := (i 0).isLt
    have hi1 : (i 1).val < 128 := (i 1).isLt
    obtain ⟨t, ht⟩ := idx_onto1 ⟨(i 0).val / 8000, by omega⟩
    have q0 : win1_4.index t (0 : Fin 2) = (i 0).val / 8000 := congrFun ht 0
    have q1 : win1_4.index t (1 : Fin 2) = 0 := congrFun ht 1
    refine ⟨t, flush1_4 t, ?_⟩
    rw [mem_blk1]
    intro a
    match a with
    | ⟨0, _⟩ => show win1_4.index t (0 : Fin 2) * 8000 ≤ (i 0).val ∧ (i 0).val < win1_4.index t (0 : Fin 2) * 8000 + 8000; omega
    | ⟨1, _⟩ => show win1_4.index t (1 : Fin 2) * 128 ≤ (i 1).val ∧ (i 1).val < win1_4.index t (1 : Fin 2) * 128 + 128; omega

end Cert.KernelIdeal.KValue

end
-- ==== Proof.KRegion2.lean ====
/-
  Region 2: what the fused layer kernel leaves in its output array.  A grid point handles 8000 consecutive rows: it
  multiplies each row of the aggregated features by the row's node factor, adds the bias row, clamps at zero,
  multiplies by the weight matrix and multiplies the product's rows by the node factor again.  The 25 blocks tile the
  200000 rows, so the array ends holding that function of the arrays the region finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem dot2_eq : dot_S8000x128_S128x128_S8000x128_1_0_0_1_n_n = DotDims.plain 8000 128 128 := rfl

/-- The body's value at row `r`, column `q` of its block, from the blocks it loads. -/
theorem pay2_apply (v0 : Vec Ideal S8000x1 .f32) (v2 : Vec Ideal S8000x128 .f32) (v6 : Vec Ideal S1x128 .f32)
    (v13 : Vec Ideal S128x128 .f32) (v16 : Vec Ideal S8000x1 .f32) (r : Fin 8000) (q : Fin 128) :
    k2_pay1 v0 v2 v6 v13 v16 (ix2 r q)
      = (∑ k : Fin 128, max (v0 (ix2 r 0) * v2 (ix2 r k) + v6 (ix2 0 k)) 0 * v13 (ix2 k q)) * v16 (ix2 r 0) := by
  unfold k2_pay1
  rw [mulf_apply, dot2_eq]
  congr 1
  · refine (LibMatmulNN.matmul_zero_apply 8000 128 128 none _ _ r q).trans (Finset.sum_congr rfl fun k _ => ?_)
    simp only [truncf_apply, maximumf_apply, addf_apply, mulf_apply, shapeCast_self, broadcast_apply,
      LibVecLayout.broadcastTo_a1_ab_apply, broadcastTo_1b_ab_apply, Ideal.ofBits_def, Ideal.ofBits_zero_f32]
  · simp only [shapeCast_self, LibVecLayout.broadcastTo_a1_ab_apply]

/-- The region's output array as one function of the arrays it finds. -/
def G2 (A : S200000x128.Idx → EReal) (b : S1x128.Idx → EReal) (dcol : S200000x1.Idx → EReal) (W : S128x128.Idx → EReal) :
    S200000x128.Idx → EReal :=
  Gcn.arr2 fun p q => (∑ k : Fin 128, max (dcol (ix2 p 0) * A (ix2 p k) + b (ix2 0 k)) 0 * W (ix2 k q)) * dcol (ix2 p 0)

/-- The windows' index maps over the grid: the row blocks move with the point, the others stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 25 :=
  (by decide +kernel : ∀ t : Fin grid2.N, _)

/-- The blocks read at coordinates: rows `8000 t + r` of the row-blocked arrays, the whole of the others. -/
theorem blk2_0 (c : Dev nD) (t : Fin cfg2.N) (r : Fin 8000) (k : Fin 128) (ht : 8000 * t.val + r.val < 200000) :
    iblk2 V c 0 t (ix2 r k) = V c main_v41 (ix2 (⟨8000 * t.val + r.val, ht⟩ : Fin 200000) k) := by
  obtain ⟨e0, e1, -⟩ := idx_facts2 t
  unfold iblk2
  rw [View.read_apply]
  show V c main_v41 _ = V c main_v41 _
  refine congrArg _ (funext fun a => Fin.ext ?_)
  match a with
  | ⟨0, _⟩ => show win2_0.index t (0 : Fin 2) * 8000 + 1 * r.val = 8000 * t.val + r.val; rw [e0]; omega
  | ⟨1, _⟩ => show win2_0.index t (1 : Fin 2) * 128 + 1 * k.val = k.val; rw [e1]; omega

theorem blk2_1 (c : Dev nD) (t : Fin cfg2.N) (u : Fin 1) (k : Fin 128) :
    iblk2 V c 1 t (ix2 u k) = V c main_v42 (ix2 u k) := by
  obtain ⟨-, -, e0, e1, -⟩ := idx_facts2 t
  unfold iblk2
  rw [View.read_apply]
  show V c main_v42 _ = V c main_v42 _
  refine congrArg _ (funext fun a => Fin.ext ?_)
  match a with
  | ⟨0, _⟩ => show win2_1.index t (0 : Fin 2) * 1 + 1 * u.val = u.val; rw [e0]; omega
  | ⟨1, _⟩ => show win2_1.index t (1 : Fin 2) * 128 + 1 * k.val = k.val; rw [e1]; omega

theorem blk2_2 (c : Dev nD) (t : Fin cfg2.N) (r : Fin 8000) (u : Fin 1) (ht : 8000 * t.val + r.val < 200000) :
    iblk2 V c 2 t (ix2 r u) = V c main_v18 (ix2 (⟨8000 * t.val + r.val, ht⟩ : Fin 200000) u) := by
  obtain ⟨-, -, -, -, e0, e1, -⟩ := idx_facts2 t
  unfold iblk2
  rw [View.read_apply]
  show V c main_v18 _ = V c main_v18 _
  refine congrArg _ (funext fun a => Fin.ext ?_)
  match a with
  | ⟨0, _⟩ => show win2_2.index t (0 : Fin 2) * 8000 + 1 * r.val = 8000 * t.val + r.val; rw [e0]; omega
  | ⟨1, _⟩ => show win2_2.index t (1 : Fin 2) * 1 + 1 * u.val = u.val; rw [e1]; omega

theorem blk2_3 (c : Dev nD) (t : Fin cfg2.N) (k : Fin 128) (q : Fin 128) :
    iblk2 V c 3 t (ix2 k q) = V c main_arg6 (ix2 k q) := by
  obtain ⟨-, -, -, -, -, -, e0, e1, -⟩ := idx_facts2 t
  unfold iblk2
  rw [View.read_apply]
  show V c main_arg6 _ = V c main_arg6 _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- What point `t` writes back is block `t` of `G2` of the arrays as the region finds them. -/
theorem flushed2_eq (c : Dev nD) (t : Fin cfg2.N) :
    (dat2 V c).flushed 4 t
      = ((cfg2.win 4).blk t).view.read (Elt Ideal) (G2 (V c main_v41) (V c main_v42) (V c main_v18) (V c main_arg6)) := by
  show (cfg2.win 4).cut (grid2.coords t) ((dat2 V c).after 4 t) = _
  rw [after2_4]
  unfold out2_4
  rw [View.canon_unit_zero hz2]
  simp only [View.ld_unit_zero (S := S8000x128) hz2, View.ld_unit_zero (S := S1x128) hz2, View.ld_unit_zero (S := S8000x1) hz2,
    View.ld_unit_zero (S := S128x128) hz2]
  obtain ⟨-, -, -, -, -, -, -, -, e0, e1, hlt⟩ := idx_facts2 t
  funext j
  obtain ⟨r, q, rfl⟩ : ∃ (r : Fin 8000) (q : Fin 128), j = ix2 r q := ⟨j 0, j 1, eq_ix2 j⟩
  have ht : 8000 * t.val + r.val < 200000 := by have := r.isLt; omega
  have hemb : ((cfg2.win 4).blk t).view.emb (ix2 r q) = ix2 (⟨8000 * t.val + r.val, ht⟩ : Fin 200000) q := by
    funext a; apply Fin.ext
    match a with
    | ⟨0, _⟩ => show win2_4.index t (0 : Fin 2) * 8000 + 1 * r.val = 8000 * t.val + r.val; rw [e0]; omega
    | ⟨1, _⟩ => show win2_4.index t (1 : Fin 2) * 128 + 1 * q.val = q.val; rw [e1]; omega
  rw [View.read_apply, hemb]
  show k2_pay1 _ _ _ _ _ (ix2 r q) = _
  rw [pay2_apply]
  unfold G2
  rw [Gcn.arr2_ix2]
  simp only [blk2_0 V c t r _ ht, blk2_1 V c t, blk2_2 V c t r _ ht, blk2_3 V c t]
  exact (cast_eq _ _).symm

/-- An index of the array is in point `t`'s block iff each coordinate is in the block's range on its axis. -/
theorem mem_blk2 (t : Fin cfg2.N) (i : S200000x128.Idx) :
    i ∈ ((cfg2.win 4).blk t).view.set ↔ ∀ a : Fin 2, win2_4.index t a * S8000x128.size a ≤ (i a).val ∧ (i a).val < win2_4.index t a * S8000x128.size a + S8000x128.size a := by
  show i ∈ ((View.whole main_v43).slice (win2_4.rect t)).set ↔ _
  rw [View.set_slice_whole, Rect.mem_set_unit]
  exact Iff.rfl

/-- Every block of rows is some point's. -/
theorem idx_onto2 : ∀ q0 : Fin 25, ∃ t : Fin cfg2.N, win2_4.index t = ![q0.val, 0] :=
  (by decide +kernel : ∀ q0 : Fin 25, ∃ t : Fin grid2.N, win2_4.index t = ![q0.val, 0])

/-- The output array after the region. -/
theorem final2 (c : Dev nD) :
    (dat2 V c).arrAt 4 cfg2.N = G2 (V c main_v41) (V c main_v42) (V c main_v18) (V c main_arg6) :=
  (dat2 V c).arrAt_eq_of_cover 4 _ (fun t _ => flushed2_eq V c t) fun i => by
    have hi0 : (i 0).val < 200000 := (i 0).isLt
    have hi1 : (i 1).val < 128 := (i 1).isLt
    obtain ⟨t, ht⟩ := idx_onto2 ⟨(i 0).val / 8000, by omega⟩
    have q0 : win2_4.index t (0 : Fin 2) = (i 0).val / 8000 := congrFun ht 0
    have q1 : win2_4.index t (1 : Fin 2) = 0 := congrFun ht 1
    refine ⟨t, flush2_4 t, ?_⟩
    rw [mem_blk2]
    intro a
    match a with
    | ⟨0, _⟩ => show win2_4.index t (0 : Fin 2) * 8000 ≤ (i 0).val ∧ (i 0).val < win2_4.index t (0 : Fin 2) * 8000 + 8000; omega
    | ⟨1, _⟩ => show win2_4.index t (1 : Fin 2) * 128 ≤ (i 1).val ∧ (i 1).val < win2_4.index t (1 : Fin 2) * 128 + 128; omega

end Cert.KernelIdeal.KValue

end
-- ==== Proof.KRegion3.lean ====
/-
  Region 3: what the fused layer kernel leaves in its output array.  A grid point handles 8000 consecutive rows: it
  multiplies each row of the aggregated features by the row's node factor, adds the bias row, clamps at zero,
  multiplies by the weight matrix and multiplies the product's rows by the node factor again.  The 25 blocks tile the
  200000 rows, so the array ends holding that function of the arrays the region finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

theorem dot3_eq : dot_S8000x128_S128x128_S8000x128_1_0_0_1_n_n = DotDims.plain 8000 128 128 := rfl

/-- The body's value at row `r`, column `q` of its block, from the blocks it loads. -/
theorem pay3_apply (v0 : Vec Ideal S8000x1 .f32) (v2 : Vec Ideal S8000x128 .f32) (v6 : Vec Ideal S1x128 .f32)
    (v13 : Vec Ideal S128x128 .f32) (v16 : Vec Ideal S8000x1 .f32) (r : Fin 8000) (q : Fin 128) :
    k3_pay1 v0 v2 v6 v13 v16 (ix2 r q)
      = (∑ k : Fin 128, max (v0 (ix2 r 0) * v2 (ix2 r k) + v6 (ix2 0 k)) 0 * v13 (ix2 k q)) * v16 (ix2 r 0) := by
  unfold k3_pay1
  rw [mulf_apply, dot3_eq]
  congr 1
  · refine (LibMatmulNN.matmul_zero_apply 8000 128 128 none _ _ r q).trans (Finset.sum_congr rfl fun k _ => ?_)
    simp only [truncf_apply, maximumf_apply, addf_apply, mulf_apply, shapeCast_self, broadcast_apply,
      LibVecLayout.broadcastTo_a1_ab_apply, broadcastTo_1b_ab_apply, Ideal.ofBits_def, Ideal.ofBits_zero_f32]
  · simp only [shapeCast_self, LibVecLayout.broadcastTo_a1_ab_apply]

/-- The region's output array as one function of the arrays it finds. -/
def G3 (A : S200000x128.Idx → EReal) (b : S1x128.Idx → EReal) (dcol : S200000x1.Idx → EReal) (W : S128x128.Idx → EReal) :
    S200000x128.Idx → EReal :=
  Gcn.arr2 fun p q => (∑ k : Fin 128, max (dcol (ix2 p 0) * A (ix2 p k) + b (ix2 0 k)) 0 * W (ix2 k q)) * dcol (ix2 p 0)

/-- The windows' index maps over the grid: the row blocks move with the point, the others stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 25 :=
  (by decide +kernel : ∀ t : Fin grid3.N, _)

/-- The blocks read at coordinates: rows `8000 t + r` of the row-blocked arrays, the whole of the others. -/
theorem blk3_0 (c : Dev nD) (t : Fin cfg3.N) (r : Fin 8000) (k : Fin 128) (ht : 8000 * t.val + r.val < 200000) :
    iblk3 V c 0 t (ix2 r k) = V c main_v53 (ix2 (⟨8000 * t.val + r.val, ht⟩ : Fin 200000) k) := by
  obtain ⟨e0, e1, -⟩ := idx_facts3 t
  unfold iblk3
  rw [View.read_apply]
  show V c main_v53 _ = V c main_v53 _
  refine congrArg _ (funext fun a => Fin.ext ?_)
  match a with
  | ⟨0, _⟩ => show win3_0.index t (0 : Fin 2) * 8000 + 1 * r.val = 8000 * t.val + r.val; rw [e0]; omega
  | ⟨1, _⟩ => show win3_0.index t (1 : Fin 2) * 128 + 1 * k.val = k.val; rw [e1]; omega

theorem blk3_1 (c : Dev nD) (t : Fin cfg3.N) (u : Fin 1) (k : Fin 128) :
    iblk3 V c 1 t (ix2 u k) = V c main_v54 (ix2 u k) := by
  obtain ⟨-, -, e0, e1, -⟩ := idx_facts3 t
  unfold iblk3
  rw [View.read_apply]
  show V c main_v54 _ = V c main_v54 _
  refine congrArg _ (funext fun a => Fin.ext ?_)
  match a with
  | ⟨0, _⟩ => show win3_1.index t (0 : Fin 2) * 1 + 1 * u.val = u.val; rw [e0]; omega
  | ⟨1, _⟩ => show win3_1.index t (1 : Fin 2) * 128 + 1 * k.val = k.val; rw [e1]; omega

theorem blk3_2 (c : Dev nD) (t : Fin cfg3.N) (r : Fin 8000) (u : Fin 1) (ht : 8000 * t.val + r.val < 200000) :
    iblk3 V c 2 t (ix2 r u) = V c main_v18 (ix2 (⟨8000 * t.val + r.val, ht⟩ : Fin 200000) u) := by
  obtain ⟨-, -, -, -, e0, e1, -⟩ := idx_facts3 t
  unfold iblk3
  rw [View.read_apply]
  show V c main_v18 _ = V c main_v18 _
  refine congrArg _ (funext fun a => Fin.ext ?_)
  match a with
  | ⟨0, _⟩ => show win3_2.index t (0 : Fin 2) * 8000 + 1 * r.val = 8000 * t.val + r.val; rw [e0]; omega
  | ⟨1, _⟩ => show win3_2.index t (1 : Fin 2) * 1 + 1 * u.val = u.val; rw [e1]; omega

theorem blk3_3 (c : Dev nD) (t : Fin cfg3.N) (k : Fin 128) (q : Fin 128) :
    iblk3 V c 3 t (ix2 k q) = V c main_arg8 (ix2 k q) := by
  obtain ⟨-, -, -, -, -, -, e0, e1, -⟩ := idx_facts3 t
  unfold iblk3
  rw [View.read_apply]
  show V c main_arg8 _ = V c main_arg8 _
  refine congrArg _ (funext fun a => Fin.ext ?_)
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- What point `t` writes back is block `t` of `G3` of the arrays as the region finds them. -/
theorem flushed3_eq (c : Dev nD) (t : Fin cfg3.N) :
    (dat3 V c).flushed 4 t
      = ((cfg3.win 4).blk t).view.read (Elt Ideal) (G3 (V c main_v53) (V c main_v54) (V c main_v18) (V c main_arg8)) := by
  show (cfg3.win 4).cut (grid3.coords t) ((dat3 V c).after 4 t) = _
  rw [after3_4]
  unfold out3_4
  rw [View.canon_unit_zero hz3]
  simp only [View.ld_unit_zero (S := S8000x128) hz3, View.ld_unit_zero (S := S1x128) hz3, View.ld_unit_zero (S := S8000x1) hz3,
    View.ld_unit_zero (S := S128x128) hz3]
  obtain ⟨-, -, -, -, -, -, -, -, e0, e1, hlt⟩ := idx_facts3 t
  funext j
  obtain ⟨r, q, rfl⟩ : ∃ (r : Fin 8000) (q : Fin 128), j = ix2 r q := ⟨j 0, j 1, eq_ix2 j⟩
  have ht : 8000 * t.val + r.val < 200000 := by have := r.isLt; omega
  have hemb : ((cfg3.win 4).blk t).view.emb (ix2 r q) = ix2 (⟨8000 * t.val + r.val, ht⟩ : Fin 200000) q := by
    funext a; apply Fin.ext
    match a with
    | ⟨0, _⟩ => show win3_4.index t (0 : Fin 2) * 8000 + 1 * r.val = 8000 * t.val + r.val; rw [e0]; omega
    | ⟨1, _⟩ => show win3_4.index t (1 : Fin 2) * 128 + 1 * q.val = q.val; rw [e1]; omega
  rw [View.read_apply, hemb]
  show k3_pay1 _ _ _ _ _ (ix2 r q) = _
  rw [pay3_apply]
  unfold G3
  rw [Gcn.arr2_ix2]
  simp only [blk3_0 V c t r _ ht, blk3_1 V c t, blk3_2 V c t r _ ht, blk3_3 V c t]
  exact (cast_eq _ _).symm

/-- An index of the array is in point `t`'s block iff each coordinate is in the block's range on its axis. -/
theorem mem_blk3 (t : Fin cfg3.N) (i : S200000x128.Idx) :
    i ∈ ((cfg3.win 4).blk t).view.set ↔ ∀ a : Fin 2, win3_4.index t a * S8000x128.size a ≤ (i a).val ∧ (i a).val < win3_4.index t a * S8000x128.size a + S8000x128.size a := by
  show i ∈ ((View.whole main_v55).slice (win3_4.rect t)).set ↔ _
  rw [View.set_slice_whole, Rect.mem_set_unit]
  exact Iff.rfl

/-- Every block of rows is some point's. -/
theorem idx_onto3 : ∀ q0 : Fin 25, ∃ t : Fin cfg3.N, win3_4.index t = ![q0.val, 0] :=
  (by decide +kernel : ∀ q0 : Fin 25, ∃ t : Fin grid3.N, win3_4.index t = ![q0.val, 0])

/-- The output array after the region. -/
theorem final3 (c : Dev nD) :
    (dat3 V c).arrAt 4 cfg3.N = G3 (V c main_v53) (V c main_v54) (V c main_v18) (V c main_arg8) :=
  (dat3 V c).arrAt_eq_of_cover 4 _ (fun t _ => flushed3_eq V c t) fun i => by
    have hi0 : (i 0).val < 200000 := (i 0).isLt
    have hi1 : (i 1).val < 128 := (i 1).isLt
    obtain ⟨t, ht⟩ := idx_onto3 ⟨(i 0).val / 8000, by omega⟩
    have q0 : win3_4.index t (0 : Fin 2) = (i 0).val / 8000 := congrFun ht 0
    have q1 : win3_4.index t (1 : Fin 2) = 0 := congrFun ht 1
    refine ⟨t, flush3_4 t, ?_⟩
    rw [mem_blk3]
    intro a
    match a with
    | ⟨0, _⟩ => show win3_4.index t (0 : Fin 2) * 8000 ≤ (i 0).val ∧ (i 0).val < win3_4.index t (0 : Fin 2) * 8000 + 8000; omega
    | ⟨1, _⟩ => show win3_4.index t (1 : Fin 2) * 128 ≤ (i 1).val ∧ (i 1).val < win3_4.index t (1 : Fin 2) * 128 + 128; omega

end Cert.KernelIdeal.KValue

end
-- ==== Proof.KRegion4.lean ====
/-
  Region 4: what the fused layer kernel leaves in its output array.  A grid point handles 8000 consecutive rows: it
  multiplies each row of the aggregated features by the row's node factor, adds the bias row, clamps at zero,
  multiplies by the weight matrix and multiplies the product's rows by the node factor again.  The 25 blocks tile the
  200000 rows, so the array ends holding that function of the arrays the region finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

theorem dot4_eq : dot_S8000x128_S128x128_S8000x128_1_0_0_1_n_n = DotDims.plain 8000 128 128 := rfl

/-- The body's value at row `r`, column `q` of its block, from the blocks it loads. -/
theorem pay4_apply (v0 : Vec Ideal S8000x1 .f32) (v2 : Vec Ideal S8000x128 .f32) (v6 : Vec Ideal S1x128 .f32)
    (v13 : Vec Ideal S128x128 .f32) (v16 : Vec Ideal S8000x1 .f32) (r : Fin 8000) (q : Fin 128) :
    k4_pay1 v0 v2 v6 v13 v16 (ix2 r q)
      = (∑ k : Fin 128, max (v0 (ix2 r 0) * v2 (ix2 r k) + v6 (ix2 0 k)) 0 * v13 (ix2 k q)) * v16 (ix2 r 0) := by
  unfold k4_pay1
  rw [mulf_apply, dot4_eq]
  congr 1
  · refine (LibMatmulNN.matmul_zero_apply 8000 128 128 none _ _ r q).trans (Finset.sum_congr rfl fun k _ => ?_)
    simp only [truncf_apply, maximumf_apply, addf_apply, mulf_apply, shapeCast_self, broadcast_apply,
      LibVecLayout.broadcastTo_a1_ab_apply, broadcastTo_1b_ab_apply, Ideal.ofBits_def, Ideal.ofBits_zero_f32]
  · simp only [shapeCast_self, LibVecLayout.broadcastTo_a1_ab_apply]

/-- The region's output array as one function of the arrays it finds. -/
def G4 (A : S200000x128.Idx → EReal) (b : S1x128.Idx → EReal) (dcol : S200000x1.Idx → EReal) (W : S128x128.Idx → EReal) :
    S200000x128.Idx → EReal :=
  Gcn.arr2 fun p q => (∑ k : Fin 128, max (dcol (ix2 p 0) * A (ix2 p k) + b (ix2 0 k)) 0 * W (ix2 k q)) * dcol (ix2 p 0)

/-- The windows' index maps over the grid: the row blocks move with the point, the others stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 25 :=
  (by decide +kernel : ∀ t : Fin grid4.N, _)

/-- The blocks read at coordinates: rows `8000 t + r` of the row-blocked arrays, the whole of the others. -/
theorem blk4_0 (c : Dev nD) (t : Fin cfg4.N) (r : Fin 8000) (k : Fin 128) (ht : 8000 * t.val + r.val < 200000) :
    iblk4 V c 0 t (ix2 r k) = V c main_v65 (ix2 (⟨8000 * t.val + r.val, ht⟩ : Fin 200000) k) := by
  obtain ⟨e0, e1, -⟩ := idx_facts4 t
  unfold iblk4
  rw [View.read_apply]
  show V c main_v65 _ = V c main_v65 _
  refine congrArg _ (funext fun a => Fin.ext ?_)
  match a with
  | ⟨0, _⟩ => show win4_0.index t (0 : Fin 2) * 8000 + 1 * r.val = 8000 * t.val + r.val; rw [e0]; omega
  | ⟨1, _⟩ => show win4_0.index t (1 : Fin 2) * 128 + 1 * k.val = k.val; rw [e1]; omega

theorem blk4_1 (c : Dev nD) (t : Fin cfg4.N) (u : Fin 1) (k : Fin 128) :
    iblk4 V c 1 t (ix2 u k) = V c main_v66 (ix2 u k) := by
  obtain ⟨-, -, e0, e1, -⟩ := idx_facts4 t
  unfold iblk4
  rw [View.read_apply]
  show V c main_v66 _ = V c main_v66 _
  refine congrArg _ (funext fun a => Fin.ext ?_)
  match a with
  | ⟨0, _⟩ => show win4_1.index t (0 : Fin 2) * 1 + 1 * u.val = u.val; rw [e0]; omega
  | ⟨1, _⟩ => show win4_1.index t (1 : Fin 2) * 128 + 1 * k.val = k.val; rw [e1]; omega

theorem blk4_2 (c : Dev nD) (t : Fin cfg4.N) (r : Fin 8000) (u : Fin 1) (ht : 8000 * t.val + r.val < 200000) :
    iblk4 V c 2 t (ix2 r u) = V c main_v18 (ix2 (⟨8000 * t.val + r.val, ht⟩ : Fin 200000) u) := by
  obtain ⟨-, -, -, -, e0, e1, -⟩ := idx_facts4 t
  unfold iblk4
  rw [View.read_apply]
  show V c main_v18 _ = V c main_v18 _
  refine congrArg _ (funext fun a => Fin.ext ?_)
  match a with
  | ⟨0, _⟩ => show win4_2.index t (0 : Fin 2) * 8000 + 1 * r.val = 8000 * t.val + r.val; rw [e0]; omega
  | ⟨1, _⟩ => show win4_2.index t (1 : Fin 2) * 1 + 1 * u.val = u.val; rw [e1]; omega

theorem blk4_3 (c : Dev nD) (t : Fin cfg4.N) (k : Fin 128) (q : Fin 128) :
    iblk4 V c 3 t (ix2 k q) = V c main_arg10 (ix2 k q) := by
  obtain ⟨-, -, -, -, -, -, e0, e1, -⟩ := idx_facts4 t
  unfold iblk4
  rw [View.read_apply]
  show V c main_arg10 _ = V c main_arg10 _
  refine congrArg _ (funext fun a => Fin.ext ?_)
  match a with
  | ⟨0, _⟩ => show win4_3.index t (0 : Fin 2) * 128 + 1 * k.val = k.val; rw [e0]; omega
  | ⟨1, _⟩ => show win4_3.index t (1 : Fin 2) * 128 + 1 * q.val = q.val; rw [e1]; omega

/-- What point `t` writes back is block `t` of `G4` of the arrays as the region finds them. -/
theorem flushed4_eq (c : Dev nD) (t : Fin cfg4.N) :
    (dat4 V c).flushed 4 t
      = ((cfg4.win 4).blk t).view.read (Elt Ideal) (G4 (V c main_v65) (V c main_v66) (V c main_v18) (V c main_arg10)) := by
  show (cfg4.win 4).cut (grid4.coords t) ((dat4 V c).after 4 t) = _
  rw [after4_4]
  unfold out4_4
  rw [View.canon_unit_zero hz4]
  simp only [View.ld_unit_zero (S := S8000x128) hz4, View.ld_unit_zero (S := S1x128) hz4, View.ld_unit_zero (S := S8000x1) hz4,
    View.ld_unit_zero (S := S128x128) hz4]
  obtain ⟨-, -, -, -, -, -, -, -, e0, e1, hlt⟩ := idx_facts4 t
  funext j
  obtain ⟨r, q, rfl⟩ : ∃ (r : Fin 8000) (q : Fin 128), j = ix2 r q := ⟨j 0, j 1, eq_ix2 j⟩
  have ht : 8000 * t.val + r.val < 200000 := by have := r.isLt; omega
  have hemb : ((cfg4.win 4).blk t).view.emb (ix2 r q) = ix2 (⟨8000 * t.val + r.val, ht⟩ : Fin 200000) q := by
    funext a; apply Fin.ext
    match a with
    | ⟨0, _⟩ => show win4_4.index t (0 : Fin 2) * 8000 + 1 * r.val = 8000 * t.val + r.val; rw [e0]; omega
    | ⟨1, _⟩ => show win4_4.index t (1 : Fin 2) * 128 + 1 * q.val = q.val; rw [e1]; omega
  rw [View.read_apply, hemb]
  show k4_pay1 _ _ _ _ _ (ix2 r q) = _
  rw [pay4_apply]
  unfold G4
  rw [Gcn.arr2_ix2]
  simp only [blk4_0 V c t r _ ht, blk4_1 V c t, blk4_2 V c t r _ ht, blk4_3 V c t]
  exact (cast_eq _ _).symm

/-- An index of the array is in point `t`'s block iff each coordinate is in the block's range on its axis. -/
theorem mem_blk4 (t : Fin cfg4.N) (i : S200000x128.Idx) :
    i ∈ ((cfg4.win 4).blk t).view.set ↔ ∀ a : Fin 2, win4_4.index t a * S8000x128.size a ≤ (i a).val ∧ (i a).val < win4_4.index t a * S8000x128.size a + S8000x128.size a := by
  show i ∈ ((View.whole main_v67).slice (win4_4.rect t)).set ↔ _
  rw [View.set_slice_whole, Rect.mem_set_unit]
  exact Iff.rfl

/-- Every block of rows is some point's. -/
theorem idx_onto4 : ∀ q0 : Fin 25, ∃ t : Fin cfg4.N, win4_4.index t = ![q0.val, 0] :=
  (by decide +kernel : ∀ q0 : Fin 25, ∃ t : Fin grid4.N, win4_4.index t = ![q0.val, 0])

/-- The output array after the region. -/
theorem final4 (c : Dev nD) :
    (dat4 V c).arrAt 4 cfg4.N = G4 (V c main_v65) (V c main_v66) (V c main_v18) (V c main_arg10) :=
  (dat4 V c).arrAt_eq_of_cover 4 _ (fun t _ => flushed4_eq V c t) fun i => by
    have hi0 : (i 0).val < 200000 := (i 0).isLt
    have hi1 : (i 1).val < 128 := (i 1).isLt
    obtain ⟨t, ht⟩ := idx_onto4 ⟨(i 0).val / 8000, by omega⟩
    have q0 : win4_4.index t (0 : Fin 2) = (i 0).val / 8000 := congrFun ht 0
    have q1 : win4_4.index t (1 : Fin 2) = 0 := congrFun ht 1
    refine ⟨t, flush4_4 t, ?_⟩
    rw [mem_blk4]
    intro a
    match a with
    | ⟨0, _⟩ => show win4_4.index t (0 : Fin 2) * 8000 ≤ (i 0).val ∧ (i 0).val < win4_4.index t (0 : Fin 2) * 8000 + 8000; omega
    | ⟨1, _⟩ => show win4_4.index t (1 : Fin 2) * 128 ≤ (i 1).val ∧ (i 1).val < win4_4.index t (1 : Fin 2) * 128 + 128; omega

end Cert.KernelIdeal.KValue

end
-- ==== Proof.KRegion5.lean ====
/-
  Region 5: what the head kernel leaves in the result array.  A grid point handles 8000 consecutive rows: it
  multiplies each row of the last aggregation by the row's node factor, adds the bias row, clamps at zero, takes the
  product with the one-column weight matrix, adds the output bias and applies the leaky clamp.  The 25 blocks tile the
  200000 rows, so the array ends holding that function of the arrays the region finds, entry by entry.
-/
import proofs.«153643_j6382321401984_2_alg».proof.Proof.Gen.KernelIdeal.Frame
import proofs.«153643_j6382321401984_2_alg».proof.Proof.LibMatmulNN
import proofs.«153643_j6382321401984_2_alg».proof.Proof.LibVecLayout
import proofs.«153643_j6382321401984_2_alg».proof.Proof.GcnLayers
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

theorem dot5_eq : dot_S8000x128_S128x1_S8000x1_1_0_0_1_n_n = DotDims.plain 8000 128 1 := rfl

/-- The body's value at row `r` of its block, from the blocks it loads. -/
theorem pay5_apply (v0 : Vec Ideal S8000x1 .f32) (v2 : Vec Ideal S8000x128 .f32) (v6 : Vec Ideal S1x128 .f32)
    (v13 : Vec Ideal S128x1 .f32) (v16 : Vec Ideal S1x1 .f32) (r : Fin 8000) (q : Fin 1) :
    k5_pay1 v0 v2 v6 v13 v16 (ix2 r q)
      = Gcn.leaky ((∑ k : Fin 128, max (v0 (ix2 r 0) * v2 (ix2 r k) + v6 (ix2 0 k)) 0 * v13 (ix2 k q)) + v16 (ix2 0 q)) := by
  unfold k5_pay1
  have hmm : ∀ (x : FVec Ideal S8000x128 .bf16) (w : FVec Ideal S128x1 .bf16),
      matmul (DotDims.plain 8000 128 1) none x w (constant S8000x1 .f32 0x00000000#32) (ix2 r q)
        = ∑ k : Fin 128, x (ix2 r k) * w (ix2 k q) :=
    fun x w => LibMatmulNN.matmul_zero_apply 8000 128 1 none x w r q
  simp only [select_apply, cmpf_apply, mulf_apply, addf_apply, broadcast_apply, dot5_eq, hmm, truncf_apply, maximumf_apply,
    shapeCast_self, LibVecLayout.broadcastTo_a1_ab_apply, broadcastTo_1b_ab_apply, Ideal.ofBits_def, Ideal.ofBits_zero_f32]
  rfl

/-- The region's output array as one function of the arrays it finds. -/
def G5 (A : S200000x128.Idx → EReal) (b : S1x128.Idx → EReal) (dcol : S200000x1.Idx → EReal) (W : S128x1.Idx → EReal)
    (bl : S1x1.Idx → EReal) : S200000x1.Idx → EReal :=
  Gcn.arr2 fun p q => Gcn.leaky ((∑ k : Fin 128, max (dcol (ix2 p 0) * A (ix2 p k) + b (ix2 0 k)) 0 * W (ix2 k q)) + bl (ix2 0 q))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 25 :=
  (by decide +kernel : ∀ t : Fin grid5.N, _)

theorem blk5_0 (c : Dev nD) (t : Fin cfg5.N) (r : Fin 8000) (k : Fin 128) (ht : 8000 * t.val + r.val < 200000) :
    iblk5 V c 0 t (ix2 r k) = V c main_v77 (ix2 (⟨8000 * t.val + r.val, ht⟩ : Fin 200000) k) := by
  obtain ⟨e0, e1, -⟩ := idx_facts5 t
  unfold iblk5
  rw [View.read_apply]
  show V c main_v77 _ = V c main_v77 _
  refine congrArg _ (funext fun a => Fin.ext ?_)
  match a with
  | ⟨0, _⟩ => show win5_0.index t (0 : Fin 2) * 8000 + 1 * r.val = 8000 * t.val + r.val; rw [e0]; omega
  | ⟨1, _⟩ => show win5_0.index t (1 : Fin 2) * 128 + 1 * k.val = k.val; rw [e1]; omega

theorem blk5_1 (c : Dev nD) (t : Fin cfg5.N) (u : Fin 1) (k : Fin 128) :
    iblk5 V c 1 t (ix2 u k) = V c main_v78 (ix2 u k) := by
  obtain ⟨-, -, e0, e1, -⟩ := idx_facts5 t
  unfold iblk5
  rw [View.read_apply]
  show V c main_v78 _ = V c main_v78 _
  refine congrArg _ (funext fun a => Fin.ext ?_)
  match a with
  | ⟨0, _⟩ => show win5_1.index t (0 : Fin 2) * 1 + 1 * u.val = u.val; rw [e0]; omega
  | ⟨1, _⟩ => show win5_1.index t (1 : Fin 2) * 128 + 1 * k.val = k.val; rw [e1]; omega

theorem blk5_2 (c : Dev nD) (t : Fin cfg5.N) (r : Fin 8000) (u : Fin 1) (ht : 8000 * t.val + r.val < 200000) :
    iblk5 V c 2 t (ix2 r u) = V c main_v18 (ix2 (⟨8000 * t.val + r.val, ht⟩ : Fin 200000) u) := by
  obtain ⟨-, -, -, -, e0, e1, -⟩ := idx_facts5 t
  unfold iblk5
  rw [View.read_apply]
  show V c main_v18 _ = V c main_v18 _
  refine congrArg _ (funext fun a => Fin.ext ?_)
  match a with
  | ⟨0, _⟩ => show win5_2.index t (0 : Fin 2) * 8000 + 1 * r.val = 8000 * t.val + r.val; rw [e0]; omega
  | ⟨1, _⟩ => show win5_2.index t (1 : Fin 2) * 1 + 1 * u.val = u.val; rw [e1]; omega

theorem blk5_3 (c : Dev nD) (t : Fin cfg5.N) (k : Fin 128) (q : Fin 1) :
    iblk5 V c 3 t (ix2 k q) = V c main_arg12 (ix2 k q) := by
  obtain ⟨-, -, -, -, -, -, e0, e1, -⟩ := idx_facts5 t
  unfold iblk5
  rw [View.read_apply]
  show V c main_arg12 _ = V c main_arg12 _
  refine congrArg _ (funext fun a => Fin.ext ?_)
  match a with
  | ⟨0, _⟩ => show win5_3.index t (0 : Fin 2) * 128 + 1 * k.val = k.val; rw [e0]; omega
  | ⟨1, _⟩ => show win5_3.index t (1 : Fin 2) * 1 + 1 * q.val = q.val; rw [e1]; omega

theorem blk5_4 (c : Dev nD) (t : Fin cfg5.N) (u : Fin 1) (q : Fin 1) :
    iblk5 V c 4 t (ix2 u q) = V c main_v79 (ix2 u q) := by
  obtain ⟨-, -, -, -, -, -, -, -, e0, e1, -⟩ := idx_facts5 t
  unfold iblk5
  rw [View.read_apply]
  show V c main_v79 _ = V c main_v79 _
  refine congrArg _ (funext fun a => Fin.ext ?_)
  match a with
  | ⟨0, _⟩ => show win5_4.index t (0 : Fin 2) * 1 + 1 * u.val = u.val; rw [e0]; omega
  | ⟨1, _⟩ => show win5_4.index t (1 : Fin 2) * 1 + 1 * q.val = q.val; rw [e1]; omega

/-- What point `t` writes back is block `t` of `G5` of the arrays as the region finds them. -/
theorem flushed5_eq (c : Dev nD) (t : Fin cfg5.N) :
    (dat5 V c).flushed 5 t
      = ((cfg5.win 5).blk t).view.read (Elt Ideal) (G5 (V c main_v77) (V c main_v78) (V c main_v18) (V c main_arg12) (V c main_v79)) := by
  show (cfg5.win 5).cut (grid5.coords t) ((dat5 V c).after 5 t) = _
  rw [after5_5]
  unfold out5_5
  rw [View.canon_unit_zero hz5]
  simp only [View.ld_unit_zero (S := S8000x128) hz5, View.ld_unit_zero (S := S1x128) hz5, View.ld_unit_zero (S := S8000x1) hz5,
    View.ld_unit_zero (S := S128x1) hz5, View.ld_unit_zero (S := S1x1) hz5]
  obtain ⟨-, -, -, -, -, -, -, -, -, -, e0, e1, hlt⟩ := idx_facts5 t
  funext j
  obtain ⟨r, q, rfl⟩ : ∃ (r : Fin 8000) (q : Fin 1), j = ix2 r q := ⟨j 0, j 1, eq_ix2 j⟩
  have ht : 8000 * t.val + r.val < 200000 := by have := r.isLt; omega
  have hemb : ((cfg5.win 5).blk t).view.emb (ix2 r q) = ix2 (⟨8000 * t.val + r.val, ht⟩ : Fin 200000) q := by
    funext a; apply Fin.ext
    match a with
    | ⟨0, _⟩ => show win5_5.index t (0 : Fin 2) * 8000 + 1 * r.val = 8000 * t.val + r.val; rw [e0]; omega
    | ⟨1, _⟩ => show win5_5.index t (1 : Fin 2) * 1 + 1 * q.val = q.val; rw [e1]; omega
  rw [View.read_apply, hemb]
  show k5_pay1 _ _ _ _ _ (ix2 r q) = _
  rw [pay5_apply]
  unfold G5
  rw [Gcn.arr2_ix2]
  simp only [blk5_0 V c t r _ ht, blk5_1 V c t, blk5_2 V c t r _ ht, blk5_3 V c t, blk5_4 V c t]
  exact (cast_eq _ _).symm

theorem mem_blk5 (t : Fin cfg5.N) (i : S200000x1.Idx) :
    i ∈ ((cfg5.win 5).blk t).view.set ↔ ∀ a : Fin 2, win5_5.index t a * S8000x1.size a ≤ (i a).val ∧ (i a).val < win5_5.index t a * S8000x1.size a + S8000x1.size a := by
  show i ∈ ((View.whole main_v80).slice (win5_5.rect t)).set ↔ _
  rw [View.set_slice_whole, Rect.mem_set_unit]
  exact Iff.rfl

theorem idx_onto5 : ∀ q0 : Fin 25, ∃ t : Fin cfg5.N, win5_5.index t = ![q0.val, 0] :=
  (by decide +kernel : ∀ q0 : Fin 25, ∃ t : Fin grid5.N, win5_5.index t = ![q0.val, 0])

/-- The result array after the region. -/
theorem final5 (c : Dev nD) :
    (dat5 V c).arrAt 5 cfg5.N = G5 (V c main_v77) (V c main_v78) (V c main_v18) (V c main_arg12) (V c main_v79) :=
  (dat5 V c).arrAt_eq_of_cover 5 _ (fun t _ => flushed5_eq V c t) fun i => by
    have hi0 : (i 0).val < 200000 := (i 0).isLt
    have hi1 : (i 1).val < 1 := (i 1).isLt
    obtain ⟨t, ht⟩ := idx_onto5 ⟨(i 0).val / 8000, by omega⟩
    have q0 : win5_5.index t (0 : Fin 2) = (i 0).val / 8000 := congrFun ht 0
    have q1 : win5_5.index t (1 : Fin 2) = 0 := congrFun ht 1
    refine ⟨t, flush5_5 t, ?_⟩
    rw [mem_blk5]
    intro a
    match a with
    | ⟨0, _⟩ => show win5_5.index t (0 : Fin 2) * 8000 ≤ (i 0).val ∧ (i 0).val < win5_5.index t (0 : Fin 2) * 8000 + 8000; omega
    | ⟨1, _⟩ => show win5_5.index t (1 : Fin 2) * 1 ≤ (i 1).val ∧ (i 1).val < win5_5.index t (1 : Fin 2) * 1 + 1; omega

end Cert.KernelIdeal.KValue

end
-- ==== Proof.KGForms.lean ====
/-
  The arrays the six kernel regions leave, against the entry-by-entry layer functions of GcnSpec.

  Each region's array is given by an explicit entry formula over the arrays the region reads: the node-factor column
  [200000, 1], a bias row [1, K], a weight matrix, and (after the first region) the array of aggregated sums.  When the
  column holds the node factor d p at (p, 0) and the bias row holds bf k at (0, k), the formula is, entry by entry, the
  spec's "scale the rows of H·W by d" with H the previous layer's activation "max (d p * sum + bias) 0"; the last
  region's is the output head, the affine map to one column followed by the leaky clamp.
-/
import proofs.«153643_j6382321401984_2_alg».proof.Proof.KRegion0
import proofs.«153643_j6382321401984_2_alg».proof.Proof.KRegion1
import proofs.«153643_j6382321401984_2_alg».proof.Proof.KRegion2
import proofs.«153643_j6382321401984_2_alg».proof.Proof.KRegion3
import proofs.«153643_j6382321401984_2_alg».proof.Proof.KRegion4
import proofs.«153643_j6382321401984_2_alg».proof.Proof.KRegion5
import proofs.«153643_j6382321401984_2_alg».proof.Proof.GcnLayers

set_option maxRecDepth 16384

noncomputable section

open scoped BigOperators

namespace Cert.KernelIdeal.KValue

open Cert.KernelIdeal Cert.KernelIdeal.Gen
open Idealize.ShloMosaic Idealize.ShloMosaic.ValueIdx

/-- Region 0's array is the first layer's scaled product: the features times the weights, the rows multiplied by the
    node factor. -/
theorem G0_eq (d : Fin 200000 → EReal) (X : S200000x2.Idx → EReal) (W : S2x32.Idx → EReal)
    (dcol : S200000x1.Idx → EReal) (hd : ∀ p : Fin 200000, dcol (ix2 p (0 : Fin 1)) = d p) :
    G0 X W dcol = Gcn.arr2 (Gcn.scaled d (Gcn.f2 X) (Gcn.f2 W)) := by
  unfold G0
  refine congrArg Gcn.arr2 (funext fun p => funext fun q => ?_)
  simp only [hd]
  rfl

/-- Region 1's array, fed a sum array given by its entries, is the next layer's scaled product: the rows multiplied
    by the node factor, the bias added, clamped at zero, multiplied by the weights, and the rows multiplied by the node
    factor again. -/
theorem G1_eq (d : Fin 200000 → EReal) (agg : Fin 200000 → Fin 32 → EReal) (b : S1x32.Idx → EReal)
    (dcol : S200000x1.Idx → EReal) (W : S32x128.Idx → EReal) (bf : Fin 32 → EReal)
    (hd : ∀ p : Fin 200000, dcol (ix2 p (0 : Fin 1)) = d p) (hb : ∀ k : Fin 32, b (ix2 (0 : Fin 1) k) = bf k) :
    G1 (Gcn.arr2 agg) b dcol W = Gcn.arr2 (Gcn.scaled d (Gcn.actK d agg bf) (Gcn.f2 W)) := by
  unfold G1
  refine congrArg Gcn.arr2 (funext fun p => funext fun q => ?_)
  simp only [hd, hb, Gcn.arr2_ix2]
  rfl

/-- Region 2's array, fed a sum array given by its entries, is the next layer's scaled product: the rows multiplied
    by the node factor, the bias added, clamped at zero, multiplied by the weights, and the rows multiplied by the node
    factor again. -/
theorem G2_eq (d : Fin 200000 → EReal) (agg : Fin 200000 → Fin 128 → EReal) (b : S1x128.Idx → EReal)
    (dcol : S200000x1.Idx → EReal) (W : S128x128.Idx → EReal) (bf : Fin 128 → EReal)
    (hd : ∀ p : Fin 200000, dcol (ix2 p (0 : Fin 1)) = d p) (hb : ∀ k : Fin 128, b (ix2 (0 : Fin 1) k) = bf k) :
    G2 (Gcn.arr2 agg) b dcol W = Gcn.arr2 (Gcn.scaled d (Gcn.actK d agg bf) (Gcn.f2 W)) := by
  unfold G2
  refine congrArg Gcn.arr2 (funext fun p => funext fun q => ?_)
  simp only [hd, hb, Gcn.arr2_ix2]
  rfl

/-- Region 3's array, fed a sum array given by its entries, is the next layer's scaled product: the rows multiplied
    by the node factor, the bias added, clamped at zero, multiplied by the weights, and the rows multiplied by the node
    factor again. -/
theorem G3_eq (d : Fin 200000 → EReal) (agg : Fin 200000 → Fin 128 → EReal) (b : S1x128.Idx → EReal)
    (dcol : S200000x1.Idx → EReal) (W : S128x128.Idx → EReal) (bf : Fin 128 → EReal)
    (hd : ∀ p : Fin 200000, dcol (ix2 p (0 : Fin 1)) = d p) (hb : ∀ k : Fin 128, b (ix2 (0 : Fin 1) k) = bf k) :
    G3 (Gcn.arr2 agg) b dcol W = Gcn.arr2 (Gcn.scaled d (Gcn.actK d agg bf) (Gcn.f2 W)) := by
  unfold G3
  refine congrArg Gcn.arr2 (funext fun p => funext fun q => ?_)
  simp only [hd, hb, Gcn.arr2_ix2]
  rfl

/-- Region 4's array, fed a sum array given by its entries, is the next layer's scaled product: the rows multiplied
    by the node factor, the bias added, clamped at zero, multiplied by the weights, and the rows multiplied by the node
    factor again. -/
theorem G4_eq (d : Fin 200000 → EReal) (agg : Fin 200000 → Fin 128 → EReal) (b : S1x128.Idx → EReal)
    (dcol : S200000x1.Idx → EReal) (W : S128x128.Idx → EReal) (bf : Fin 128 → EReal)
    (hd : ∀ p : Fin 200000, dcol (ix2 p (0 : Fin 1)) = d p) (hb : ∀ k : Fin 128, b (ix2 (0 : Fin 1) k) = bf k) :
    G4 (Gcn.arr2 agg) b dcol W = Gcn.arr2 (Gcn.scaled d (Gcn.actK d agg bf) (Gcn.f2 W)) := by
  unfold G4
  refine congrArg Gcn.arr2 (funext fun p => funext fun q => ?_)
  simp only [hd, hb, Gcn.arr2_ix2]
  rfl

/-- Region 5's array, fed a sum array given by its entries, is the output head of the last activation: the affine map
    to one column followed by the leaky clamp. -/
theorem G5_eq (d : Fin 200000 → EReal) (agg : Fin 200000 → Fin 128 → EReal) (b : S1x128.Idx → EReal)
    (dcol : S200000x1.Idx → EReal) (W : S128x1.Idx → EReal) (bl : S1x1.Idx → EReal) (bf : Fin 128 → EReal)
    (blv : EReal) (hd : ∀ p : Fin 200000, dcol (ix2 p (0 : Fin 1)) = d p)
    (hb : ∀ k : Fin 128, b (ix2 (0 : Fin 1) k) = bf k) (hbl : ∀ q : Fin 1, bl (ix2 (0 : Fin 1) q) = blv) :
    G5 (Gcn.arr2 agg) b dcol W bl = Gcn.arr2 (Gcn.head Gcn.leaky (Gcn.actK d agg bf) (Gcn.f2 W) blv) := by
  unfold G5
  refine congrArg Gcn.arr2 (funext fun p => funext fun q => ?_)
  simp only [hd, hb, hbl, Gcn.arr2_ix2]
  rfl

end Cert.KernelIdeal.KValue

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.GcnArrays.lean ====
/-
  The aggregation step of a graph-convolution layer as the two programs write it with arrays, against the entry-by-entry
  sums of GcnSpec.

  One program gathers the rows of a matrix by the source column and adds each into the row its destination column
  names, starting from zeros: entry (p, q) is 0 plus the sum, over the edges whose destination is p, of the entry
  (source row, q).  The other multiplies every gathered row by a per-edge weight first; the weight is the product of
  the node factor gathered by the source column and the node factor gathered by the (wrapped) destination column, a
  vector over the edges laid out as a column [E, 1] and spread along the feature axis to [E, D].  Both are stated for
  any feature width D and any float format; the sums range over the same edge sets and read the same rows.
  Last, the vector of node factors reshaped to a column [N, 1] reads, at (p, 0), the factor of node p.
-/
import proofs.«153643_j6382321401984_2_alg».proof.Proof.GcnLayers
import proofs.«153643_j6382321401984_2_alg».proof.Proof.LibGraphIdx
import proofs.«153643_j6382321401984_2_alg».proof.Proof.LibBroadcastInDimPair
import proofs.«153643_j6382321401984_2_alg».proof.Proof.LibVecLayout
import proofs.«153643_j6382321401984_2_alg».proof.Proof.LibVecToColumn

noncomputable section

open scoped BigOperators

namespace Gcn

open Idealize.ShloMosaic Idealize.ShloMosaic.ValueIdx

variable {D : Nat} {φ : FTy}

/-- The plain aggregation: rows gathered by the source column, added from zeros into the rows the destination
    column names, is the sum of GcnSpec's first arrangement. -/
theorem scatter_gather_eq_aggK (X zeros : FVec Ideal ⟨2, ![NN, D]⟩ φ) (hz : ∀ i, zeros i = (0 : EReal))
    (srcI dstI : IVec ⟨2, ![EE, 1]⟩ 32)
    (wfG : GatherDims.WF ⟨2, ![NN, D]⟩ ⟨2, ![EE, 1]⟩ ⟨2, ![EE, D]⟩ [1] [0] [] [0] [] 1 ![1, D])
    (wfS : ScatterDims.WF ⟨2, ![NN, D]⟩ ⟨2, ![EE, 1]⟩ ⟨2, ![EE, D]⟩ [1] [0] [0] 1) :
    Host.scatterAdd (F := Ideal) (φ := φ) (Cert.GraphIdx.sd2 wfS) zeros dstI
        (Host.gather (Cert.GraphIdx.gd2 wfG) X srcI)
      = arr2 (aggK (sF srcI) (LF dstI) (f2 X)) := by
  funext i
  obtain ⟨p, q, rfl⟩ : ∃ p q, i = ix2 p q := ⟨i 0, i 1, eq_ix2 i⟩
  rw [Cert.GraphIdx.scatterAdd2_apply, hz]
  rw [arr2_ix2]
  unfold aggK
  refine congrArg (fun t => (0 : EReal) + t) (Finset.sum_congr rfl fun e _ => ?_)
  rw [Cert.GraphIdx.gather2_apply wfG NN_pos]
  rfl

/-- The weighted aggregation: every gathered row multiplied by the product of the two gathered node factors, laid
    out as a column and spread along the feature axis, then added from zeros into the rows the destination column names,
    is the sum of GcnSpec's second arrangement. -/
theorem scatter_weighted_eq_aggR (M zeros : FVec Ideal ⟨2, ![NN, D]⟩ φ) (hz : ∀ i, zeros i = (0 : EReal))
    (dis : FVec Ideal ⟨1, ![NN]⟩ φ) (srcI dstI dstW : IVec ⟨2, ![EE, 1]⟩ 32)
    (wfG : GatherDims.WF ⟨2, ![NN, D]⟩ ⟨2, ![EE, 1]⟩ ⟨2, ![EE, D]⟩ [1] [0] [] [0] [] 1 ![1, D])
    (wfS : ScatterDims.WF ⟨2, ![NN, D]⟩ ⟨2, ![EE, 1]⟩ ⟨2, ![EE, D]⟩ [1] [0] [0] 1)
    (wf1 : GatherDims.WF ⟨1, ![NN]⟩ ⟨2, ![EE, 1]⟩ ⟨1, ![EE]⟩ [] [0] [] [0] [] 1 ![1])
    (h1 : (⟨1, ![EE]⟩ : Shape).BroadcastsInDim ⟨2, ![EE, 1]⟩ ![0])
    (h2 : (⟨2, ![EE, 1]⟩ : Shape).BroadcastsInDim ⟨2, ![EE, D]⟩ ![0, 1]) :
    Host.scatterAdd (F := Ideal) (φ := φ) (Cert.GraphIdx.sd2 wfS) zeros dstI
        (mulf (F := Ideal) (φ := φ) (Host.gather (Cert.GraphIdx.gd2 wfG) M srcI)
          (broadcastInDim ⟨2, ![EE, D]⟩ ![0, 1] h2
            (broadcastInDim ⟨2, ![EE, 1]⟩ ![0] h1
              (mulf (F := Ideal) (φ := φ) (Host.gather (Cert.GraphIdx.gd1 wf1) dis srcI)
                (Host.gather (Cert.GraphIdx.gd1 wf1) dis dstW)))))
      = arr2 (aggR (dF dis) (sF srcI) (sF dstW) (LF dstI) (f2 M)) := by
  funext i
  obtain ⟨p, q, rfl⟩ : ∃ p q, i = ix2 p q := ⟨i 0, i 1, eq_ix2 i⟩
  rw [Cert.GraphIdx.scatterAdd2_apply, hz]
  rw [arr2_ix2]
  unfold aggR
  refine congrArg (fun t => (0 : EReal) + t) (Finset.sum_congr rfl fun e _ => ?_)
  rw [mulf_apply, Cert.GraphIdx.gather2_apply wfG NN_pos, broadcastInDim_col_apply,
    LibVecLayout.broadcastInDim_vec_col_apply, mulf_apply, Cert.GraphIdx.gather1_apply wf1 NN_pos,
    Cert.GraphIdx.gather1_apply wf1 NN_pos]
  rfl

/-- The vector of node factors reshaped to a column reads, at (p, 0), the factor of node p. -/
theorem shapeCast_dis_apply (dis : (⟨1, ![NN]⟩ : Shape).Idx → EReal)
    (h : (⟨1, ![NN]⟩ : Shape).ShapeCasts ⟨2, ![NN, 1]⟩) (p : Fin NN) :
    shapeCast ⟨2, ![NN, 1]⟩ dis h (ix2 p (0 : Fin 1)) = dF dis p :=
  LibVecToColumn.vec_to_col_apply dis h p

end Gcn

end
-- ==== Proof.GraphFacts.lean ====
/-
  Facts about the degree normalisation of a graph convolution, stated over arbitrary arrays.

  The in-degree of a node is a count, a natural number: an accumulating scatter of ones into zeros counts the
  updates landing at each index. The normalisation maps a degree d to d^(-1/2) where d is
  above 0 and to 0 elsewhere, written with two guards: where(d > 0, rsqrt(where(d > 0, d, 1)), 0). At a count k the
  result is (√k)⁻¹ for k above 0 and 0 for k = 0: in both cases a real that is not negative. The constants 1 and 0 of
  the guards are the single-precision patterns 0x3F800000 and 0x00000000, which denote the extended reals 1 and 0.
  Last, an index whose signed reading is a natural number is not below zero, so the wrap "where(i < 0, i + N, i)"
  leaves it alone.
-/
import Idealize.ShloMosaic.PureOps.Ideal.Laws
import Idealize.ShloMosaic.PureOps
import Idealize.ShloMosaic.Lib.ValueIdx
import proofs.«153643_j6382321401984_2_alg».proof.Proof.LibScatterAddFinite

noncomputable section

namespace Gcn

open Idealize.ShloMosaic Idealize.ShloMosaic.ValueIdx

/-! ## The guarded reciprocal square root of a count -/

/-- A count above 0 compares as above 0 in the extended reals. -/
theorem cmp_ogt_natCast_pos {k : ℕ} (hk : 0 < k) : Ideal.cmp .ogt (((k : ℝ) : EReal)) 0 = 1#1 := by
  have hpos : (0 : EReal) < ((k : ℝ) : EReal) := EReal.coe_pos.2 (Nat.cast_pos.2 hk)
  simp [Ideal.cmp, hk]

/-- The count 0 does not compare as above 0. -/
theorem cmp_ogt_natCast_zero : Ideal.cmp .ogt ((((0 : ℕ) : ℝ)) : EReal) 0 = 0#1 := by
  simp [Ideal.cmp]

/-- The reciprocal square root of a count above 0 is the real (√k)⁻¹. -/
theorem rsqrt_natCast_pos {k : ℕ} (hk : 0 < k) :
    Ideal.rsqrt (((k : ℝ) : EReal)) = (((Real.sqrt (k : ℝ))⁻¹ : ℝ) : EReal) := by
  have hk' : (0 : ℝ) < (k : ℝ) := Nat.cast_pos.2 hk
  rw [Ideal.rsqrt_coe, if_neg (not_lt.2 hk'.le), if_neg hk'.ne']

/-- The normalisation at one count: a real that is not negative. -/
theorem dis_scalar (k : ℕ) :
    ∃ r : ℝ, 0 ≤ r ∧
      Scalar.select (Ideal.cmp .ogt (((k : ℝ) : EReal)) 0)
        (Ideal.rsqrt (Scalar.select (Ideal.cmp .ogt (((k : ℝ) : EReal)) 0) (((k : ℝ) : EReal)) 1)) (0 : EReal)
        = (r : EReal) := by
  by_cases hk : 0 < k
  · rw [cmp_ogt_natCast_pos hk, select_one, select_one, rsqrt_natCast_pos hk]
    exact ⟨(Real.sqrt (k : ℝ))⁻¹, inv_nonneg.2 (Real.sqrt_nonneg _), rfl⟩
  · obtain rfl : k = 0 := Nat.eq_zero_of_not_pos hk
    rw [cmp_ogt_natCast_zero, select_zero]
    exact ⟨0, le_rfl, EReal.coe_zero.symm⟩

/-- The normalisation of an array of counts, read at a node: a real that is not negative. The three zero arrays
    and the array of ones are arbitrary arrays with those entries. -/
theorem dis_nonneg_real {n : Nat} (deg z1 z2 z3 ones : FVec Ideal ⟨1, ![n]⟩ .f32)
    (hdeg : ∀ p : Fin n, ∃ k : ℕ, deg (ix1 p) = ((k : ℝ) : EReal))
    (h1 : ∀ i, z1 i = (0 : EReal)) (h2 : ∀ i, z2 i = (0 : EReal)) (h3 : ∀ i, z3 i = (0 : EReal))
    (ho : ∀ i, ones i = (1 : EReal)) (p : Fin n) :
    ∃ r : ℝ, 0 ≤ r ∧
      select (cmpf .ogt deg z1) (Host.rsqrt (select (cmpf .ogt deg z2) deg ones)) z3 (ix1 p) = (r : EReal) := by
  obtain ⟨k, hk⟩ := hdeg p
  show ∃ r : ℝ, 0 ≤ r ∧
      Scalar.select (Ideal.cmp .ogt (deg (ix1 p)) (z1 (ix1 p)))
        (Ideal.rsqrt (Scalar.select (Ideal.cmp .ogt (deg (ix1 p)) (z2 (ix1 p))) (deg (ix1 p)) (ones (ix1 p))))
        (z3 (ix1 p)) = (r : EReal)
  rw [hk, h1, h2, h3, ho]
  exact dis_scalar k

/-- The degree array: an accumulating scatter of ones into zeros, whatever the dimension numbers and the indices,
    has a natural number at every index (the number of updates landing there). -/
theorem deg_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) : ∃ k : ℕ, Host.scatterAdd (F := Ideal) d x idx upd i = ((k : ℝ) : EReal) :=
  Cert.ScatterAddFinite.scatterAdd_zero_one_nat d x idx upd hx hu i

/-! ## The two constants -/

/-- The single-precision pattern of 1.0 denotes the extended real 1. -/
theorem ofBits_one : Ideal.ofBits .f32 0x3F800000#32 = (1 : EReal) := by
  simp [Ideal.ofBits, Ideal.ieee]
  rw [← EReal.coe_mul, ← EReal.coe_one]
  congr 1
  norm_num

/-- The single-precision pattern of 0.0 denotes the extended real 0. -/
theorem ofBits_zero : Ideal.ofBits .f32 0x00000000#32 = (0 : EReal) := Ideal.ofBits_zero_f32

/-- The scalar constant 1.0 broadcast to any shape reads 1 everywhere. -/
theorem broadcast_const_one {t : Shape} (h : (⟨0, ![]⟩ : Shape).BroadcastsInDim t ![]) (j : t.Idx) :
    broadcastInDim t ![] h (constant (F := Ideal) ⟨0, ![]⟩ .f32 0x3F800000#32) j = (1 : EReal) := ofBits_one

/-- The scalar constant 0.0 broadcast to any shape reads 0 everywhere. -/
theorem broadcast_const_zero {t : Shape} (h : (⟨0, ![]⟩ : Shape).BroadcastsInDim t ![]) (j : t.Idx) :
    broadcastInDim t ![] h (constant (F := Ideal) ⟨0, ![]⟩ .f32 0x00000000#32) j = (0 : EReal) := ofBits_zero

/-! ## The wrap of an index that is not negative -/

/-- A vector of length E placed on axis 0 of an [E, 1] array reads, at (e, 0), its entry e. -/
theorem col_apply {α : Type} {E : Nat} (v : (⟨1, ![E]⟩ : Shape).Idx → α)
    (hcol : (⟨1, ![E]⟩ : Shape).BroadcastsInDim ⟨2, ![E, 1]⟩ ![0]) (e : Fin E) :
    broadcastInDim ⟨2, ![E, 1]⟩ ![0] hcol v (ix2 e (0 : Fin 1)) = v (ix1 e) := by
  unfold broadcastInDim
  refine congrArg v (funext fun a => Fin.ext ?_)
  match a with
  | ⟨0, _⟩ =>
    split
    · rename_i h1
      have hE : E = 1 := h1
      have := e.isLt
      show 0 = e.val
      omega
    · rfl

/-- A word whose signed reading is a natural number does not compare as below the zero word. -/
theorem cmpi_slt_zero_of_toInt_nat (x : BitVec 32) (p : ℕ) (h : x.toInt = (p : Int)) :
    IntOp.cmpi .slt x 0#32 = 0#1 := by
  have hlt : x.slt 0#32 = false := by
    rw [BitVec.slt, h]
    simp
  show BitVec.ofBool (x.slt 0#32) = 0#1
  rw [hlt]
  rfl

/-- The wrap "where(v < 0, v + nn, v)" read through the column layout at an edge whose index reads, signed, as a
    natural number: the same natural number. -/
theorem wrap_lands {E : Nat} (v zeros nn : IVec ⟨1, ![E]⟩ 32)
    (hcol : (⟨1, ![E]⟩ : Shape).BroadcastsInDim ⟨2, ![E, 1]⟩ ![0]) (hz : ∀ i, zeros i = 0#32) (e : Fin E) (p : ℕ)
    (h : (broadcastInDim ⟨2, ![E, 1]⟩ ![0] hcol v (ix2 e (0 : Fin 1))).toInt = (p : Int)) :
    (broadcastInDim ⟨2, ![E, 1]⟩ ![0] hcol (select (cmpi .slt v zeros) (addi v nn) v) (ix2 e (0 : Fin 1))).toInt
      = (p : Int) := by
  rw [col_apply] at h ⊢
  show (Scalar.select (IntOp.cmpi .slt (v (ix1 e)) (zeros (ix1 e))) (addi v nn (ix1 e)) (v (ix1 e))).toInt = (p : Int)
  rw [hz, cmpi_slt_zero_of_toInt_nat _ p h, select_zero]
  exact h

end Gcn

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.KChain.lean ====
/-
  The kernel's result, at the ideal reading, as one function of its arguments.  Region 0 leaves the first layer's scaled rows;
  every stretch of host operations gathers the scaled rows by the edges' sources and sums them at the edges'
  destinations; every fused region turns the sums into the next layer's scaled rows; the last region applies the
  output head.  Composed, the result array is the five layers and the head in the arrangement that scales rows
  before the gather and sums after the scatter.
-/
import proofs.«153643_j6382321401984_2_alg».proof.Proof.KCarry
import proofs.«153643_j6382321401984_2_alg».proof.Proof.KernelRun
import proofs.«153643_j6382321401984_2_alg».proof.Proof.KRegion0
import proofs.«153643_j6382321401984_2_alg».proof.Proof.KRegion1
import proofs.«153643_j6382321401984_2_alg».proof.Proof.KRegion2
import proofs.«153643_j6382321401984_2_alg».proof.Proof.KRegion3
import proofs.«153643_j6382321401984_2_alg».proof.Proof.KRegion4
import proofs.«153643_j6382321401984_2_alg».proof.Proof.KRegion5
import proofs.«153643_j6382321401984_2_alg».proof.Proof.KGForms
import proofs.«153643_j6382321401984_2_alg».proof.Proof.GcnArrays
import proofs.«153643_j6382321401984_2_alg».proof.Proof.GcnLayers
import proofs.«153643_j6382321401984_2_alg».proof.Proof.GraphFacts
import proofs.«153643_j6382321401984_2_alg».proof.Proof.LibReshapeRead
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The argument arrays of core `c`, typed -/
abbrev X0 : S200000x2.Idx → EReal := m ((c : Thread nD τ).loc main_arg0)
abbrev A1 : IVec S2x640000 32 := m ((c : Thread nD τ).loc main_arg1)
abbrev P2 : S2x32.Idx → EReal := m ((c : Thread nD τ).loc main_arg2)
abbrev P3 : S32.Idx → EReal := m ((c : Thread nD τ).loc main_arg3)
abbrev P4 : S32x128.Idx → EReal := m ((c : Thread nD τ).loc main_arg4)
abbrev P5 : S128.Idx → EReal := m ((c : Thread nD τ).loc main_arg5)
abbrev P6 : S128x128.Idx → EReal := m ((c : Thread nD τ).loc main_arg6)
abbrev P7 : S128.Idx → EReal := m ((c : Thread nD τ).loc main_arg7)
abbrev P8 : S128x128.Idx → EReal := m ((c : Thread nD τ).loc main_arg8)
abbrev P9 : S128.Idx → EReal := m ((c : Thread nD τ).loc main_arg9)
abbrev P10 : S128x128.Idx → EReal := m ((c : Thread nD τ).loc main_arg10)
abbrev P11 : S128.Idx → EReal := m ((c : Thread nD τ).loc main_arg11)
abbrev P12 : S128x1.Idx → EReal := m ((c : Thread nD τ).loc main_arg12)
abbrev P13 : S1.Idx → EReal := m ((c : Thread nD τ).loc main_arg13)

/-! ## The stages -/

section Stages
variable (a1 : IVec S2x640000 32)
/-- The first layer's product with its rows scaled by the node factors. -/
def hs0 (x : S200000x2.Idx → EReal) (w : S2x32.Idx → EReal) : Fin 200000 → Fin 32 → EReal :=
  Gcn.scaled (Gcn.dF (disVec a1)) (Gcn.f2 x) (Gcn.f2 w)
/-- The gathered rows summed at the destinations. -/
def ag {D : Nat} (hs : Fin 200000 → Fin D → EReal) : Fin 200000 → Fin D → EReal :=
  Gcn.aggK (Gcn.sF (srcIdx a1)) (Gcn.LF (dstIdx a1)) hs
/-- A fused layer: the sums scaled, biased and clamped, then the next product with its rows scaled. -/
def hsN {K D : Nat} (agg : Fin 200000 → Fin K → EReal) (b : (⟨1, ![K]⟩ : Shape).Idx → EReal) (w : (⟨2, ![K, D]⟩ : Shape).Idx → EReal) :
    Fin 200000 → Fin D → EReal :=
  Gcn.scaled (Gcn.dF (disVec a1)) (Gcn.actK (Gcn.dF (disVec a1)) agg (Gcn.f1 b)) (Gcn.f2 w)
end Stages

set_option maxHeartbeats 4000000 in
/-- After region 0. -/
theorem out0 : (W6 m ρ c (Proc.devRef .tc main_v19) : S200000x32.Idx → EReal) = Gcn.arr2 (hs0 (A1 m c) (X0 m c) (P2 m c)) := by
  have h := W6_arr m ρ c 3
  rw [final0 (V5 m ρ) c] at h
  refine h.trans ?_
  show G0 (W5 m ρ c (Proc.devRef .tc main_arg0)) (W5 m ρ c (Proc.devRef .tc main_arg2)) (W5 m ρ c (Proc.devRef .tc main_v18)) = _
  rw [arg0_at5, arg2_at5, v18_at5]
  exact G0_eq _ _ _ _ (fun p => Gcn.shapeCast_dis_apply _ _ p)

set_option maxHeartbeats 4000000 in
/-- After the stretch before region 1: the scaled rows gathered and summed. -/
theorem agg1 : (W7 m ρ c (Proc.devRef .tc main_v29) : S200000x32.Idx → EReal) = Gcn.arr2 (ag (A1 m c) (hs0 (A1 m c) (X0 m c) (P2 m c))) := by
  rw [agg1_at7, v6_at6, v5_at6, out0]
  exact Gcn.scatter_gather_eq_aggK (φ := .f32) _ _ (fun i => Gcn.broadcast_const_zero _ i) _ _
    gather_S200000x32_S840000x1_S840000x32_1_0_n_n_0_1_132.wf scatter_S200000x32_S840000x1_S840000x32_1_0_0_1.wf

set_option maxHeartbeats 4000000 in
/-- After region 1. -/
theorem out1 : (W8 m ρ c (Proc.devRef .tc main_v31) : S200000x128.Idx → EReal) = Gcn.arr2 (hsN (A1 m c) (ag (A1 m c) (hs0 (A1 m c) (X0 m c) (P2 m c))) (P3 m c) (P4 m c)) := by
  have h := W8_arr m ρ c 4
  rw [final1 (V7 m ρ) c] at h
  refine h.trans ?_
  show G1 (W7 m ρ c (Proc.devRef .tc main_v29)) (W7 m ρ c (Proc.devRef .tc main_v30)) (W7 m ρ c (Proc.devRef .tc main_v18)) (W7 m ρ c (Proc.devRef .tc main_arg4)) = _
  rw [agg1, b1_at7, arg3_at6, v18_at7, arg4_at7]
  exact G1_eq _ _ _ _ _ _ (fun p => Gcn.shapeCast_dis_apply _ _ p) (fun k => Cert.DistSeams.vec_to_row_apply _ _ 0 k)

set_option maxHeartbeats 4000000 in
/-- After the stretch before region 2: the scaled rows gathered and summed. -/
theorem agg2 : (W9 m ρ c (Proc.devRef .tc main_v41) : S200000x128.Idx → EReal) = Gcn.arr2 (ag (A1 m c) (hsN (A1 m c) (ag (A1 m c) (hs0 (A1 m c) (X0 m c) (P2 m c))) (P3 m c) (P4 m c))) := by
  rw [agg2_at9, v6_at8, v5_at8, out1]
  exact Gcn.scatter_gather_eq_aggK (φ := .f32) _ _ (fun i => Gcn.broadcast_const_zero _ i) _ _
    gather_S200000x128_S840000x1_S840000x128_1_0_n_n_0_1_1128.wf scatter_S200000x128_S840000x1_S840000x128_1_0_0_1.wf

set_option maxHeartbeats 4000000 in
/-- After region 2. -/
theorem out2 : (W10 m ρ c (Proc.devRef .tc main_v43) : S200000x128.Idx → EReal) = Gcn.arr2 (hsN (A1 m c) (ag (A1 m c) (hsN (A1 m c) (ag (A1 m c) (hs0 (A1 m c) (X0 m c) (P2 m c))) (P3 m c) (P4 m c))) (P5 m c) (P6 m c)) := by
  have h := W10_arr m ρ c 4
  rw [final2 (V9 m ρ) c] at h
  refine h.trans ?_
  show G2 (W9 m ρ c (Proc.devRef .tc main_v41)) (W9 m ρ c (Proc.devRef .tc main_v42)) (W9 m ρ c (Proc.devRef .tc main_v18)) (W9 m ρ c (Proc.devRef .tc main_arg6)) = _
  rw [agg2, b2_at9, arg5_at8, v18_at9, arg6_at9]
  exact G2_eq _ _ _ _ _ _ (fun p => Gcn.shapeCast_dis_apply _ _ p) (fun k => Cert.DistSeams.vec_to_row_apply _ _ 0 k)

set_option maxHeartbeats 4000000 in
/-- After the stretch before region 3: the scaled rows gathered and summed. -/
theorem agg3 : (W11 m ρ c (Proc.devRef .tc main_v53) : S200000x128.Idx → EReal) = Gcn.arr2 (ag (A1 m c) (hsN (A1 m c) (ag (A1 m c) (hsN (A1 m c) (ag (A1 m c) (hs0 (A1 m c) (X0 m c) (P2 m c))) (P3 m c) (P4 m c))) (P5 m c) (P6 m c))) := by
  rw [agg3_at11, v6_at10, v5_at10, out2]
  exact Gcn.scatter_gather_eq_aggK (φ := .f32) _ _ (fun i => Gcn.broadcast_const_zero _ i) _ _
    gather_S200000x128_S840000x1_S840000x128_1_0_n_n_0_1_1128.wf scatter_S200000x128_S840000x1_S840000x128_1_0_0_1.wf

set_option maxHeartbeats 4000000 in
/-- After region 3. -/
theorem out3 : (W12 m ρ c (Proc.devRef .tc main_v55) : S200000x128.Idx → EReal) = Gcn.arr2 (hsN (A1 m c) (ag (A1 m c) (hsN (A1 m c) (ag (A1 m c) (hsN (A1 m c) (ag (A1 m c) (hs0 (A1 m c) (X0 m c) (P2 m c))) (P3 m c) (P4 m c))) (P5 m c) (P6 m c))) (P7 m c) (P8 m c)) := by
  have h := W12_arr m ρ c 4
  rw [final3 (V11 m ρ) c] at h
  refine h.trans ?_
  show G3 (W11 m ρ c (Proc.devRef .tc main_v53)) (W11 m ρ c (Proc.devRef .tc main_v54)) (W11 m ρ c (Proc.devRef .tc main_v18)) (W11 m ρ c (Proc.devRef .tc main_arg8)) = _
  rw [agg3, b3_at11, arg7_at10, v18_at11, arg8_at11]
  exact G3_eq _ _ _ _ _ _ (fun p => Gcn.shapeCast_dis_apply _ _ p) (fun k => Cert.DistSeams.vec_to_row_apply _ _ 0 k)

set_option maxHeartbeats 4000000 in
/-- After the stretch before region 4: the scaled rows gathered and summed. -/
theorem agg4 : (W13 m ρ c (Proc.devRef .tc main_v65) : S200000x128.Idx → EReal) = Gcn.arr2 (ag (A1 m c) (hsN (A1 m c) (ag (A1 m c) (hsN (A1 m c) (ag (A1 m c) (hsN (A1 m c) (ag (A1 m c) (hs0 (A1 m c) (X0 m c) (P2 m c))) (P3 m c) (P4 m c))) (P5 m c) (P6 m c))) (P7 m c) (P8 m c))) := by
  rw [agg4_at13, v6_at12, v5_at12, out3]
  exact Gcn.scatter_gather_eq_aggK (φ := .f32) _ _ (fun i => Gcn.broadcast_const_zero _ i) _ _
    gather_S200000x128_S840000x1_S840000x128_1_0_n_n_0_1_1128.wf scatter_S200000x128_S840000x1_S840000x128_1_0_0_1.wf

set_option maxHeartbeats 4000000 in
/-- After region 4. -/
theorem out4 : (W14 m ρ c (Proc.devRef .tc main_v67) : S200000x128.Idx → EReal) = Gcn.arr2 (hsN (A1 m c) (ag (A1 m c) (hsN (A1 m c) (ag (A1 m c) (hsN (A1 m c) (ag (A1 m c) (hsN (A1 m c) (ag (A1 m c) (hs0 (A1 m c) (X0 m c) (P2 m c))) (P3 m c) (P4 m c))) (P5 m c) (P6 m c))) (P7 m c) (P8 m c))) (P9 m c) (P10 m c)) := by
  have h := W14_arr m ρ c 4
  rw [final4 (V13 m ρ) c] at h
  refine h.trans ?_
  show G4 (W13 m ρ c (Proc.devRef .tc main_v65)) (W13 m ρ c (Proc.devRef .tc main_v66)) (W13 m ρ c (Proc.devRef .tc main_v18)) (W13 m ρ c (Proc.devRef .tc main_arg10)) = _
  rw [agg4, b4_at13, arg9_at12, v18_at13, arg10_at13]
  exact G4_eq _ _ _ _ _ _ (fun p => Gcn.shapeCast_dis_apply _ _ p) (fun k => Cert.DistSeams.vec_to_row_apply _ _ 0 k)

set_option maxHeartbeats 4000000 in
/-- After the stretch before region 5: the scaled rows gathered and summed. -/
theorem agg5 : (W15 m ρ c (Proc.devRef .tc main_v77) : S200000x128.Idx → EReal) = Gcn.arr2 (ag (A1 m c) (hsN (A1 m c) (ag (A1 m c) (hsN (A1 m c) (ag (A1 m c) (hsN (A1 m c) (ag (A1 m c) (hsN (A1 m c) (ag (A1 m c) (hs0 (A1 m c) (X0 m c) (P2 m c))) (P3 m c) (P4 m c))) (P5 m c) (P6 m c))) (P7 m c) (P8 m c))) (P9 m c) (P10 m c))) := by
  rw [agg5_at15, v6_at14, v5_at14, out4]
  exact Gcn.scatter_gather_eq_aggK (φ := .f32) _ _ (fun i => Gcn.broadcast_const_zero _ i) _ _
    gather_S200000x128_S840000x1_S840000x128_1_0_n_n_0_1_1128.wf scatter_S200000x128_S840000x1_S840000x128_1_0_0_1.wf

set_option maxHeartbeats 4000000 in
/-- After region 5: the result array. -/
theorem out5 : (W16 m ρ c (Proc.devRef .tc main_v80) : S200000x1.Idx → EReal) = Gcn.arr2 (Gcn.layersK (X0 m c) (P2 m c) (P3 m c) (P4 m c) (P5 m c) (P6 m c) (P7 m c) (P8 m c) (P9 m c) (P10 m c) (P11 m c) (P12 m c) (P13 m c) (srcIdx (A1 m c)) (dstIdx (A1 m c)) (disVec (A1 m c))) := by
  have h := W16_arr m ρ c 5
  rw [final5 (V15 m ρ) c] at h
  refine h.trans ?_
  show G5 (W15 m ρ c (Proc.devRef .tc main_v77)) (W15 m ρ c (Proc.devRef .tc main_v78)) (W15 m ρ c (Proc.devRef .tc main_v18)) (W15 m ρ c (Proc.devRef .tc main_arg12)) (W15 m ρ c (Proc.devRef .tc main_v79)) = _
  rw [agg5, b5_at15, arg11_at14, v18_at15, arg12_at15, bl_at15, arg13_at14]
  refine (G5_eq _ _ _ _ _ _ _ ((P13 m c) (ix1 0)) (fun p => Gcn.shapeCast_dis_apply _ _ p) (fun k => Cert.DistSeams.vec_to_row_apply _ _ 0 k) (fun q => ?_)).trans rfl
  have hq : q = 0 := Subsingleton.elim _ _
  subst hq
  exact Cert.DistSeams.vec_to_row_apply _ _ 0 0

/-- The kernel's run at the ideal reading with its result as the five layers and the head of its arguments. -/
theorem value_run : θ_run defs (onTc (τ := τ) (main (F := Ideal))) ⟨m, fun _ => 0, ρ⟩ (fun r => ∀ c : Dev nD,
      r.2.mem ((c.tc : Thread nD τ).loc main_v80) = Gcn.arr2 (Gcn.layersK (X0 m c) (P2 m c) (P3 m c) (P4 m c) (P5 m c) (P6 m c) (P7 m c) (P8 m c) (P9 m c) (P10 m c) (P11 m c) (P12 m c) (P13 m c) (srcIdx (A1 m c)) (dstIdx (A1 m c)) (disVec (A1 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (out5 m ρ c), (h c).2⟩) (run (F := Ideal) m ρ)

end Cert.KernelIdeal.KValue

end
-- ==== Proof.KGraphFacts.lean ====
/-
  Two facts about the graph arrays the host code computes from the edge list.

  Every node's degree is a count, so its node factor, the guarded inverse square root of the degree, is a real that is
  not negative.  And an edge that the accumulating scatter lands on node p has a destination index whose signed reading
  is the natural number p; such an index is not negative, the wrap leaves it alone, and read as a gather index it
  selects row p.
-/
import proofs.«153643_j6382321401984_2_alg».proof.Proof.KGraph
import proofs.«153643_j6382321401984_2_alg».proof.Proof.GraphFacts
import proofs.«153643_j6382321401984_2_alg».proof.Proof.GcnLayers
import proofs.«153643_j6382321401984_2_alg».proof.Proof.LibGraphIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- The array of zeros reads 0 everywhere, and the array of ones 1. -/
theorem zerosN_apply (i : S200000.Idx) : zerosN i = (0 : EReal) := Gcn.broadcast_const_zero bcast_S_S200000 i
theorem onesN_apply (i : S200000.Idx) : onesN i = (1 : EReal) := Gcn.broadcast_const_one bcast_S_S200000 i

/-- Every node's degree is a natural number. -/
theorem deg_nat (a1 : IVec S2x640000 32) (p : Fin Gcn.NN) : ∃ k : ℕ, deg a1 (ix1 p) = ((k : ℝ) : EReal) :=
  Gcn.deg_nat scatter_S200000_S840000x1_S840000_n_0_0_1 zerosN (dstIdx a1)
    (broadcastInDim S840000 ![] bcast_S_S840000 (constant S_ .f32 0x3F800000#32)) zerosN_apply
    (fun j => Gcn.broadcast_const_one bcast_S_S840000 j) (ix1 p)

/-- Every node factor is a real that is not negative. -/
theorem dis_nonneg (a1 : IVec S2x640000 32) :
    ∀ p : Fin Gcn.NN, ∃ r : ℝ, 0 ≤ r ∧ Gcn.dF (disVec a1) p = (r : EReal) := fun p =>
  Gcn.dis_nonneg_real (deg a1) zerosN zerosN zerosN onesN (deg_nat a1) zerosN_apply zerosN_apply zerosN_apply
    onesN_apply p

/-- An edge landing on node p selects row p through its wrapped destination index. -/
theorem lands_row (a1 : IVec S2x640000 32) :
    ∀ p : Fin Gcn.NN, ∀ e ∈ Gcn.LF (dstIdx a1) p, Gcn.sF (col (wrap (dstVec a1))) e = p := by
  intro p e he
  have h : (dstIdx a1 (ix2 e 0)).toInt = (p.val : Int) := (Finset.mem_filter.mp he).2
  refine Cert.GraphIdx.rowOf_eq Gcn.NN_pos _ e p ?_
  exact Gcn.wrap_lands (dstVec a1) (broadcastInDim S840000 ![] bcast_S_S840000 (constantI S_ 32 0#32))
    (broadcastInDim S840000 ![] bcast_S_S840000 (constantI S_ 32 200000#32)) bcast_S840000_S840000x1_0
    (fun i => rfl) e p.val h

end Cert.KernelIdeal.KValue

end
-- ==== Proof.RefOps.lean ====
/-
  The reference program's @main as the list of its 173 host operations, cut into seven consecutive stretches: the
  graph prefix (the edge columns, the degrees, the node factors and the edge weights), the five convolution layers,
  and the output head.  The program is the straight line of the list, so every weakly fair execution terminates with
  each buffer at the fold of the operations' results over its launch contents; the fold over the whole list is the
  fold over the stretches one after the other.
-/
import proofs.«153643_j6382321401984_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 173 operations, in order (a called function's operations stand in its call's place). -/
abbrev ops : List (HloOp τ sig (Elt F)) :=
  [ nullary main_v0 (iotaInDim S200000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)),
    nullary main_cst (constant S_ .f32 0x3F800000#32),
    unary main_cst main_v7 (broadcastInDim S840000 ![] bcast_S_S840000 : (⟨S_, .f32⟩ : BufTy).Contents (Elt F) → (⟨S840000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S840000x1 ![0] bcast_S840000_S840000x1_0 : (⟨S840000, .i32⟩ : BufTy).Contents (Elt F) → (⟨S840000x1, .i32⟩ : BufTy).Contents (Elt F)),
    ternary main_v8 main_v9 main_v7 main_v10 ((fun x i u => Host.scatterAdd scatter_S200000_S840000x1_S840000_n_0_0_1 x i u) : (⟨S200000, .f32⟩ : BufTy).Contents (Elt F) → (⟨S840000x1, .i32⟩ : BufTy).Contents (Elt F) → (⟨S840000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x00000000#32),
    unary main_cst_2 main_v13 (broadcastInDim S200000 ![] bcast_S_S200000 : (⟨S_, .f32⟩ : BufTy).Contents (Elt F) → (⟨S200000, .f32⟩ : BufTy).Contents (Elt F)),
    binary main_v10 main_v13 main_v14 (cmpf .ogt : (⟨S200000, .f32⟩ : BufTy).Contents (Elt F) → (⟨S200000, .f32⟩ : BufTy).Contents (Elt F) → (⟨S200000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v14) (TRef.of (T := ⟨S200000, .f32⟩) main_v10) (TRef.of (T := ⟨S200000, .f32⟩) main_call0_v1) (TRef.of (T := ⟨S200000, .f32⟩) main_v15) select,
    unary main_v15 main_v16 (Host.rsqrt : (⟨S200000, .f32⟩ : BufTy).Contents (Elt F) → (⟨S200000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S200000, .f32⟩) main_call1_v1) (broadcastInDim S200000 ![] bcast_S_S200000),
    TRef.ternary (TRef.of (T := ⟨S200000, .i1⟩) main_v12) (TRef.of (T := ⟨S200000, .f32⟩) main_v16) (TRef.of (T := ⟨S200000, .f32⟩) main_call1_v1) (TRef.of (T := ⟨S200000, .f32⟩) main_v17) select,
    nullary main_c (constantI S_ 32 0#32),
    unary main_c main_v18 (broadcastInDim S840000 ![] bcast_S_S840000 : (⟨S_, .i32⟩ : BufTy).Contents (Elt F) → (⟨S840000, .i32⟩ : BufTy).Contents (Elt F)),
    binary main_v3 main_v18 main_v19 (cmpi .slt : (⟨S840000, .i32⟩ : BufTy).Contents (Elt F) → (⟨S840000, .i32⟩ : BufTy).Contents (Elt F) → (⟨S840000, .i1⟩ : BufTy).Contents (Elt F)),
    nullary main_c_5 (constantI S_ 32 200000#32),
    unary main_c_5 main_v20 (broadcastInDim S840000 ![] bcast_S_S840000 : (⟨S_, .i32⟩ : BufTy).Contents (Elt F) → (⟨S840000, .i32⟩ : BufTy).Contents (Elt F)),
    binary main_v3 main_v20 main_v21 (addi : (⟨S840000, .i32⟩ : BufTy).Contents (Elt F) → (⟨S840000, .i32⟩ : BufTy).Contents (Elt F) → (⟨S840000, .i32⟩ : BufTy).Contents (Elt F)),
    ternary main_v19 main_v21 main_v3 main_v22 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v22 main_v23 (broadcastInDim S840000x1 ![0] bcast_S840000_S840000x1_0 : (⟨S840000, .i32⟩ : BufTy).Contents (Elt F) → (⟨S840000x1, .i32⟩ : BufTy).Contents (Elt F)),
    binary main_v17 main_v23 main_v24 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    nullary main_c_6 (constantI S_ 32 0#32),
    unary main_c_6 main_v25 (broadcastInDim S840000 ![] bcast_S_S840000 : (⟨S_, .i32⟩ : BufTy).Contents (Elt F) → (⟨S840000, .i32⟩ : BufTy).Contents (Elt F)),
    binary main_v6 main_v25 main_v26 (cmpi .slt : (⟨S840000, .i32⟩ : BufTy).Contents (Elt F) → (⟨S840000, .i32⟩ : BufTy).Contents (Elt F) → (⟨S840000, .i1⟩ : BufTy).Contents (Elt F)),
    nullary main_c_7 (constantI S_ 32 200000#32),
    unary main_c_7 main_v27 (broadcastInDim S840000 ![] bcast_S_S840000 : (⟨S_, .i32⟩ : BufTy).Contents (Elt F) → (⟨S840000, .i32⟩ : BufTy).Contents (Elt F)),
    binary main_v6 main_v27 main_v28 (addi : (⟨S840000, .i32⟩ : BufTy).Contents (Elt F) → (⟨S840000, .i32⟩ : BufTy).Contents (Elt F) → (⟨S840000, .i32⟩ : BufTy).Contents (Elt F)),
    ternary main_v26 main_v28 main_v6 main_v29 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v29 main_v30 (broadcastInDim S840000x1 ![0] bcast_S840000_S840000x1_0 : (⟨S840000, .i32⟩ : BufTy).Contents (Elt F) → (⟨S840000x1, .i32⟩ : BufTy).Contents (Elt F)),
    binary main_v17 main_v30 main_v31 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    binary main_v24 main_v31 main_v32 (mulf : (⟨S840000, .f32⟩ : BufTy).Contents (Elt F) → (⟨S840000, .f32⟩ : BufTy).Contents (Elt F) → (⟨S840000, .f32⟩ : BufTy).Contents (Elt F)),
    binary main_arg0 main_arg2 main_v33 ((fun l r => Host.dotGeneral dot_S200000x2_S2x32_S200000x32_1_0_0_1_n_n none l r) : (⟨S200000x2, .f32⟩ : BufTy).Contents (Elt F) → (⟨S2x32, .f32⟩ : BufTy).Contents (Elt F) → (⟨S200000x32, .f32⟩ : BufTy).Contents (Elt F)),
    nullary main_c_8 (constantI S_ 32 0#32),
    unary main_c_8 main_v34 (broadcastInDim S840000 ![] bcast_S_S840000 : (⟨S_, .i32⟩ : BufTy).Contents (Elt F) → (⟨S840000, .i32⟩ : BufTy).Contents (Elt F)),
    binary main_v3 main_v34 main_v35 (cmpi .slt : (⟨S840000, .i32⟩ : BufTy).Contents (Elt F) → (⟨S840000, .i32⟩ : BufTy).Contents (Elt F) → (⟨S840000, .i1⟩ : BufTy).Contents (Elt F)),
    nullary main_c_9 (constantI S_ 32 200000#32),
    unary main_c_9 main_v36 (broadcastInDim S840000 ![] bcast_S_S840000 : (⟨S_, .i32⟩ : BufTy).Contents (Elt F) → (⟨S840000, .i32⟩ : BufTy).Contents (Elt F)),
    binary main_v3 main_v36 main_v37 (addi : (⟨S840000, .i32⟩ : BufTy).Contents (Elt F) → (⟨S840000, .i32⟩ : BufTy).Contents (Elt F) → (⟨S840000, .i32⟩ : BufTy).Contents (Elt F)),
    ternary main_v35 main_v37 main_v3 main_v38 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v38 main_v39 (broadcastInDim S840000x1 ![0] bcast_S840000_S840000x1_0 : (⟨S840000, .i32⟩ : BufTy).Contents (Elt F) → (⟨S840000x1, .i32⟩ : BufTy).Contents (Elt F)),
    binary main_v33 main_v39 main_v40 ((fun x i => Host.gather gather_S200000x32_S840000x1_S840000x32_1_0_n_n_0_1_132 x i) : (⟨S200000x32, .f32⟩ : BufTy).Contents (Elt F) → (⟨S840000x1, .i32⟩ : BufTy).Contents (Elt F) → (⟨S840000x32, .f32⟩ : BufTy).Contents (Elt F)),
    unary main_v32 main_v41 (broadcastInDim S840000x1 ![0] bcast_S840000_S840000x1_0 : (⟨S840000, .f32⟩ : BufTy).Contents (Elt F) → (⟨S840000x1, .f32⟩ : BufTy).Contents (Elt F)),
    unary main_v41 main_v42 (broadcastInDim S840000x32 ![0, 1] bcast_S840000x1_S840000x32_0_1 : (⟨S840000x1, .f32⟩ : BufTy).Contents (Elt F) → (⟨S840000x32, .f32⟩ : BufTy).Contents (Elt F)),
    binary main_v40 main_v42 main_v43 (mulf : (⟨S840000x32, .f32⟩ : BufTy).Contents (Elt F) → (⟨S840000x32, .f32⟩ : BufTy).Contents (Elt F) → (⟨S840000x32, .f32⟩ : BufTy).Contents (Elt F)),
    nullary main_cst_10 (constant S_ .f32 0x00000000#32),
    unary main_cst_10 main_v44 (broadcastInDim S200000x32 ![] bcast_S_S200000x32 : (⟨S_, .f32⟩ : BufTy).Contents (Elt F) → (⟨S200000x32, .f32⟩ : BufTy).Contents (Elt F)),
    unary main_v6 main_v45 (broadcastInDim S840000x1 ![0] bcast_S840000_S840000x1_0 : (⟨S840000, .i32⟩ : BufTy).Contents (Elt F) → (⟨S840000x1, .i32⟩ : BufTy).Contents (Elt F)),
    ternary main_v44 main_v45 main_v43 main_v46 ((fun x i u => Host.scatterAdd scatter_S200000x32_S840000x1_S840000x32_1_0_0_1 x i u) : (⟨S200000x32, .f32⟩ : BufTy).Contents (Elt F) → (⟨S840000x1, .i32⟩ : BufTy).Contents (Elt F) → (⟨S840000x32, .f32⟩ : BufTy).Contents (Elt F) → (⟨S200000x32, .f32⟩ : BufTy).Contents (Elt F)),
    unary main_arg3 main_v47 (broadcastInDim S1x32 ![1] bcast_S32_S1x32_1 : (⟨S32, .f32⟩ : BufTy).Contents (Elt F) → (⟨S1x32, .f32⟩ : BufTy).Contents (Elt F)),
    unary main_v47 main_v48 (broadcastInDim S200000x32 ![0, 1] bcast_S1x32_S200000x32_0_1 : (⟨S1x32, .f32⟩ : BufTy).Contents (Elt F) → (⟨S200000x32, .f32⟩ : BufTy).Contents (Elt F)),
    binary main_v46 main_v48 main_v49 (addf : (⟨S200000x32, .f32⟩ : BufTy).Contents (Elt F) → (⟨S200000x32, .f32⟩ : BufTy).Contents (Elt F) → (⟨S200000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x32, .f32⟩) main_call2_v0) (broadcastInDim S200000x32 ![] bcast_S_S200000x32),
    TRef.binary (TRef.of (T := ⟨S200000x32, .f32⟩) main_v49) (TRef.of (T := ⟨S200000x32, .f32⟩) main_call2_v0) (TRef.of (T := ⟨S200000x32, .f32⟩) main_v50) maximumf,
    binary main_v50 main_arg4 main_v51 ((fun l r => Host.dotGeneral dot_S200000x32_S32x128_S200000x128_1_0_0_1_n_n none l r) : (⟨S200000x32, .f32⟩ : BufTy).Contents (Elt F) → (⟨S32x128, .f32⟩ : BufTy).Contents (Elt F) → (⟨S200000x128, .f32⟩ : BufTy).Contents (Elt F)),
    nullary main_c_11 (constantI S_ 32 0#32),
    unary main_c_11 main_v52 (broadcastInDim S840000 ![] bcast_S_S840000 : (⟨S_, .i32⟩ : BufTy).Contents (Elt F) → (⟨S840000, .i32⟩ : BufTy).Contents (Elt F)),
    binary main_v3 main_v52 main_v53 (cmpi .slt : (⟨S840000, .i32⟩ : BufTy).Contents (Elt F) → (⟨S840000, .i32⟩ : BufTy).Contents (Elt F) → (⟨S840000, .i1⟩ : BufTy).Contents (Elt F)),
    nullary main_c_12 (constantI S_ 32 200000#32),
    unary main_c_12 main_v54 (broadcastInDim S840000 ![] bcast_S_S840000 : (⟨S_, .i32⟩ : BufTy).Contents (Elt F) → (⟨S840000, .i32⟩ : BufTy).Contents (Elt F)),
    binary main_v3 main_v54 main_v55 (addi : (⟨S840000, .i32⟩ : BufTy).Contents (Elt F) → (⟨S840000, .i32⟩ : BufTy).Contents (Elt F) → (⟨S840000, .i32⟩ : BufTy).Contents (Elt F)),
    ternary main_v53 main_v55 main_v3 main_v56 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v56 main_v57 (broadcastInDim S840000x1 ![0] bcast_S840000_S840000x1_0 : (⟨S840000, .i32⟩ : BufTy).Contents (Elt F) → (⟨S840000x1, .i32⟩ : BufTy).Contents (Elt F)),
    binary main_v51 main_v57 main_v58 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v59 (broadcastInDim S840000x1 ![0] bcast_S840000_S840000x1_0 : (⟨S840000, .f32⟩ : BufTy).Contents (Elt F) → (⟨S840000x1, .f32⟩ : BufTy).Contents (Elt F)),
    unary main_v59 main_v60 (broadcastInDim S840000x128 ![0, 1] bcast_S840000x1_S840000x128_0_1 : (⟨S840000x1, .f32⟩ : BufTy).Contents (Elt F) → (⟨S840000x128, .f32⟩ : BufTy).Contents (Elt F)),
    binary main_v58 main_v60 main_v61 (mulf : (⟨S840000x128, .f32⟩ : BufTy).Contents (Elt F) → (⟨S840000x128, .f32⟩ : BufTy).Contents (Elt F) → (⟨S840000x128, .f32⟩ : BufTy).Contents (Elt F)),
    nullary main_cst_13 (constant S_ .f32 0x00000000#32),
    unary main_cst_13 main_v62 (broadcastInDim S200000x128 ![] bcast_S_S200000x128 : (⟨S_, .f32⟩ : BufTy).Contents (Elt F) → (⟨S200000x128, .f32⟩ : BufTy).Contents (Elt F)),
    unary main_v6 main_v63 (broadcastInDim S840000x1 ![0] bcast_S840000_S840000x1_0 : (⟨S840000, .i32⟩ : BufTy).Contents (Elt F) → (⟨S840000x1, .i32⟩ : BufTy).Contents (Elt F)),
    ternary main_v62 main_v63 main_v61 main_v64 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg5 main_v65 (broadcastInDim S1x128 ![1] bcast_S128_S1x128_1 : (⟨S128, .f32⟩ : BufTy).Contents (Elt F) → (⟨S1x128, .f32⟩ : BufTy).Contents (Elt F)),
    unary main_v65 main_v66 (broadcastInDim S200000x128 ![0, 1] bcast_S1x128_S200000x128_0_1 : (⟨S1x128, .f32⟩ : BufTy).Contents (Elt F) → (⟨S200000x128, .f32⟩ : BufTy).Contents (Elt F)),
    binary main_v64 main_v66 main_v67 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x128, .f32⟩) main_call3_v0) (broadcastInDim S200000x128 ![] bcast_S_S200000x128),
    TRef.binary (TRef.of (T := ⟨S200000x128, .f32⟩) main_v67) (TRef.of (T := ⟨S200000x128, .f32⟩) main_call3_v0) (TRef.of (T := ⟨S200000x128, .f32⟩) main_v68) maximumf,
    binary main_v68 main_arg6 main_v69 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_14 (constantI S_ 32 0#32),
    unary main_c_14 main_v70 (broadcastInDim S840000 ![] bcast_S_S840000 : (⟨S_, .i32⟩ : BufTy).Contents (Elt F) → (⟨S840000, .i32⟩ : BufTy).Contents (Elt F)),
    binary main_v3 main_v70 main_v71 (cmpi .slt : (⟨S840000, .i32⟩ : BufTy).Contents (Elt F) → (⟨S840000, .i32⟩ : BufTy).Contents (Elt F) → (⟨S840000, .i1⟩ : BufTy).Contents (Elt F)),
    nullary main_c_15 (constantI S_ 32 200000#32),
    unary main_c_15 main_v72 (broadcastInDim S840000 ![] bcast_S_S840000 : (⟨S_, .i32⟩ : BufTy).Contents (Elt F) → (⟨S840000, .i32⟩ : BufTy).Contents (Elt F)),
    binary main_v3 main_v72 main_v73 (addi : (⟨S840000, .i32⟩ : BufTy).Contents (Elt F) → (⟨S840000, .i32⟩ : BufTy).Contents (Elt F) → (⟨S840000, .i32⟩ : BufTy).Contents (Elt F)),
    ternary main_v71 main_v73 main_v3 main_v74 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v74 main_v75 (broadcastInDim S840000x1 ![0] bcast_S840000_S840000x1_0 : (⟨S840000, .i32⟩ : BufTy).Contents (Elt F) → (⟨S840000x1, .i32⟩ : BufTy).Contents (Elt F)),
    binary main_v69 main_v75 main_v76 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v77 (broadcastInDim S840000x1 ![0] bcast_S840000_S840000x1_0 : (⟨S840000, .f32⟩ : BufTy).Contents (Elt F) → (⟨S840000x1, .f32⟩ : BufTy).Contents (Elt F)),
    unary main_v77 main_v78 (broadcastInDim S840000x128 ![0, 1] bcast_S840000x1_S840000x128_0_1 : (⟨S840000x1, .f32⟩ : BufTy).Contents (Elt F) → (⟨S840000x128, .f32⟩ : BufTy).Contents (Elt F)),
    binary main_v76 main_v78 main_v79 (mulf : (⟨S840000x128, .f32⟩ : BufTy).Contents (Elt F) → (⟨S840000x128, .f32⟩ : BufTy).Contents (Elt F) → (⟨S840000x128, .f32⟩ : BufTy).Contents (Elt F)),
    nullary main_cst_16 (constant S_ .f32 0x00000000#32),
    unary main_cst_16 main_v80 (broadcastInDim S200000x128 ![] bcast_S_S200000x128 : (⟨S_, .f32⟩ : BufTy).Contents (Elt F) → (⟨S200000x128, .f32⟩ : BufTy).Contents (Elt F)),
    unary main_v6 main_v81 (broadcastInDim S840000x1 ![0] bcast_S840000_S840000x1_0 : (⟨S840000, .i32⟩ : BufTy).Contents (Elt F) → (⟨S840000x1, .i32⟩ : BufTy).Contents (Elt F)),
    ternary main_v80 main_v81 main_v79 main_v82 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg7 main_v83 (broadcastInDim S1x128 ![1] bcast_S128_S1x128_1 : (⟨S128, .f32⟩ : BufTy).Contents (Elt F) → (⟨S1x128, .f32⟩ : BufTy).Contents (Elt F)),
    unary main_v83 main_v84 (broadcastInDim S200000x128 ![0, 1] bcast_S1x128_S200000x128_0_1 : (⟨S1x128, .f32⟩ : BufTy).Contents (Elt F) → (⟨S200000x128, .f32⟩ : BufTy).Contents (Elt F)),
    binary main_v82 main_v84 main_v85 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S200000x128, .f32⟩) main_call4_v0) (broadcastInDim S200000x128 ![] bcast_S_S200000x128),
    TRef.binary (TRef.of (T := ⟨S200000x128, .f32⟩) main_v85) (TRef.of (T := ⟨S200000x128, .f32⟩) main_call4_v0) (TRef.of (T := ⟨S200000x128, .f32⟩) main_v86) maximumf,
    binary main_v86 main_arg8 main_v87 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_17 (constantI S_ 32 0#32),
    unary main_c_17 main_v88 (broadcastInDim S840000 ![] bcast_S_S840000 : (⟨S_, .i32⟩ : BufTy).Contents (Elt F) → (⟨S840000, .i32⟩ : BufTy).Contents (Elt F)),
    binary main_v3 main_v88 main_v89 (cmpi .slt : (⟨S840000, .i32⟩ : BufTy).Contents (Elt F) → (⟨S840000, .i32⟩ : BufTy).Contents (Elt F) → (⟨S840000, .i1⟩ : BufTy).Contents (Elt F)),
    nullary main_c_18 (constantI S_ 32 200000#32),
    unary main_c_18 main_v90 (broadcastInDim S840000 ![] bcast_S_S840000 : (⟨S_, .i32⟩ : BufTy).Contents (Elt F) → (⟨S840000, .i32⟩ : BufTy).Contents (Elt F)),
    binary main_v3 main_v90 main_v91 (addi : (⟨S840000, .i32⟩ : BufTy).Contents (Elt F) → (⟨S840000, .i32⟩ : BufTy).Contents (Elt F) → (⟨S840000, .i32⟩ : BufTy).Contents (Elt F)),
    ternary main_v89 main_v91 main_v3 main_v92 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v92 main_v93 (broadcastInDim S840000x1 ![0] bcast_S840000_S840000x1_0 : (⟨S840000, .i32⟩ : BufTy).Contents (Elt F) → (⟨S840000x1, .i32⟩ : BufTy).Contents (Elt F)),
    binary main_v87 main_v93 main_v94 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v95 (broadcastInDim S840000x1 ![0] bcast_S840000_S840000x1_0 : (⟨S840000, .f32⟩ : BufTy).Contents (Elt F) → (⟨S840000x1, .f32⟩ : BufTy).Contents (Elt F)),
    unary main_v95 main_v96 (broadcastInDim S840000x128 ![0, 1] bcast_S840000x1_S840000x128_0_1 : (⟨S840000x1, .f32⟩ : BufTy).Contents (Elt F) → (⟨S840000x128, .f32⟩ : BufTy).Contents (Elt F)),
    binary main_v94 main_v96 main_v97 (mulf : (⟨S840000x128, .f32⟩ : BufTy).Contents (Elt F) → (⟨S840000x128, .f32⟩ : BufTy).Contents (Elt F) → (⟨S840000x128, .f32⟩ : BufTy).Contents (Elt F)),
    nullary main_cst_19 (constant S_ .f32 0x00000000#32),
    unary main_cst_19 main_v98 (broadcastInDim S200000x128 ![] bcast_S_S200000x128 : (⟨S_, .f32⟩ : BufTy).Contents (Elt F) → (⟨S200000x128, .f32⟩ : BufTy).Contents (Elt F)),
    unary main_v6 main_v99 (broadcastInDim S840000x1 ![0] bcast_S840000_S840000x1_0 : (⟨S840000, .i32⟩ : BufTy).Contents (Elt F) → (⟨S840000x1, .i32⟩ : BufTy).Contents (Elt F)),
    ternary main_v98 main_v99 main_v97 main_v100 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg9 main_v101 (broadcastInDim S1x128 ![1] bcast_S128_S1x128_1 : (⟨S128, .f32⟩ : BufTy).Contents (Elt F) → (⟨S1x128, .f32⟩ : BufTy).Contents (Elt F)),
    unary main_v101 main_v102 (broadcastInDim S200000x128 ![0, 1] bcast_S1x128_S200000x128_0_1 : (⟨S1x128, .f32⟩ : BufTy).Contents (Elt F) → (⟨S200000x128, .f32⟩ : BufTy).Contents (Elt F)),
    binary main_v100 main_v102 main_v103 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200000x128, .f32⟩) main_call5_v0) (broadcastInDim S200000x128 ![] bcast_S_S200000x128),
    TRef.binary (TRef.of (T := ⟨S200000x128, .f32⟩) main_v103) (TRef.of (T := ⟨S200000x128, .f32⟩) main_call5_v0) (TRef.of (T := ⟨S200000x128, .f32⟩) main_v104) maximumf,
    binary main_v104 main_arg10 main_v105 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_20 (constantI S_ 32 0#32),
    unary main_c_20 main_v106 (broadcastInDim S840000 ![] bcast_S_S840000 : (⟨S_, .i32⟩ : BufTy).Contents (Elt F) → (⟨S840000, .i32⟩ : BufTy).Contents (Elt F)),
    binary main_v3 main_v106 main_v107 (cmpi .slt : (⟨S840000, .i32⟩ : BufTy).Contents (Elt F) → (⟨S840000, .i32⟩ : BufTy).Contents (Elt F) → (⟨S840000, .i1⟩ : BufTy).Contents (Elt F)),
    nullary main_c_21 (constantI S_ 32 200000#32),
    unary main_c_21 main_v108 (broadcastInDim S840000 ![] bcast_S_S840000 : (⟨S_, .i32⟩ : BufTy).Contents (Elt F) → (⟨S840000, .i32⟩ : BufTy).Contents (Elt F)),
    binary main_v3 main_v108 main_v109 (addi : (⟨S840000, .i32⟩ : BufTy).Contents (Elt F) → (⟨S840000, .i32⟩ : BufTy).Contents (Elt F) → (⟨S840000, .i32⟩ : BufTy).Contents (Elt F)),
    ternary main_v107 main_v109 main_v3 main_v110 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v110 main_v111 (broadcastInDim S840000x1 ![0] bcast_S840000_S840000x1_0 : (⟨S840000, .i32⟩ : BufTy).Contents (Elt F) → (⟨S840000x1, .i32⟩ : BufTy).Contents (Elt F)),
    binary main_v105 main_v111 main_v112 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v113 (broadcastInDim S840000x1 ![0] bcast_S840000_S840000x1_0 : (⟨S840000, .f32⟩ : BufTy).Contents (Elt F) → (⟨S840000x1, .f32⟩ : BufTy).Contents (Elt F)),
    unary main_v113 main_v114 (broadcastInDim S840000x128 ![0, 1] bcast_S840000x1_S840000x128_0_1 : (⟨S840000x1, .f32⟩ : BufTy).Contents (Elt F) → (⟨S840000x128, .f32⟩ : BufTy).Contents (Elt F)),
    binary main_v112 main_v114 main_v115 (mulf : (⟨S840000x128, .f32⟩ : BufTy).Contents (Elt F) → (⟨S840000x128, .f32⟩ : BufTy).Contents (Elt F) → (⟨S840000x128, .f32⟩ : BufTy).Contents (Elt F)),
    nullary main_cst_22 (constant S_ .f32 0x00000000#32),
    unary main_cst_22 main_v116 (broadcastInDim S200000x128 ![] bcast_S_S200000x128 : (⟨S_, .f32⟩ : BufTy).Contents (Elt F) → (⟨S200000x128, .f32⟩ : BufTy).Contents (Elt F)),
    unary main_v6 main_v117 (broadcastInDim S840000x1 ![0] bcast_S840000_S840000x1_0 : (⟨S840000, .i32⟩ : BufTy).Contents (Elt F) → (⟨S840000x1, .i32⟩ : BufTy).Contents (Elt F)),
    ternary main_v116 main_v117 main_v115 main_v118 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg11 main_v119 (broadcastInDim S1x128 ![1] bcast_S128_S1x128_1 : (⟨S128, .f32⟩ : BufTy).Contents (Elt F) → (⟨S1x128, .f32⟩ : BufTy).Contents (Elt F)),
    unary main_v119 main_v120 (broadcastInDim S200000x128 ![0, 1] bcast_S1x128_S200000x128_0_1 : (⟨S1x128, .f32⟩ : BufTy).Contents (Elt F) → (⟨S200000x128, .f32⟩ : BufTy).Contents (Elt F)),
    binary main_v118 main_v120 main_v121 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S200000x128, .f32⟩) main_call6_v0) (broadcastInDim S200000x128 ![] bcast_S_S200000x128),
    TRef.binary (TRef.of (T := ⟨S200000x128, .f32⟩) main_v121) (TRef.of (T := ⟨S200000x128, .f32⟩) main_call6_v0) (TRef.of (T := ⟨S200000x128, .f32⟩) main_v122) maximumf,
    binary main_v122 main_arg12 main_v123 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg13 main_v124 (broadcastInDim S1x1 ![1] bcast_S1_S1x1_1 : (⟨S1, .f32⟩ : BufTy).Contents (Elt F) → (⟨S1x1, .f32⟩ : BufTy).Contents (Elt F)),
    unary main_v124 main_v125 (broadcastInDim S200000x1 ![0, 1] bcast_S1x1_S200000x1_0_1 : (⟨S1x1, .f32⟩ : BufTy).Contents (Elt F) → (⟨S200000x1, .f32⟩ : BufTy).Contents (Elt F)),
    binary main_v123 main_v125 main_v126 (addf : (⟨S200000x1, .f32⟩ : BufTy).Contents (Elt F) → (⟨S200000x1, .f32⟩ : BufTy).Contents (Elt F) → (⟨S200000x1, .f32⟩ : BufTy).Contents (Elt F)),
    nullary main_cst_23 (constant S_ .f32 0x00000000#32),
    unary main_cst_23 main_v127 (broadcastInDim S200000x1 ![] bcast_S_S200000x1 : (⟨S_, .f32⟩ : BufTy).Contents (Elt F) → (⟨S200000x1, .f32⟩ : BufTy).Contents (Elt F)),
    binary main_v126 main_v127 main_v128 (cmpf .ogt : (⟨S200000x1, .f32⟩ : BufTy).Contents (Elt F) → (⟨S200000x1, .f32⟩ : BufTy).Contents (Elt F) → (⟨S200000x1, .i1⟩ : BufTy).Contents (Elt F)),
    nullary main_cst_24 (constant S_ .f32 0x3C23D70A#32),
    unary main_cst_24 main_v129 (broadcastInDim S200000x1 ![] bcast_S_S200000x1 : (⟨S_, .f32⟩ : BufTy).Contents (Elt F) → (⟨S200000x1, .f32⟩ : BufTy).Contents (Elt F)),
    binary main_v129 main_v126 main_v130 (mulf : (⟨S200000x1, .f32⟩ : BufTy).Contents (Elt F) → (⟨S200000x1, .f32⟩ : BufTy).Contents (Elt F) → (⟨S200000x1, .f32⟩ : BufTy).Contents (Elt F)),
    TRef.ternary (TRef.of (T := ⟨S200000x1, .i1⟩) main_v128) (TRef.of (T := ⟨S200000x1, .f32⟩) main_v126) (TRef.of (T := ⟨S200000x1, .f32⟩) main_v130) (TRef.of (T := ⟨S200000x1, .f32⟩) main_v131) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- The graph prefix: the edge columns, the degrees, the node factors and the edge weights (up to `main_v32`). -/
abbrev pre : List (HloOp τ sig (Elt F)) :=
  [ nullary main_v0 (iotaInDim S200000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)),
    nullary main_cst (constant S_ .f32 0x3F800000#32),
    unary main_cst main_v7 (broadcastInDim S840000 ![] bcast_S_S840000 : (⟨S_, .f32⟩ : BufTy).Contents (Elt F) → (⟨S840000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S840000x1 ![0] bcast_S840000_S840000x1_0 : (⟨S840000, .i32⟩ : BufTy).Contents (Elt F) → (⟨S840000x1, .i32⟩ : BufTy).Contents (Elt F)),
    ternary main_v8 main_v9 main_v7 main_v10 ((fun x i u => Host.scatterAdd scatter_S200000_S840000x1_S840000_n_0_0_1 x i u) : (⟨S200000, .f32⟩ : BufTy).Contents (Elt F) → (⟨S840000x1, .i32⟩ : BufTy).Contents (Elt F) → (⟨S840000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x00000000#32),
    unary main_cst_2 main_v13 (broadcastInDim S200000 ![] bcast_S_S200000 : (⟨S_, .f32⟩ : BufTy).Contents (Elt F) → (⟨S200000, .f32⟩ : BufTy).Contents (Elt F)),
    binary main_v10 main_v13 main_v14 (cmpf .ogt : (⟨S200000, .f32⟩ : BufTy).Contents (Elt F) → (⟨S200000, .f32⟩ : BufTy).Contents (Elt F) → (⟨S200000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v14) (TRef.of (T := ⟨S200000, .f32⟩) main_v10) (TRef.of (T := ⟨S200000, .f32⟩) main_call0_v1) (TRef.of (T := ⟨S200000, .f32⟩) main_v15) select,
    unary main_v15 main_v16 (Host.rsqrt : (⟨S200000, .f32⟩ : BufTy).Contents (Elt F) → (⟨S200000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S200000, .f32⟩) main_call1_v1) (broadcastInDim S200000 ![] bcast_S_S200000),
    TRef.ternary (TRef.of (T := ⟨S200000, .i1⟩) main_v12) (TRef.of (T := ⟨S200000, .f32⟩) main_v16) (TRef.of (T := ⟨S200000, .f32⟩) main_call1_v1) (TRef.of (T := ⟨S200000, .f32⟩) main_v17) select,
    nullary main_c (constantI S_ 32 0#32),
    unary main_c main_v18 (broadcastInDim S840000 ![] bcast_S_S840000 : (⟨S_, .i32⟩ : BufTy).Contents (Elt F) → (⟨S840000, .i32⟩ : BufTy).Contents (Elt F)),
    binary main_v3 main_v18 main_v19 (cmpi .slt : (⟨S840000, .i32⟩ : BufTy).Contents (Elt F) → (⟨S840000, .i32⟩ : BufTy).Contents (Elt F) → (⟨S840000, .i1⟩ : BufTy).Contents (Elt F)),
    nullary main_c_5 (constantI S_ 32 200000#32),
    unary main_c_5 main_v20 (broadcastInDim S840000 ![] bcast_S_S840000 : (⟨S_, .i32⟩ : BufTy).Contents (Elt F) → (⟨S840000, .i32⟩ : BufTy).Contents (Elt F)),
    binary main_v3 main_v20 main_v21 (addi : (⟨S840000, .i32⟩ : BufTy).Contents (Elt F) → (⟨S840000, .i32⟩ : BufTy).Contents (Elt F) → (⟨S840000, .i32⟩ : BufTy).Contents (Elt F)),
    ternary main_v19 main_v21 main_v3 main_v22 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v22 main_v23 (broadcastInDim S840000x1 ![0] bcast_S840000_S840000x1_0 : (⟨S840000, .i32⟩ : BufTy).Contents (Elt F) → (⟨S840000x1, .i32⟩ : BufTy).Contents (Elt F)),
    binary main_v17 main_v23 main_v24 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    nullary main_c_6 (constantI S_ 32 0#32),
    unary main_c_6 main_v25 (broadcastInDim S840000 ![] bcast_S_S840000 : (⟨S_, .i32⟩ : BufTy).Contents (Elt F) → (⟨S840000, .i32⟩ : BufTy).Contents (Elt F)),
    binary main_v6 main_v25 main_v26 (cmpi .slt : (⟨S840000, .i32⟩ : BufTy).Contents (Elt F) → (⟨S840000, .i32⟩ : BufTy).Contents (Elt F) → (⟨S840000, .i1⟩ : BufTy).Contents (Elt F)),
    nullary main_c_7 (constantI S_ 32 200000#32),
    unary main_c_7 main_v27 (broadcastInDim S840000 ![] bcast_S_S840000 : (⟨S_, .i32⟩ : BufTy).Contents (Elt F) → (⟨S840000, .i32⟩ : BufTy).Contents (Elt F)),
    binary main_v6 main_v27 main_v28 (addi : (⟨S840000, .i32⟩ : BufTy).Contents (Elt F) → (⟨S840000, .i32⟩ : BufTy).Contents (Elt F) → (⟨S840000, .i32⟩ : BufTy).Contents (Elt F)),
    ternary main_v26 main_v28 main_v6 main_v29 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v29 main_v30 (broadcastInDim S840000x1 ![0] bcast_S840000_S840000x1_0 : (⟨S840000, .i32⟩ : BufTy).Contents (Elt F) → (⟨S840000x1, .i32⟩ : BufTy).Contents (Elt F)),
    binary main_v17 main_v30 main_v31 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    binary main_v24 main_v31 main_v32 (mulf : (⟨S840000, .f32⟩ : BufTy).Contents (Elt F) → (⟨S840000, .f32⟩ : BufTy).Contents (Elt F) → (⟨S840000, .f32⟩ : BufTy).Contents (Elt F)) ]

/-- The first layer (`main_v33` … `main_v50`). -/
abbrev l1 : List (HloOp τ sig (Elt F)) :=
  [ binary main_arg0 main_arg2 main_v33 ((fun l r => Host.dotGeneral dot_S200000x2_S2x32_S200000x32_1_0_0_1_n_n none l r) : (⟨S200000x2, .f32⟩ : BufTy).Contents (Elt F) → (⟨S2x32, .f32⟩ : BufTy).Contents (Elt F) → (⟨S200000x32, .f32⟩ : BufTy).Contents (Elt F)),
    nullary main_c_8 (constantI S_ 32 0#32),
    unary main_c_8 main_v34 (broadcastInDim S840000 ![] bcast_S_S840000 : (⟨S_, .i32⟩ : BufTy).Contents (Elt F) → (⟨S840000, .i32⟩ : BufTy).Contents (Elt F)),
    binary main_v3 main_v34 main_v35 (cmpi .slt : (⟨S840000, .i32⟩ : BufTy).Contents (Elt F) → (⟨S840000, .i32⟩ : BufTy).Contents (Elt F) → (⟨S840000, .i1⟩ : BufTy).Contents (Elt F)),
    nullary main_c_9 (constantI S_ 32 200000#32),
    unary main_c_9 main_v36 (broadcastInDim S840000 ![] bcast_S_S840000 : (⟨S_, .i32⟩ : BufTy).Contents (Elt F) → (⟨S840000, .i32⟩ : BufTy).Contents (Elt F)),
    binary main_v3 main_v36 main_v37 (addi : (⟨S840000, .i32⟩ : BufTy).Contents (Elt F) → (⟨S840000, .i32⟩ : BufTy).Contents (Elt F) → (⟨S840000, .i32⟩ : BufTy).Contents (Elt F)),
    ternary main_v35 main_v37 main_v3 main_v38 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v38 main_v39 (broadcastInDim S840000x1 ![0] bcast_S840000_S840000x1_0 : (⟨S840000, .i32⟩ : BufTy).Contents (Elt F) → (⟨S840000x1, .i32⟩ : BufTy).Contents (Elt F)),
    binary main_v33 main_v39 main_v40 ((fun x i => Host.gather gather_S200000x32_S840000x1_S840000x32_1_0_n_n_0_1_132 x i) : (⟨S200000x32, .f32⟩ : BufTy).Contents (Elt F) → (⟨S840000x1, .i32⟩ : BufTy).Contents (Elt F) → (⟨S840000x32, .f32⟩ : BufTy).Contents (Elt F)),
    unary main_v32 main_v41 (broadcastInDim S840000x1 ![0] bcast_S840000_S840000x1_0 : (⟨S840000, .f32⟩ : BufTy).Contents (Elt F) → (⟨S840000x1, .f32⟩ : BufTy).Contents (Elt F)),
    unary main_v41 main_v42 (broadcastInDim S840000x32 ![0, 1] bcast_S840000x1_S840000x32_0_1 : (⟨S840000x1, .f32⟩ : BufTy).Contents (Elt F) → (⟨S840000x32, .f32⟩ : BufTy).Contents (Elt F)),
    binary main_v40 main_v42 main_v43 (mulf : (⟨S840000x32, .f32⟩ : BufTy).Contents (Elt F) → (⟨S840000x32, .f32⟩ : BufTy).Contents (Elt F) → (⟨S840000x32, .f32⟩ : BufTy).Contents (Elt F)),
    nullary main_cst_10 (constant S_ .f32 0x00000000#32),
    unary main_cst_10 main_v44 (broadcastInDim S200000x32 ![] bcast_S_S200000x32 : (⟨S_, .f32⟩ : BufTy).Contents (Elt F) → (⟨S200000x32, .f32⟩ : BufTy).Contents (Elt F)),
    unary main_v6 main_v45 (broadcastInDim S840000x1 ![0] bcast_S840000_S840000x1_0 : (⟨S840000, .i32⟩ : BufTy).Contents (Elt F) → (⟨S840000x1, .i32⟩ : BufTy).Contents (Elt F)),
    ternary main_v44 main_v45 main_v43 main_v46 ((fun x i u => Host.scatterAdd scatter_S200000x32_S840000x1_S840000x32_1_0_0_1 x i u) : (⟨S200000x32, .f32⟩ : BufTy).Contents (Elt F) → (⟨S840000x1, .i32⟩ : BufTy).Contents (Elt F) → (⟨S840000x32, .f32⟩ : BufTy).Contents (Elt F) → (⟨S200000x32, .f32⟩ : BufTy).Contents (Elt F)),
    unary main_arg3 main_v47 (broadcastInDim S1x32 ![1] bcast_S32_S1x32_1 : (⟨S32, .f32⟩ : BufTy).Contents (Elt F) → (⟨S1x32, .f32⟩ : BufTy).Contents (Elt F)),
    unary main_v47 main_v48 (broadcastInDim S200000x32 ![0, 1] bcast_S1x32_S200000x32_0_1 : (⟨S1x32, .f32⟩ : BufTy).Contents (Elt F) → (⟨S200000x32, .f32⟩ : BufTy).Contents (Elt F)),
    binary main_v46 main_v48 main_v49 (addf : (⟨S200000x32, .f32⟩ : BufTy).Contents (Elt F) → (⟨S200000x32, .f32⟩ : BufTy).Contents (Elt F) → (⟨S200000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x32, .f32⟩) main_call2_v0) (broadcastInDim S200000x32 ![] bcast_S_S200000x32),
    TRef.binary (TRef.of (T := ⟨S200000x32, .f32⟩) main_v49) (TRef.of (T := ⟨S200000x32, .f32⟩) main_call2_v0) (TRef.of (T := ⟨S200000x32, .f32⟩) main_v50) maximumf ]

/-- The second layer (`main_v51` … `main_v68`). -/
abbrev l2 : List (HloOp τ sig (Elt F)) :=
  [ binary main_v50 main_arg4 main_v51 ((fun l r => Host.dotGeneral dot_S200000x32_S32x128_S200000x128_1_0_0_1_n_n none l r) : (⟨S200000x32, .f32⟩ : BufTy).Contents (Elt F) → (⟨S32x128, .f32⟩ : BufTy).Contents (Elt F) → (⟨S200000x128, .f32⟩ : BufTy).Contents (Elt F)),
    nullary main_c_11 (constantI S_ 32 0#32),
    unary main_c_11 main_v52 (broadcastInDim S840000 ![] bcast_S_S840000 : (⟨S_, .i32⟩ : BufTy).Contents (Elt F) → (⟨S840000, .i32⟩ : BufTy).Contents (Elt F)),
    binary main_v3 main_v52 main_v53 (cmpi .slt : (⟨S840000, .i32⟩ : BufTy).Contents (Elt F) → (⟨S840000, .i32⟩ : BufTy).Contents (Elt F) → (⟨S840000, .i1⟩ : BufTy).Contents (Elt F)),
    nullary main_c_12 (constantI S_ 32 200000#32),
    unary main_c_12 main_v54 (broadcastInDim S840000 ![] bcast_S_S840000 : (⟨S_, .i32⟩ : BufTy).Contents (Elt F) → (⟨S840000, .i32⟩ : BufTy).Contents (Elt F)),
    binary main_v3 main_v54 main_v55 (addi : (⟨S840000, .i32⟩ : BufTy).Contents (Elt F) → (⟨S840000, .i32⟩ : BufTy).Contents (Elt F) → (⟨S840000, .i32⟩ : BufTy).Contents (Elt F)),
    ternary main_v53 main_v55 main_v3 main_v56 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v56 main_v57 (broadcastInDim S840000x1 ![0] bcast_S840000_S840000x1_0 : (⟨S840000, .i32⟩ : BufTy).Contents (Elt F) → (⟨S840000x1, .i32⟩ : BufTy).Contents (Elt F)),
    binary main_v51 main_v57 main_v58 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v59 (broadcastInDim S840000x1 ![0] bcast_S840000_S840000x1_0 : (⟨S840000, .f32⟩ : BufTy).Contents (Elt F) → (⟨S840000x1, .f32⟩ : BufTy).Contents (Elt F)),
    unary main_v59 main_v60 (broadcastInDim S840000x128 ![0, 1] bcast_S840000x1_S840000x128_0_1 : (⟨S840000x1, .f32⟩ : BufTy).Contents (Elt F) → (⟨S840000x128, .f32⟩ : BufTy).Contents (Elt F)),
    binary main_v58 main_v60 main_v61 (mulf : (⟨S840000x128, .f32⟩ : BufTy).Contents (Elt F) → (⟨S840000x128, .f32⟩ : BufTy).Contents (Elt F) → (⟨S840000x128, .f32⟩ : BufTy).Contents (Elt F)),
    nullary main_cst_13 (constant S_ .f32 0x00000000#32),
    unary main_cst_13 main_v62 (broadcastInDim S200000x128 ![] bcast_S_S200000x128 : (⟨S_, .f32⟩ : BufTy).Contents (Elt F) → (⟨S200000x128, .f32⟩ : BufTy).Contents (Elt F)),
    unary main_v6 main_v63 (broadcastInDim S840000x1 ![0] bcast_S840000_S840000x1_0 : (⟨S840000, .i32⟩ : BufTy).Contents (Elt F) → (⟨S840000x1, .i32⟩ : BufTy).Contents (Elt F)),
    ternary main_v62 main_v63 main_v61 main_v64 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg5 main_v65 (broadcastInDim S1x128 ![1] bcast_S128_S1x128_1 : (⟨S128, .f32⟩ : BufTy).Contents (Elt F) → (⟨S1x128, .f32⟩ : BufTy).Contents (Elt F)),
    unary main_v65 main_v66 (broadcastInDim S200000x128 ![0, 1] bcast_S1x128_S200000x128_0_1 : (⟨S1x128, .f32⟩ : BufTy).Contents (Elt F) → (⟨S200000x128, .f32⟩ : BufTy).Contents (Elt F)),
    binary main_v64 main_v66 main_v67 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x128, .f32⟩) main_call3_v0) (broadcastInDim S200000x128 ![] bcast_S_S200000x128),
    TRef.binary (TRef.of (T := ⟨S200000x128, .f32⟩) main_v67) (TRef.of (T := ⟨S200000x128, .f32⟩) main_call3_v0) (TRef.of (T := ⟨S200000x128, .f32⟩) main_v68) maximumf ]

/-- The third layer (`main_v69` … `main_v86`). -/
abbrev l3 : List (HloOp τ sig (Elt F)) :=
  [ binary main_v68 main_arg6 main_v69 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_14 (constantI S_ 32 0#32),
    unary main_c_14 main_v70 (broadcastInDim S840000 ![] bcast_S_S840000 : (⟨S_, .i32⟩ : BufTy).Contents (Elt F) → (⟨S840000, .i32⟩ : BufTy).Contents (Elt F)),
    binary main_v3 main_v70 main_v71 (cmpi .slt : (⟨S840000, .i32⟩ : BufTy).Contents (Elt F) → (⟨S840000, .i32⟩ : BufTy).Contents (Elt F) → (⟨S840000, .i1⟩ : BufTy).Contents (Elt F)),
    nullary main_c_15 (constantI S_ 32 200000#32),
    unary main_c_15 main_v72 (broadcastInDim S840000 ![] bcast_S_S840000 : (⟨S_, .i32⟩ : BufTy).Contents (Elt F) → (⟨S840000, .i32⟩ : BufTy).Contents (Elt F)),
    binary main_v3 main_v72 main_v73 (addi : (⟨S840000, .i32⟩ : BufTy).Contents (Elt F) → (⟨S840000, .i32⟩ : BufTy).Contents (Elt F) → (⟨S840000, .i32⟩ : BufTy).Contents (Elt F)),
    ternary main_v71 main_v73 main_v3 main_v74 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v74 main_v75 (broadcastInDim S840000x1 ![0] bcast_S840000_S840000x1_0 : (⟨S840000, .i32⟩ : BufTy).Contents (Elt F) → (⟨S840000x1, .i32⟩ : BufTy).Contents (Elt F)),
    binary main_v69 main_v75 main_v76 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v77 (broadcastInDim S840000x1 ![0] bcast_S840000_S840000x1_0 : (⟨S840000, .f32⟩ : BufTy).Contents (Elt F) → (⟨S840000x1, .f32⟩ : BufTy).Contents (Elt F)),
    unary main_v77 main_v78 (broadcastInDim S840000x128 ![0, 1] bcast_S840000x1_S840000x128_0_1 : (⟨S840000x1, .f32⟩ : BufTy).Contents (Elt F) → (⟨S840000x128, .f32⟩ : BufTy).Contents (Elt F)),
    binary main_v76 main_v78 main_v79 (mulf : (⟨S840000x128, .f32⟩ : BufTy).Contents (Elt F) → (⟨S840000x128, .f32⟩ : BufTy).Contents (Elt F) → (⟨S840000x128, .f32⟩ : BufTy).Contents (Elt F)),
    nullary main_cst_16 (constant S_ .f32 0x00000000#32),
    unary main_cst_16 main_v80 (broadcastInDim S200000x128 ![] bcast_S_S200000x128 : (⟨S_, .f32⟩ : BufTy).Contents (Elt F) → (⟨S200000x128, .f32⟩ : BufTy).Contents (Elt F)),
    unary main_v6 main_v81 (broadcastInDim S840000x1 ![0] bcast_S840000_S840000x1_0 : (⟨S840000, .i32⟩ : BufTy).Contents (Elt F) → (⟨S840000x1, .i32⟩ : BufTy).Contents (Elt F)),
    ternary main_v80 main_v81 main_v79 main_v82 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg7 main_v83 (broadcastInDim S1x128 ![1] bcast_S128_S1x128_1 : (⟨S128, .f32⟩ : BufTy).Contents (Elt F) → (⟨S1x128, .f32⟩ : BufTy).Contents (Elt F)),
    unary main_v83 main_v84 (broadcastInDim S200000x128 ![0, 1] bcast_S1x128_S200000x128_0_1 : (⟨S1x128, .f32⟩ : BufTy).Contents (Elt F) → (⟨S200000x128, .f32⟩ : BufTy).Contents (Elt F)),
    binary main_v82 main_v84 main_v85 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S200000x128, .f32⟩) main_call4_v0) (broadcastInDim S200000x128 ![] bcast_S_S200000x128),
    TRef.binary (TRef.of (T := ⟨S200000x128, .f32⟩) main_v85) (TRef.of (T := ⟨S200000x128, .f32⟩) main_call4_v0) (TRef.of (T := ⟨S200000x128, .f32⟩) main_v86) maximumf ]

/-- The fourth layer (`main_v87` … `main_v104`). -/
abbrev l4 : List (HloOp τ sig (Elt F)) :=
  [ binary main_v86 main_arg8 main_v87 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_17 (constantI S_ 32 0#32),
    unary main_c_17 main_v88 (broadcastInDim S840000 ![] bcast_S_S840000 : (⟨S_, .i32⟩ : BufTy).Contents (Elt F) → (⟨S840000, .i32⟩ : BufTy).Contents (Elt F)),
    binary main_v3 main_v88 main_v89 (cmpi .slt : (⟨S840000, .i32⟩ : BufTy).Contents (Elt F) → (⟨S840000, .i32⟩ : BufTy).Contents (Elt F) → (⟨S840000, .i1⟩ : BufTy).Contents (Elt F)),
    nullary main_c_18 (constantI S_ 32 200000#32),
    unary main_c_18 main_v90 (broadcastInDim S840000 ![] bcast_S_S840000 : (⟨S_, .i32⟩ : BufTy).Contents (Elt F) → (⟨S840000, .i32⟩ : BufTy).Contents (Elt F)),
    binary main_v3 main_v90 main_v91 (addi : (⟨S840000, .i32⟩ : BufTy).Contents (Elt F) → (⟨S840000, .i32⟩ : BufTy).Contents (Elt F) → (⟨S840000, .i32⟩ : BufTy).Contents (Elt F)),
    ternary main_v89 main_v91 main_v3 main_v92 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v92 main_v93 (broadcastInDim S840000x1 ![0] bcast_S840000_S840000x1_0 : (⟨S840000, .i32⟩ : BufTy).Contents (Elt F) → (⟨S840000x1, .i32⟩ : BufTy).Contents (Elt F)),
    binary main_v87 main_v93 main_v94 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v95 (broadcastInDim S840000x1 ![0] bcast_S840000_S840000x1_0 : (⟨S840000, .f32⟩ : BufTy).Contents (Elt F) → (⟨S840000x1, .f32⟩ : BufTy).Contents (Elt F)),
    unary main_v95 main_v96 (broadcastInDim S840000x128 ![0, 1] bcast_S840000x1_S840000x128_0_1 : (⟨S840000x1, .f32⟩ : BufTy).Contents (Elt F) → (⟨S840000x128, .f32⟩ : BufTy).Contents (Elt F)),
    binary main_v94 main_v96 main_v97 (mulf : (⟨S840000x128, .f32⟩ : BufTy).Contents (Elt F) → (⟨S840000x128, .f32⟩ : BufTy).Contents (Elt F) → (⟨S840000x128, .f32⟩ : BufTy).Contents (Elt F)),
    nullary main_cst_19 (constant S_ .f32 0x00000000#32),
    unary main_cst_19 main_v98 (broadcastInDim S200000x128 ![] bcast_S_S200000x128 : (⟨S_, .f32⟩ : BufTy).Contents (Elt F) → (⟨S200000x128, .f32⟩ : BufTy).Contents (Elt F)),
    unary main_v6 main_v99 (broadcastInDim S840000x1 ![0] bcast_S840000_S840000x1_0 : (⟨S840000, .i32⟩ : BufTy).Contents (Elt F) → (⟨S840000x1, .i32⟩ : BufTy).Contents (Elt F)),
    ternary main_v98 main_v99 main_v97 main_v100 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg9 main_v101 (broadcastInDim S1x128 ![1] bcast_S128_S1x128_1 : (⟨S128, .f32⟩ : BufTy).Contents (Elt F) → (⟨S1x128, .f32⟩ : BufTy).Contents (Elt F)),
    unary main_v101 main_v102 (broadcastInDim S200000x128 ![0, 1] bcast_S1x128_S200000x128_0_1 : (⟨S1x128, .f32⟩ : BufTy).Contents (Elt F) → (⟨S200000x128, .f32⟩ : BufTy).Contents (Elt F)),
    binary main_v100 main_v102 main_v103 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200000x128, .f32⟩) main_call5_v0) (broadcastInDim S200000x128 ![] bcast_S_S200000x128),
    TRef.binary (TRef.of (T := ⟨S200000x128, .f32⟩) main_v103) (TRef.of (T := ⟨S200000x128, .f32⟩) main_call5_v0) (TRef.of (T := ⟨S200000x128, .f32⟩) main_v104) maximumf ]

/-- The fifth layer (`main_v105` … `main_v122`). -/
abbrev l5 : List (HloOp τ sig (Elt F)) :=
  [ binary main_v104 main_arg10 main_v105 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_c_20 (constantI S_ 32 0#32),
    unary main_c_20 main_v106 (broadcastInDim S840000 ![] bcast_S_S840000 : (⟨S_, .i32⟩ : BufTy).Contents (Elt F) → (⟨S840000, .i32⟩ : BufTy).Contents (Elt F)),
    binary main_v3 main_v106 main_v107 (cmpi .slt : (⟨S840000, .i32⟩ : BufTy).Contents (Elt F) → (⟨S840000, .i32⟩ : BufTy).Contents (Elt F) → (⟨S840000, .i1⟩ : BufTy).Contents (Elt F)),
    nullary main_c_21 (constantI S_ 32 200000#32),
    unary main_c_21 main_v108 (broadcastInDim S840000 ![] bcast_S_S840000 : (⟨S_, .i32⟩ : BufTy).Contents (Elt F) → (⟨S840000, .i32⟩ : BufTy).Contents (Elt F)),
    binary main_v3 main_v108 main_v109 (addi : (⟨S840000, .i32⟩ : BufTy).Contents (Elt F) → (⟨S840000, .i32⟩ : BufTy).Contents (Elt F) → (⟨S840000, .i32⟩ : BufTy).Contents (Elt F)),
    ternary main_v107 main_v109 main_v3 main_v110 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v110 main_v111 (broadcastInDim S840000x1 ![0] bcast_S840000_S840000x1_0 : (⟨S840000, .i32⟩ : BufTy).Contents (Elt F) → (⟨S840000x1, .i32⟩ : BufTy).Contents (Elt F)),
    binary main_v105 main_v111 main_v112 ((fun x i => Host.gather gather_S200000x128_S840000x1_S840000x128_1_0_n_n_0_1_1128 x i) : (⟨S200000x128, .f32⟩ : BufTy).Contents (Elt F) → (⟨S840000x1, .i32⟩ : BufTy).Contents (Elt F) → (⟨S840000x128, .f32⟩ : BufTy).Contents (Elt F)),
    unary main_v32 main_v113 (broadcastInDim S840000x1 ![0] bcast_S840000_S840000x1_0 : (⟨S840000, .f32⟩ : BufTy).Contents (Elt F) → (⟨S840000x1, .f32⟩ : BufTy).Contents (Elt F)),
    unary main_v113 main_v114 (broadcastInDim S840000x128 ![0, 1] bcast_S840000x1_S840000x128_0_1 : (⟨S840000x1, .f32⟩ : BufTy).Contents (Elt F) → (⟨S840000x128, .f32⟩ : BufTy).Contents (Elt F)),
    binary main_v112 main_v114 main_v115 (mulf : (⟨S840000x128, .f32⟩ : BufTy).Contents (Elt F) → (⟨S840000x128, .f32⟩ : BufTy).Contents (Elt F) → (⟨S840000x128, .f32⟩ : BufTy).Contents (Elt F)),
    nullary main_cst_22 (constant S_ .f32 0x00000000#32),
    unary main_cst_22 main_v116 (broadcastInDim S200000x128 ![] bcast_S_S200000x128 : (⟨S_, .f32⟩ : BufTy).Contents (Elt F) → (⟨S200000x128, .f32⟩ : BufTy).Contents (Elt F)),
    unary main_v6 main_v117 (broadcastInDim S840000x1 ![0] bcast_S840000_S840000x1_0 : (⟨S840000, .i32⟩ : BufTy).Contents (Elt F) → (⟨S840000x1, .i32⟩ : BufTy).Contents (Elt F)),
    ternary main_v116 main_v117 main_v115 main_v118 ((fun x i u => Host.scatterAdd scatter_S200000x128_S840000x1_S840000x128_1_0_0_1 x i u) : (⟨S200000x128, .f32⟩ : BufTy).Contents (Elt F) → (⟨S840000x1, .i32⟩ : BufTy).Contents (Elt F) → (⟨S840000x128, .f32⟩ : BufTy).Contents (Elt F) → (⟨S200000x128, .f32⟩ : BufTy).Contents (Elt F)),
    unary main_arg11 main_v119 (broadcastInDim S1x128 ![1] bcast_S128_S1x128_1 : (⟨S128, .f32⟩ : BufTy).Contents (Elt F) → (⟨S1x128, .f32⟩ : BufTy).Contents (Elt F)),
    unary main_v119 main_v120 (broadcastInDim S200000x128 ![0, 1] bcast_S1x128_S200000x128_0_1 : (⟨S1x128, .f32⟩ : BufTy).Contents (Elt F) → (⟨S200000x128, .f32⟩ : BufTy).Contents (Elt F)),
    binary main_v118 main_v120 main_v121 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S200000x128, .f32⟩) main_call6_v0) (broadcastInDim S200000x128 ![] bcast_S_S200000x128),
    TRef.binary (TRef.of (T := ⟨S200000x128, .f32⟩) main_v121) (TRef.of (T := ⟨S200000x128, .f32⟩) main_call6_v0) (TRef.of (T := ⟨S200000x128, .f32⟩) main_v122) maximumf ]

/-- The output head (`main_v123` … `main_v131`). -/
abbrev hd : List (HloOp τ sig (Elt F)) :=
  [ binary main_v122 main_arg12 main_v123 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg13 main_v124 (broadcastInDim S1x1 ![1] bcast_S1_S1x1_1 : (⟨S1, .f32⟩ : BufTy).Contents (Elt F) → (⟨S1x1, .f32⟩ : BufTy).Contents (Elt F)),
    unary main_v124 main_v125 (broadcastInDim S200000x1 ![0, 1] bcast_S1x1_S200000x1_0_1 : (⟨S1x1, .f32⟩ : BufTy).Contents (Elt F) → (⟨S200000x1, .f32⟩ : BufTy).Contents (Elt F)),
    binary main_v123 main_v125 main_v126 (addf : (⟨S200000x1, .f32⟩ : BufTy).Contents (Elt F) → (⟨S200000x1, .f32⟩ : BufTy).Contents (Elt F) → (⟨S200000x1, .f32⟩ : BufTy).Contents (Elt F)),
    nullary main_cst_23 (constant S_ .f32 0x00000000#32),
    unary main_cst_23 main_v127 (broadcastInDim S200000x1 ![] bcast_S_S200000x1 : (⟨S_, .f32⟩ : BufTy).Contents (Elt F) → (⟨S200000x1, .f32⟩ : BufTy).Contents (Elt F)),
    binary main_v126 main_v127 main_v128 (cmpf .ogt : (⟨S200000x1, .f32⟩ : BufTy).Contents (Elt F) → (⟨S200000x1, .f32⟩ : BufTy).Contents (Elt F) → (⟨S200000x1, .i1⟩ : BufTy).Contents (Elt F)),
    nullary main_cst_24 (constant S_ .f32 0x3C23D70A#32),
    unary main_cst_24 main_v129 (broadcastInDim S200000x1 ![] bcast_S_S200000x1 : (⟨S_, .f32⟩ : BufTy).Contents (Elt F) → (⟨S200000x1, .f32⟩ : BufTy).Contents (Elt F)),
    binary main_v129 main_v126 main_v130 (mulf : (⟨S200000x1, .f32⟩ : BufTy).Contents (Elt F) → (⟨S200000x1, .f32⟩ : BufTy).Contents (Elt F) → (⟨S200000x1, .f32⟩ : BufTy).Contents (Elt F)),
    TRef.ternary (TRef.of (T := ⟨S200000x1, .i1⟩) main_v128) (TRef.of (T := ⟨S200000x1, .f32⟩) main_v126) (TRef.of (T := ⟨S200000x1, .f32⟩) main_v130) (TRef.of (T := ⟨S200000x1, .f32⟩) main_v131) select ]

/-- The whole line is the seven stretches in order. -/
theorem ops_eq : (ops : List (HloOp τ sig (Elt F))) = pre ++ (l1 ++ (l2 ++ (l3 ++ (l4 ++ (l5 ++ hd))))) := rfl

/-- The fold over two lines one after the other is the fold over the second from the fold over the first. -/
theorem after_append (a b : List (HloOp τ sig (Elt F))) (V : Valuation τ sig (Elt F)) :
    after (a ++ b) V = after b (after a V) := by
  induction a generalizing V with
  | nil => rfl
  | cons op a ih => simp only [List.cons_append, after_cons, ih]

/-- The fold over the whole line, stretch by stretch. -/
theorem after_ops (V : Valuation τ sig (Elt F)) :
    after ops V = after hd (after l5 (after l4 (after l3 (after l2 (after l1 (after pre V)))))) := by
  rw [ops_eq, after_append, after_append, after_append, after_append, after_append, after_append]

/-- On every device, for any float values, from any memory with zero counters: every weakly fair execution of
    @main terminates with each buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«153643_j6382321401984_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.RefLayer.lean ====
/-
  One graph-convolution layer and the output head as the reference computes them on whole arrays, read entry by entry.

  A layer multiplies the activations by the weights, gathers the product's rows by the edges' source column, multiplies
  every gathered row by its edge's weight, sums the rows into the nodes by the edges' destination column from zero,
  adds the bias row to every row and clamps at zero.  When the weight of edge e is the product of the node factors at
  the rows its source and its destination select, entry (p, q) of the result is
  max (0 + ∑ e landing on p, (H·W) (s e) q * (d (s e) * d (g e)) + b q) 0.
  The head multiplies by a one-column weight, adds the one bias and applies the leaky clamp.
  General in the layer's two feature extents.
-/
import Idealize.ShloMosaic.PureOps.Ideal.Laws
import Idealize.ShloMosaic.Lib.ValueIdx
import proofs.«153643_j6382321401984_2_alg».proof.Proof.GcnLayers
import proofs.«153643_j6382321401984_2_alg».proof.Proof.LibGraphIdx
import proofs.«153643_j6382321401984_2_alg».proof.Proof.LibDotGeneralNN
import proofs.«153643_j6382321401984_2_alg».proof.Proof.LibBroadcastInDimPair
import proofs.«153643_j6382321401984_2_alg».proof.Proof.LibVecLayout

noncomputable section

open scoped BigOperators

namespace GcnRefArr

open Idealize.ShloMosaic Idealize.ShloMosaic.ValueIdx Cert.GraphIdx Gcn

/-- The scalar constant 0.0 placed at every index of any shape reads 0. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) := Ideal.ofBits_zero_f32

variable {K D : Nat}

/-- One layer on whole arrays is the weighted aggregation of GcnSpec, entry by entry. -/
theorem layer_arr
    (wfg : GatherDims.WF ⟨2, ![NN, D]⟩ ⟨2, ![EE, 1]⟩ ⟨2, ![EE, D]⟩ [1] [0] [] [0] [] 1 ![1, D])
    (wfs : ScatterDims.WF ⟨2, ![NN, D]⟩ ⟨2, ![EE, 1]⟩ ⟨2, ![EE, D]⟩ [1] [0] [0] 1)
    (hz : (⟨0, ![]⟩ : Shape).BroadcastsInDim ⟨2, ![NN, D]⟩ ![])
    (hcol : (⟨1, ![EE]⟩ : Shape).BroadcastsInDim ⟨2, ![EE, 1]⟩ ![0])
    (hcolD : (⟨2, ![EE, 1]⟩ : Shape).BroadcastsInDim ⟨2, ![EE, D]⟩ ![0, 1])
    (hrow : (⟨1, ![D]⟩ : Shape).BroadcastsInDim ⟨2, ![1, D]⟩ ![1])
    (hrowN : (⟨2, ![1, D]⟩ : Shape).BroadcastsInDim ⟨2, ![NN, D]⟩ ![0, 1])
    (H : FVec Ideal ⟨2, ![NN, K]⟩ .f32) (W : FVec Ideal ⟨2, ![K, D]⟩ .f32) (b : FVec Ideal ⟨1, ![D]⟩ .f32)
    (srcI dstI dstW : IVec ⟨2, ![EE, 1]⟩ 32) (dis : FVec Ideal ⟨1, ![NN]⟩ .f32) (nrm : FVec Ideal ⟨1, ![EE]⟩ .f32)
    (hn : ∀ e : Fin EE, nrm (ix1 e) = dF dis (sF srcI e) * dF dis (sF dstW e)) :
    maximumf
        (addf
          (Host.scatterAdd (F := Ideal) (sd2 wfs)
            (broadcastInDim ⟨2, ![NN, D]⟩ ![] hz (constant (F := Ideal) ⟨0, ![]⟩ .f32 0x00000000#32)) dstI
            (mulf (Host.gather (gd2 wfg) (FloatOps.dotGeneral (DotDims.plain NN K D) none .single H W) srcI)
              (broadcastInDim ⟨2, ![EE, D]⟩ ![0, 1] hcolD (broadcastInDim ⟨2, ![EE, 1]⟩ ![0] hcol nrm))))
          (broadcastInDim ⟨2, ![NN, D]⟩ ![0, 1] hrowN (broadcastInDim ⟨2, ![1, D]⟩ ![1] hrow b)))
        (broadcastInDim ⟨2, ![NN, D]⟩ ![] hz (constant (F := Ideal) ⟨0, ![]⟩ .f32 0x00000000#32))
      = arr2 (actR (aggR (dF dis) (sF srcI) (sF dstW) (LF dstI) (mm (f2 H) (f2 W))) (f1 b)) := by
  funext i
  obtain ⟨p, q, rfl⟩ : ∃ p q, i = ix2 p q := ⟨i 0, i 1, eq_ix2 i⟩
  rw [maximumf_apply, addf_apply, scatterAdd2_apply, zeros_apply, broadcastInDim_row_apply,
    LibVecLayout.broadcastInDim_vec_row_apply, arr2_ix2]
  unfold actR aggR f1
  refine congrArg (fun t : EReal => max (0 + t + b (ix1 q)) 0) (Finset.sum_congr rfl fun e _ => ?_)
  rw [mulf_apply, gather2_apply wfg NN_pos, broadcastInDim_col_apply, LibVecLayout.broadcastInDim_vec_col_apply, hn,
    LibDotGeneralNN.dotGeneral_apply]
  rfl

/-- The output head on whole arrays is GcnSpec's head with the leaky clamp, entry by entry. -/
theorem head_arr
    (hz : (⟨0, ![]⟩ : Shape).BroadcastsInDim ⟨2, ![NN, 1]⟩ ![])
    (hrow : (⟨1, ![1]⟩ : Shape).BroadcastsInDim ⟨2, ![1, 1]⟩ ![1])
    (hrowN : (⟨2, ![1, 1]⟩ : Shape).BroadcastsInDim ⟨2, ![NN, 1]⟩ ![0, 1])
    (H : FVec Ideal ⟨2, ![NN, K]⟩ .f32) (W : FVec Ideal ⟨2, ![K, 1]⟩ .f32) (b : FVec Ideal ⟨1, ![1]⟩ .f32) :
    select
        (cmpf .ogt
          (addf (FloatOps.dotGeneral (DotDims.plain NN K 1) none .single H W)
            (broadcastInDim ⟨2, ![NN, 1]⟩ ![0, 1] hrowN (broadcastInDim ⟨2, ![1, 1]⟩ ![1] hrow b)))
          (broadcastInDim ⟨2, ![NN, 1]⟩ ![] hz (constant (F := Ideal) ⟨0, ![]⟩ .f32 0x00000000#32)))
        (addf (FloatOps.dotGeneral (DotDims.plain NN K 1) none .single H W)
          (broadcastInDim ⟨2, ![NN, 1]⟩ ![0, 1] hrowN (broadcastInDim ⟨2, ![1, 1]⟩ ![1] hrow b)))
        (mulf (broadcastInDim ⟨2, ![NN, 1]⟩ ![] hz (constant (F := Ideal) ⟨0, ![]⟩ .f32 0x3C23D70A#32))
          (addf (FloatOps.dotGeneral (DotDims.plain NN K 1) none .single H W)
            (broadcastInDim ⟨2, ![NN, 1]⟩ ![0, 1] hrowN (broadcastInDim ⟨2, ![1, 1]⟩ ![1] hrow b))))
      = arr2 (head leaky (f2 H) (f2 W) (b (ix1 0))) := by
  funext i
  obtain ⟨p, q, rfl⟩ : ∃ p q, i = ix2 p q := ⟨i 0, i 1, eq_ix2 i⟩
  obtain rfl : q = 0 := Subsingleton.elim _ _
  rw [select_apply, cmpf_apply, mulf_apply, addf_apply, zeros_apply, broadcastInDim_row_apply,
    LibVecLayout.broadcastInDim_vec_row_apply, LibDotGeneralNN.dotGeneral_apply, arr2_ix2]
  rfl

end GcnRefArr

end
-- ==== Proof.RefValue.lean ====
/-
  The value the reference program leaves in its result buffer, as the composition of five graph-convolution layers
  and the output head over the arguments' launch contents.

  The graph prefix of the program computes, from the edge-index argument alone, the sources and the destinations with
  every node's loop appended, their one-column index arrays (wrapped for the gathers, raw for the accumulating
  scatters), every node's degree and its factor (the inverse square root of a positive degree, zero otherwise), and
  every edge's weight: the product of the factors at the rows its source and its destination select.  Each layer then
  reads those arrays, the previous layer's activations and its own weights and bias, and writes the weighted
  aggregation; the head reads the last activations.  No operation writes an argument, and no layer writes one of the
  graph's arrays, so the readings chain.  What each stretch leaves in a buffer is read for arbitrary float values;
  the entry-by-entry reading of a layer is at the extended reals.
-/
import Idealize.ShloMosaic.PureOps.Ideal.Laws
import Idealize.ShloMosaic.Lib.ValueIdx
import proofs.«153643_j6382321401984_2_alg».proof.Proof.RefOps
import proofs.«153643_j6382321401984_2_alg».proof.Proof.RefLayer

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem Idealize.ShloMosaic.StableHlo
open Gcn

/-! ## The graph arrays the reference computes from the edge list -/

/-- The sources, and the destinations, of the edges followed by every node's own loop. -/
def srcVec (a1 : IVec S2x640000 32) : IVec S840000 32 :=
  concatenate S840000 0 [⟨S640000, shapeCast _ (extractStridedSlice S1x640000 ![0, 0] a1 slices_S2x640000_S1x640000_0_0) shapeCasts_S1x640000_S640000⟩, ⟨S200000, iotaInDim S200000 32 0⟩] concatenates_S640000_S200000_S840000_d0
def dstVec (a1 : IVec S2x640000 32) : IVec S840000 32 :=
  concatenate S840000 0 [⟨S640000, shapeCast _ (extractStridedSlice S1x640000 ![1, 0] a1 slices_S2x640000_S1x640000_1_0) shapeCasts_S1x640000_S640000⟩, ⟨S200000, iotaInDim S200000 32 0⟩] concatenates_S640000_S200000_S840000_d0
/-- A negative index counts from the end: the node count is added to it. -/
def wrap (v : IVec S840000 32) : IVec S840000 32 :=
  select (cmpi .slt v (broadcastInDim S840000 ![] bcast_S_S840000 (constantI S_ 32 0#32))) (addi v (broadcastInDim S840000 ![] bcast_S_S840000 (constantI S_ 32 200000#32))) v
/-- An index vector as the one-column index array a gather or a scatter takes. -/
def col (v : IVec S840000 32) : IVec S840000x1 32 := broadcastInDim S840000x1 ![0] bcast_S840000_S840000x1_0 v
/-- The wrapped sources, the raw destinations and the wrapped destinations, as columns. -/
def srcIdx (a1 : IVec S2x640000 32) : IVec S840000x1 32 := col (wrap (srcVec a1))
def dstIdx (a1 : IVec S2x640000 32) : IVec S840000x1 32 := col (dstVec a1)
def dstWIdx (a1 : IVec S2x640000 32) : IVec S840000x1 32 := col (wrap (dstVec a1))

section AnyFloat

variable {F : FTy → Type} [FloatOps F]

/-- The float arrays of the graph, for arbitrary float values: zeros, ones, the degrees (ones accumulated at the
    destinations), the node factors (the inverse square root of a positive degree, zero otherwise) and the edge
    weights (the product of the factors the source and the destination select). -/
def zerosNF : FVec F S200000 .f32 := broadcastInDim S200000 ![] bcast_S_S200000 (constant S_ .f32 0x00000000#32)
def onesNF : FVec F S200000 .f32 := broadcastInDim S200000 ![] bcast_S_S200000 (constant S_ .f32 0x3F800000#32)
def degF (a1 : IVec S2x640000 32) : FVec F S200000 .f32 :=
  Host.scatterAdd scatter_S200000_S840000x1_S840000_n_0_0_1 zerosNF (dstIdx a1) (broadcastInDim S840000 ![] bcast_S_S840000 (constant S_ .f32 0x3F800000#32))
def disVecF (a1 : IVec S2x640000 32) : FVec F S200000 .f32 :=
  select (cmpf .ogt (degF (F := F) a1) zerosNF) (Host.rsqrt (select (cmpf .ogt (degF (F := F) a1) zerosNF) (degF a1) onesNF)) zerosNF
def nrmVecF (a1 : IVec S2x640000 32) : FVec F S840000 .f32 :=
  mulf (Host.gather gather_S200000_S840000x1_S840000_n_0_n_n_0_1_1 (disVecF a1) (srcIdx a1))
    (Host.gather gather_S200000_S840000x1_S840000_n_0_n_n_0_1_1 (disVecF a1) (dstWIdx a1))

/-! ## What no stretch writes -/

/-- A buffer no operation of a line writes keeps its contents. -/
theorem keep (L : List (HloOp τ sig (Elt F))) (R : Valuation τ sig (Elt F)) (r : Ref sig .tc)
    (h : L.Forall fun op => (Proc.devRef .tc r : DevRef τ sig) ∉ op.writes) :
    after L R (Proc.devRef .tc r) = R (Proc.devRef .tc r) :=
  after_of_forall_not_mem L R (List.forall_iff_forall_mem.1 h)

/-- The fourteen arguments. -/
abbrev argRefs : List (Ref sig .tc) := [main_arg0, main_arg1, main_arg2, main_arg3, main_arg4, main_arg5, main_arg6, main_arg7, main_arg8, main_arg9, main_arg10, main_arg11, main_arg12, main_arg13]

set_option maxHeartbeats 40000000 in
/-- No operation of the stretch writes an argument. -/
theorem pre_args : ∀ r ∈ argRefs, (pre : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [pre, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem l1_args : ∀ r ∈ argRefs, (l1 : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [l1, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem l2_args : ∀ r ∈ argRefs, (l2 : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [l2, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem l3_args : ∀ r ∈ argRefs, (l3 : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [l3, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem l4_args : ∀ r ∈ argRefs, (l4 : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [l4, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem l5_args : ∀ r ∈ argRefs, (l5 : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [l5, List.Forall, nullary_writes, unary_writes, binary_writes, ternary_writes, reshape_writes, Finset.mem_singleton]
    repeat' apply And.intro
    all_goals exact devRef_ne_of_ne (by decide)

set_option maxHeartbeats 40000000 in
/-- No operation of the stretch writes an argument. -/
theorem hd_args : ∀ r ∈ argRefs, (hd : List (HloOp τ sig (Elt F))).Forall fun op => (Proc.devRef .tc r : DevRef τ sig) ∉ op.writes := by
  intro r hr
  simp only [argRefs, List.mem_cons, List.mem_nil_iff, or_false] at hr
  rcases hr with rfl | rfl | rfl | rfl | rfl | rfl | rfl | rfl | rfl | rfl | rfl | rfl | rfl | rfl
  all_goals
    simp only [hd, List.Forall, nullary_writes, unary_writes, binary_writes, ternary_writes, reshape_writes, Finset.mem_singleton]
    repeat' apply And.intro
    all_goals exact devRef_ne_of_ne (by decide)

set_option maxHeartbeats 4000000 in
theorem l1_main_v3 : (l1 : List (HloOp τ sig (Elt F))).Forall fun op => (Proc.devRef .tc main_v3 : DevRef τ sig) ∉ op.writes := by
  simp only [l1, List.Forall, nullary_writes, unary_writes, binary_writes, ternary_writes, reshape_writes, Finset.mem_singleton]
  repeat' apply And.intro
  all_goals exact devRef_ne_of_ne (by decide)

set_option maxHeartbeats 4000000 in
theorem l1_main_v6 : (l1 : List (HloOp τ sig (Elt F))).Forall fun op => (Proc.devRef .tc main_v6 : DevRef τ sig) ∉ op.writes := by
  simp only [l1, List.Forall, nullary_writes, unary_writes, binary_writes, ternary_writes, reshape_writes, Finset.mem_singleton]
  repeat' apply And.intro
  all_goals exact devRef_ne_of_ne (by decide)

set_option maxHeartbeats 4000000 in
theorem l1_main_v32 : (l1 : List (HloOp τ sig (Elt F))).Forall fun op => (Proc.devRef .tc main_v32 : DevRef τ sig) ∉ op.writes := by
  simp only [l1, List.Forall, nullary_writes, unary_writes, binary_writes, ternary_writes, reshape_writes, Finset.mem_singleton]
  repeat' apply And.intro
  all_goals exact devRef_ne_of_ne (by decide)

set_option maxHeartbeats 4000000 in
theorem l2_main_v3 : (l2 : List (HloOp τ sig (Elt F))).Forall fun op => (Proc.devRef .tc main_v3 : DevRef τ sig) ∉ op.writes := by
  simp only [l2, List.Forall, nullary_writes, unary_writes, binary_writes, ternary_writes, reshape_writes, Finset.mem_singleton]
  repeat' apply And.intro
  all_goals exact devRef_ne_of_ne (by decide)

set_option maxHeartbeats 4000000 in
theorem l2_main_v6 : (l2 : List (HloOp τ sig (Elt F))).Forall fun op => (Proc.devRef .tc main_v6 : DevRef τ sig) ∉ op.writes := by
  simp only [l2, List.Forall, nullary_writes, unary_writes, binary_writes, ternary_writes, reshape_writes, Finset.mem_singleton]
  repeat' apply And.intro
  all_goals exact devRef_ne_of_ne (by decide)

set_option maxHeartbeats 4000000 in
theorem l2_main_v32 : (l2 : List (HloOp τ sig (Elt F))).Forall fun op => (Proc.devRef .tc main_v32 : DevRef τ sig) ∉ op.writes := by
  simp only [l2, List.Forall, nullary_writes, unary_writes, binary_writes, ternary_writes, reshape_writes, Finset.mem_singleton]
  repeat' apply And.intro
  all_goals exact devRef_ne_of_ne (by decide)

set_option maxHeartbeats 4000000 in
theorem l3_main_v3 : (l3 : List (HloOp τ sig (Elt F))).Forall fun op => (Proc.devRef .tc main_v3 : DevRef τ sig) ∉ op.writes := by
  simp only [l3, List.Forall, nullary_writes, unary_writes, binary_writes, ternary_writes, reshape_writes, Finset.mem_singleton]
  repeat' apply And.intro
  all_goals exact devRef_ne_of_ne (by decide)

set_option maxHeartbeats 4000000 in
theorem l3_main_v6 : (l3 : List (HloOp τ sig (Elt F))).Forall fun op => (Proc.devRef .tc main_v6 : DevRef τ sig) ∉ op.writes := by
  simp only [l3, List.Forall, nullary_writes, unary_writes, binary_writes, ternary_writes, reshape_writes, Finset.mem_singleton]
  repeat' apply And.intro
  all_goals exact devRef_ne_of_ne (by decide)

set_option maxHeartbeats 4000000 in
theorem l3_main_v32 : (l3 : List (HloOp τ sig (Elt F))).Forall fun op => (Proc.devRef .tc main_v32 : DevRef τ sig) ∉ op.writes := by
  simp only [l3, List.Forall, nullary_writes, unary_writes, binary_writes, ternary_writes, reshape_writes, Finset.mem_singleton]
  repeat' apply And.intro
  all_goals exact devRef_ne_of_ne (by decide)

set_option maxHeartbeats 4000000 in
theorem l4_main_v3 : (l4 : List (HloOp τ sig (Elt F))).Forall fun op => (Proc.devRef .tc main_v3 : DevRef τ sig) ∉ op.writes := by
  simp only [l4, List.Forall, nullary_writes, unary_writes, binary_writes, ternary_writes, reshape_writes, Finset.mem_singleton]
  repeat' apply And.intro
  all_goals exact devRef_ne_of_ne (by decide)

set_option maxHeartbeats 4000000 in
theorem l4_main_v6 : (l4 : List (HloOp τ sig (Elt F))).Forall fun op => (Proc.devRef .tc main_v6 : DevRef τ sig) ∉ op.writes := by
  simp only [l4, List.Forall, nullary_writes, unary_writes, binary_writes, ternary_writes, reshape_writes, Finset.mem_singleton]
  repeat' apply And.intro
  all_goals exact devRef_ne_of_ne (by decide)

set_option maxHeartbeats 4000000 in
theorem l4_main_v32 : (l4 : List (HloOp τ sig (Elt F))).Forall fun op => (Proc.devRef .tc main_v32 : DevRef τ sig) ∉ op.writes := by
  simp only [l4, List.Forall, nullary_writes, unary_writes, binary_writes, ternary_writes, reshape_writes, Finset.mem_singleton]
  repeat' apply And.intro
  all_goals exact devRef_ne_of_ne (by decide)

/-- A valuation agrees with another on the arguments. -/
def ArgsEq (V R : Valuation τ sig (Elt F)) : Prop := ∀ r ∈ argRefs, R (Proc.devRef .tc r) = V (Proc.devRef .tc r)

theorem args_step {V R : Valuation τ sig (Elt F)} (L : List (HloOp τ sig (Elt F)))
    (hL : ∀ r ∈ argRefs, L.Forall fun op => (Proc.devRef .tc r : DevRef τ sig) ∉ op.writes) (h : ArgsEq V R) :
    ArgsEq V (after L R) :=
  fun r hr => (keep L R r (hL r hr)).trans (h r hr)

/-- No operation of the line writes an argument. -/
theorem ops_args (V : Valuation τ sig (Elt F)) : ArgsEq V (after ops V) := by
  rw [after_ops]
  exact args_step hd hd_args (args_step l5 l5_args (args_step l4 l4_args (args_step l3 l3_args
    (args_step l2 l2_args (args_step l1 l1_args (args_step pre pre_args (fun _ _ => rfl)))))))

/-- A valuation holds the graph's arrays of the edge list `a1`. -/
structure Graph (a1 : IVec S2x640000 32) (R : Valuation τ sig (Elt F)) : Prop where
  v3 : R (Proc.devRef .tc main_v3) = srcVec a1
  v6 : R (Proc.devRef .tc main_v6) = dstVec a1
  v32 : R (Proc.devRef .tc main_v32) = nrmVecF a1

theorem graph_l1 {a1 : IVec S2x640000 32} {R : Valuation τ sig (Elt F)} (G : Graph a1 R) : Graph a1 (after l1 R) :=
  ⟨(keep l1 R main_v3 l1_main_v3).trans G.v3, (keep l1 R main_v6 l1_main_v6).trans G.v6, (keep l1 R main_v32 l1_main_v32).trans G.v32⟩
theorem graph_l2 {a1 : IVec S2x640000 32} {R : Valuation τ sig (Elt F)} (G : Graph a1 R) : Graph a1 (after l2 R) :=
  ⟨(keep l2 R main_v3 l2_main_v3).trans G.v3, (keep l2 R main_v6 l2_main_v6).trans G.v6, (keep l2 R main_v32 l2_main_v32).trans G.v32⟩
theorem graph_l3 {a1 : IVec S2x640000 32} {R : Valuation τ sig (Elt F)} (G : Graph a1 R) : Graph a1 (after l3 R) :=
  ⟨(keep l3 R main_v3 l3_main_v3).trans G.v3, (keep l3 R main_v6 l3_main_v6).trans G.v6, (keep l3 R main_v32 l3_main_v32).trans G.v32⟩
theorem graph_l4 {a1 : IVec S2x640000 32} {R : Valuation τ sig (Elt F)} (G : Graph a1 R) : Graph a1 (after l4 R) :=
  ⟨(keep l4 R main_v3 l4_main_v3).trans G.v3, (keep l4 R main_v6 l4_main_v6).trans G.v6, (keep l4 R main_v32 l4_main_v32).trans G.v32⟩

/-! ## The graph prefix, part by part -/

/-- The edge list's two rows with every node's loop appended. -/
abbrev preA : List (HloOp τ sig (Elt F)) :=
  [ nullary main_v0 (iotaInDim S200000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S840000 0 [⟨S640000, a⟩, ⟨S200000, b⟩] concatenates_S640000_S200000_S840000_d0) : (⟨S640000, .i32⟩ : BufTy).Contents (Elt F) → (⟨S200000, .i32⟩ : BufTy).Contents (Elt F) → (⟨S840000, .i32⟩ : BufTy).Contents (Elt F)) ]

/-- The degrees and their two comparisons with zero. -/
abbrev sA : List (HloOp τ sig (Elt F)) :=
  [ nullary main_cst (constant S_ .f32 0x3F800000#32),
    unary main_cst main_v7 (broadcastInDim S840000 ![] bcast_S_S840000 : (⟨S_, .f32⟩ : BufTy).Contents (Elt F) → (⟨S840000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S840000x1 ![0] bcast_S840000_S840000x1_0 : (⟨S840000, .i32⟩ : BufTy).Contents (Elt F) → (⟨S840000x1, .i32⟩ : BufTy).Contents (Elt F)),
    ternary main_v8 main_v9 main_v7 main_v10 ((fun x i u => Host.scatterAdd scatter_S200000_S840000x1_S840000_n_0_0_1 x i u) : (⟨S200000, .f32⟩ : BufTy).Contents (Elt F) → (⟨S840000x1, .i32⟩ : BufTy).Contents (Elt F) → (⟨S840000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x00000000#32),
    unary main_cst_2 main_v13 (broadcastInDim S200000 ![] bcast_S_S200000 : (⟨S_, .f32⟩ : BufTy).Contents (Elt F) → (⟨S200000, .f32⟩ : BufTy).Contents (Elt F)),
    binary main_v10 main_v13 main_v14 (cmpf .ogt : (⟨S200000, .f32⟩ : BufTy).Contents (Elt F) → (⟨S200000, .f32⟩ : BufTy).Contents (Elt F) → (⟨S200000, .i1⟩ : BufTy).Contents (Elt F)) ]

/-- The degree guarded for the square root: itself where positive, one elsewhere. -/
abbrev sB : List (HloOp τ sig (Elt F)) :=
  [ nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v14) (TRef.of (T := ⟨S200000, .f32⟩) main_v10) (TRef.of (T := ⟨S200000, .f32⟩) main_call0_v1) (TRef.of (T := ⟨S200000, .f32⟩) main_v15) select ]

/-- The node factors. -/
abbrev sC : List (HloOp τ sig (Elt F)) :=
  [ unary main_v15 main_v16 (Host.rsqrt : (⟨S200000, .f32⟩ : BufTy).Contents (Elt F) → (⟨S200000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S200000, .f32⟩) main_call1_v1) (broadcastInDim S200000 ![] bcast_S_S200000),
    TRef.ternary (TRef.of (T := ⟨S200000, .i1⟩) main_v12) (TRef.of (T := ⟨S200000, .f32⟩) main_v16) (TRef.of (T := ⟨S200000, .f32⟩) main_call1_v1) (TRef.of (T := ⟨S200000, .f32⟩) main_v17) select ]

/-- The wrapped index columns and the edge weights. -/
abbrev sD : List (HloOp τ sig (Elt F)) :=
  [ nullary main_c (constantI S_ 32 0#32),
    unary main_c main_v18 (broadcastInDim S840000 ![] bcast_S_S840000 : (⟨S_, .i32⟩ : BufTy).Contents (Elt F) → (⟨S840000, .i32⟩ : BufTy).Contents (Elt F)),
    binary main_v3 main_v18 main_v19 (cmpi .slt : (⟨S840000, .i32⟩ : BufTy).Contents (Elt F) → (⟨S840000, .i32⟩ : BufTy).Contents (Elt F) → (⟨S840000, .i1⟩ : BufTy).Contents (Elt F)),
    nullary main_c_5 (constantI S_ 32 200000#32),
    unary main_c_5 main_v20 (broadcastInDim S840000 ![] bcast_S_S840000 : (⟨S_, .i32⟩ : BufTy).Contents (Elt F) → (⟨S840000, .i32⟩ : BufTy).Contents (Elt F)),
    binary main_v3 main_v20 main_v21 (addi : (⟨S840000, .i32⟩ : BufTy).Contents (Elt F) → (⟨S840000, .i32⟩ : BufTy).Contents (Elt F) → (⟨S840000, .i32⟩ : BufTy).Contents (Elt F)),
    ternary main_v19 main_v21 main_v3 main_v22 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v22 main_v23 (broadcastInDim S840000x1 ![0] bcast_S840000_S840000x1_0 : (⟨S840000, .i32⟩ : BufTy).Contents (Elt F) → (⟨S840000x1, .i32⟩ : BufTy).Contents (Elt F)),
    binary main_v17 main_v23 main_v24 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    nullary main_c_6 (constantI S_ 32 0#32),
    unary main_c_6 main_v25 (broadcastInDim S840000 ![] bcast_S_S840000 : (⟨S_, .i32⟩ : BufTy).Contents (Elt F) → (⟨S840000, .i32⟩ : BufTy).Contents (Elt F)),
    binary main_v6 main_v25 main_v26 (cmpi .slt : (⟨S840000, .i32⟩ : BufTy).Contents (Elt F) → (⟨S840000, .i32⟩ : BufTy).Contents (Elt F) → (⟨S840000, .i1⟩ : BufTy).Contents (Elt F)),
    nullary main_c_7 (constantI S_ 32 200000#32),
    unary main_c_7 main_v27 (broadcastInDim S840000 ![] bcast_S_S840000 : (⟨S_, .i32⟩ : BufTy).Contents (Elt F) → (⟨S840000, .i32⟩ : BufTy).Contents (Elt F)),
    binary main_v6 main_v27 main_v28 (addi : (⟨S840000, .i32⟩ : BufTy).Contents (Elt F) → (⟨S840000, .i32⟩ : BufTy).Contents (Elt F) → (⟨S840000, .i32⟩ : BufTy).Contents (Elt F)),
    ternary main_v26 main_v28 main_v6 main_v29 (select : (⟨S840000, .i1⟩ : BufTy).Contents (Elt F) → (⟨S840000, .i32⟩ : BufTy).Contents (Elt F) → (⟨S840000, .i32⟩ : BufTy).Contents (Elt F) → (⟨S840000, .i32⟩ : BufTy).Contents (Elt F)),
    unary main_v29 main_v30 (broadcastInDim S840000x1 ![0] bcast_S840000_S840000x1_0 : (⟨S840000, .i32⟩ : BufTy).Contents (Elt F) → (⟨S840000x1, .i32⟩ : BufTy).Contents (Elt F)),
    binary main_v17 main_v30 main_v31 ((fun x i => Host.gather gather_S200000_S840000x1_S840000_n_0_n_n_0_1_1 x i) : (⟨S200000, .f32⟩ : BufTy).Contents (Elt F) → (⟨S840000x1, .i32⟩ : BufTy).Contents (Elt F) → (⟨S840000, .f32⟩ : BufTy).Contents (Elt F)),
    binary main_v24 main_v31 main_v32 (mulf : (⟨S840000, .f32⟩ : BufTy).Contents (Elt F) → (⟨S840000, .f32⟩ : BufTy).Contents (Elt F) → (⟨S840000, .f32⟩ : BufTy).Contents (Elt F)) ]

/-- The graph prefix is its five parts in order. -/
theorem pre_split : (pre : List (HloOp τ sig (Elt F))) = preA ++ (sA ++ (sB ++ (sC ++ sD))) := rfl

theorem preA_v3 (V : Valuation τ sig (Elt F)) : after preA V (Proc.devRef .tc main_v3) = srcVec (V (Proc.devRef .tc main_arg1)) := by
  after_results
  rfl

theorem preA_v6 (V : Valuation τ sig (Elt F)) : after preA V (Proc.devRef .tc main_v6) = dstVec (V (Proc.devRef .tc main_arg1)) := by
  after_results
  rfl

set_option maxHeartbeats 4000000 in
theorem sA_main_v3 : (sA : List (HloOp τ sig (Elt F))).Forall fun op => (Proc.devRef .tc main_v3 : DevRef τ sig) ∉ op.writes := by
  simp only [sA, List.Forall, nullary_writes, unary_writes, binary_writes, ternary_writes, reshape_writes, Finset.mem_singleton]
  repeat' apply And.intro
  all_goals exact devRef_ne_of_ne (by decide)

set_option maxHeartbeats 4000000 in
theorem sA_main_v6 : (sA : List (HloOp τ sig (Elt F))).Forall fun op => (Proc.devRef .tc main_v6 : DevRef τ sig) ∉ op.writes := by
  simp only [sA, List.Forall, nullary_writes, unary_writes, binary_writes, ternary_writes, reshape_writes, Finset.mem_singleton]
  repeat' apply And.intro
  all_goals exact devRef_ne_of_ne (by decide)

set_option maxHeartbeats 4000000 in
theorem sB_main_v3 : (sB : List (HloOp τ sig (Elt F))).Forall fun op => (Proc.devRef .tc main_v3 : DevRef τ sig) ∉ op.writes := by
  simp only [sB, List.Forall, nullary_writes, unary_writes, binary_writes, ternary_writes, reshape_writes, Finset.mem_singleton]
  repeat' apply And.intro
  all_goals exact devRef_ne_of_ne (by decide)

set_option maxHeartbeats 4000000 in
theorem sB_main_v6 : (sB : List (HloOp τ sig (Elt F))).Forall fun op => (Proc.devRef .tc main_v6 : DevRef τ sig) ∉ op.writes := by
  simp only [sB, List.Forall, nullary_writes, unary_writes, binary_writes, ternary_writes, reshape_writes, Finset.mem_singleton]
  repeat' apply And.intro
  all_goals exact devRef_ne_of_ne (by decide)

set_option maxHeartbeats 4000000 in
theorem sC_main_v3 : (sC : List (HloOp τ sig (Elt F))).Forall fun op => (Proc.devRef .tc main_v3 : DevRef τ sig) ∉ op.writes := by
  simp only [sC, List.Forall, nullary_writes, unary_writes, binary_writes, ternary_writes, reshape_writes, Finset.mem_singleton]
  repeat' apply And.intro
  all_goals exact devRef_ne_of_ne (by decide)

set_option maxHeartbeats 4000000 in
theorem sC_main_v6 : (sC : List (HloOp τ sig (Elt F))).Forall fun op => (Proc.devRef .tc main_v6 : DevRef τ sig) ∉ op.writes := by
  simp only [sC, List.Forall, nullary_writes, unary_writes, binary_writes, ternary_writes, reshape_writes, Finset.mem_singleton]
  repeat' apply And.intro
  all_goals exact devRef_ne_of_ne (by decide)

set_option maxHeartbeats 4000000 in
theorem sD_main_v3 : (sD : List (HloOp τ sig (Elt F))).Forall fun op => (Proc.devRef .tc main_v3 : DevRef τ sig) ∉ op.writes := by
  simp only [sD, List.Forall, nullary_writes, unary_writes, binary_writes, ternary_writes, reshape_writes, Finset.mem_singleton]
  repeat' apply And.intro
  all_goals exact devRef_ne_of_ne (by decide)

set_option maxHeartbeats 4000000 in
theorem sD_main_v6 : (sD : List (HloOp τ sig (Elt F))).Forall fun op => (Proc.devRef .tc main_v6 : DevRef τ sig) ∉ op.writes := by
  simp only [sD, List.Forall, nullary_writes, unary_writes, binary_writes, ternary_writes, reshape_writes, Finset.mem_singleton]
  repeat' apply And.intro
  all_goals exact devRef_ne_of_ne (by decide)

set_option maxHeartbeats 4000000 in
theorem sB_main_v12 : (sB : List (HloOp τ sig (Elt F))).Forall fun op => (Proc.devRef .tc main_v12 : DevRef τ sig) ∉ op.writes := by
  simp only [sB, List.Forall, nullary_writes, unary_writes, binary_writes, ternary_writes, reshape_writes, Finset.mem_singleton]
  repeat' apply And.intro
  all_goals exact devRef_ne_of_ne (by decide)

theorem sA_v10 (a1 : IVec S2x640000 32) (R : Valuation τ sig (Elt F)) (h6 : R (Proc.devRef .tc main_v6) = dstVec a1) :
    after sA R (Proc.devRef .tc main_v10) = degF a1 := by
  after_results
  rw [h6]
  rfl

theorem sA_v12 (a1 : IVec S2x640000 32) (R : Valuation τ sig (Elt F)) (h6 : R (Proc.devRef .tc main_v6) = dstVec a1) :
    after sA R (Proc.devRef .tc main_v12) = cmpf .ogt (degF (F := F) a1) zerosNF := by
  after_results
  rw [h6]
  rfl

theorem sA_v14 (a1 : IVec S2x640000 32) (R : Valuation τ sig (Elt F)) (h6 : R (Proc.devRef .tc main_v6) = dstVec a1) :
    after sA R (Proc.devRef .tc main_v14) = cmpf .ogt (degF (F := F) a1) zerosNF := by
  after_results
  rw [h6]
  rfl

theorem sB_v15 (a1 : IVec S2x640000 32) (R : Valuation τ sig (Elt F)) (h10 : R (Proc.devRef .tc main_v10) = degF a1)
    (h14 : R (Proc.devRef .tc main_v14) = cmpf .ogt (degF (F := F) a1) zerosNF) :
    after sB R (Proc.devRef .tc main_v15) = select (cmpf .ogt (degF (F := F) a1) zerosNF) (degF a1) onesNF := by
  after_results
  rw [h10, h14]
  rfl

theorem sC_v17 (a1 : IVec S2x640000 32) (R : Valuation τ sig (Elt F)) (h12 : R (Proc.devRef .tc main_v12) = cmpf .ogt (degF (F := F) a1) zerosNF)
    (h15 : R (Proc.devRef .tc main_v15) = select (cmpf .ogt (degF (F := F) a1) zerosNF) (degF a1) onesNF) :
    after sC R (Proc.devRef .tc main_v17) = disVecF a1 := by
  after_results
  rw [h12, h15]
  rfl

set_option maxHeartbeats 20000000 in
theorem sD_v32 (a1 : IVec S2x640000 32) (R : Valuation τ sig (Elt F)) (h3 : R (Proc.devRef .tc main_v3) = srcVec a1)
    (h6 : R (Proc.devRef .tc main_v6) = dstVec a1) (h17 : R (Proc.devRef .tc main_v17) = disVecF a1) :
    after sD R (Proc.devRef .tc main_v32) = nrmVecF a1 := by
  after_results_simp
  rw [h3, h6, h17]
  rfl

/-- After the graph prefix the three arrays the layers read are the graph's. -/
theorem pre_graph (V : Valuation τ sig (Elt F)) : Graph (V (Proc.devRef .tc main_arg1)) (after pre V) := by
  rw [pre_split, after_append, after_append, after_append, after_append]
  have a3 := preA_v3 V
  have a6 := preA_v6 V
  have b3 := (keep sA _ main_v3 sA_main_v3).trans a3
  have b6 := (keep sA _ main_v6 sA_main_v6).trans a6
  have b10 := sA_v10 _ _ a6
  have b12 := sA_v12 _ _ a6
  have b14 := sA_v14 _ _ a6
  have c3 := (keep sB _ main_v3 sB_main_v3).trans b3
  have c6 := (keep sB _ main_v6 sB_main_v6).trans b6
  have c12 := (keep sB _ main_v12 sB_main_v12).trans b12
  have c15 := sB_v15 _ _ b10 b14
  have d3 := (keep sC _ main_v3 sC_main_v3).trans c3
  have d6 := (keep sC _ main_v6 sC_main_v6).trans c6
  have d17 := sC_v17 _ _ c12 c15
  exact ⟨(keep sD _ main_v3 sD_main_v3).trans d3, (keep sD _ main_v6 sD_main_v6).trans d6, sD_v32 _ _ d3 d6 d17⟩

/-! ## The layers' and the head's result buffers as array terms -/

set_option maxHeartbeats 20000000 in
/-- Layer 1's result buffer from a valuation holding the graph's arrays, as the layer's array term. -/
theorem l1_read (a1 : IVec S2x640000 32) (R : Valuation τ sig (Elt F)) (G : Graph a1 R) :
    after l1 R (Proc.devRef .tc main_v50)
      = maximumf
        (addf
          (Host.scatterAdd scatter_S200000x32_S840000x1_S840000x32_1_0_0_1
            (broadcastInDim S200000x32 ![] bcast_S_S200000x32 (constant S_ .f32 0x00000000#32)) (dstIdx a1)
            (mulf (Host.gather gather_S200000x32_S840000x1_S840000x32_1_0_n_n_0_1_132 (Host.dotGeneral dot_S200000x2_S2x32_S200000x32_1_0_0_1_n_n none (R (Proc.devRef .tc main_arg0)) (R (Proc.devRef .tc main_arg2))) (srcIdx a1))
              (broadcastInDim S840000x32 ![0, 1] bcast_S840000x1_S840000x32_0_1 (broadcastInDim S840000x1 ![0] bcast_S840000_S840000x1_0 (nrmVecF (F := F) a1)))))
          (broadcastInDim S200000x32 ![0, 1] bcast_S1x32_S200000x32_0_1 (broadcastInDim S1x32 ![1] bcast_S32_S1x32_1 (R (Proc.devRef .tc main_arg3)))))
        (broadcastInDim S200000x32 ![] bcast_S_S200000x32 (constant S_ .f32 0x00000000#32)) := by
  after_results_simp
  rw [G.v3, G.v6, G.v32]
  rfl

set_option maxHeartbeats 20000000 in
/-- Layer 2's result buffer from a valuation holding the graph's arrays, as the layer's array term. -/
theorem l2_read (a1 : IVec S2x640000 32) (R : Valuation τ sig (Elt F)) (G : Graph a1 R) :
    after l2 R (Proc.devRef .tc main_v68)
      = maximumf
        (addf
          (Host.scatterAdd scatter_S200000x128_S840000x1_S840000x128_1_0_0_1
            (broadcastInDim S200000x128 ![] bcast_S_S200000x128 (constant S_ .f32 0x00000000#32)) (dstIdx a1)
            (mulf (Host.gather gather_S200000x128_S840000x1_S840000x128_1_0_n_n_0_1_1128 (Host.dotGeneral dot_S200000x32_S32x128_S200000x128_1_0_0_1_n_n none (R (Proc.devRef .tc main_v50)) (R (Proc.devRef .tc main_arg4))) (srcIdx a1))
              (broadcastInDim S840000x128 ![0, 1] bcast_S840000x1_S840000x128_0_1 (broadcastInDim S840000x1 ![0] bcast_S840000_S840000x1_0 (nrmVecF (F := F) a1)))))
          (broadcastInDim S200000x128 ![0, 1] bcast_S1x128_S200000x128_0_1 (broadcastInDim S1x128 ![1] bcast_S128_S1x128_1 (R (Proc.devRef .tc main_arg5)))))
        (broadcastInDim S200000x128 ![] bcast_S_S200000x128 (constant S_ .f32 0x00000000#32)) := by
  after_results_simp
  rw [G.v3, G.v6, G.v32]
  rfl

set_option maxHeartbeats 20000000 in
/-- Layer 3's result buffer from a valuation holding the graph's arrays, as the layer's array term. -/
theorem l3_read (a1 : IVec S2x640000 32) (R : Valuation τ sig (Elt F)) (G : Graph a1 R) :
    after l3 R (Proc.devRef .tc main_v86)
      = maximumf
        (addf
          (Host.scatterAdd scatter_S200000x128_S840000x1_S840000x128_1_0_0_1
            (broadcastInDim S200000x128 ![] bcast_S_S200000x128 (constant S_ .f32 0x00000000#32)) (dstIdx a1)
            (mulf (Host.gather gather_S200000x128_S840000x1_S840000x128_1_0_n_n_0_1_1128 (Host.dotGeneral dot_S200000x128_S128x128_S200000x128_1_0_0_1_n_n none (R (Proc.devRef .tc main_v68)) (R (Proc.devRef .tc main_arg6))) (srcIdx a1))
              (broadcastInDim S840000x128 ![0, 1] bcast_S840000x1_S840000x128_0_1 (broadcastInDim S840000x1 ![0] bcast_S840000_S840000x1_0 (nrmVecF (F := F) a1)))))
          (broadcastInDim S200000x128 ![0, 1] bcast_S1x128_S200000x128_0_1 (broadcastInDim S1x128 ![1] bcast_S128_S1x128_1 (R (Proc.devRef .tc main_arg7)))))
        (broadcastInDim S200000x128 ![] bcast_S_S200000x128 (constant S_ .f32 0x00000000#32)) := by
  after_results_simp
  rw [G.v3, G.v6, G.v32]
  rfl

set_option maxHeartbeats 20000000 in
/-- Layer 4's result buffer from a valuation holding the graph's arrays, as the layer's array term. -/
theorem l4_read (a1 : IVec S2x640000 32) (R : Valuation τ sig (Elt F)) (G : Graph a1 R) :
    after l4 R (Proc.devRef .tc main_v104)
      = maximumf
        (addf
          (Host.scatterAdd scatter_S200000x128_S840000x1_S840000x128_1_0_0_1
            (broadcastInDim S200000x128 ![] bcast_S_S200000x128 (constant S_ .f32 0x00000000#32)) (dstIdx a1)
            (mulf (Host.gather gather_S200000x128_S840000x1_S840000x128_1_0_n_n_0_1_1128 (Host.dotGeneral dot_S200000x128_S128x128_S200000x128_1_0_0_1_n_n none (R (Proc.devRef .tc main_v86)) (R (Proc.devRef .tc main_arg8))) (srcIdx a1))
              (broadcastInDim S840000x128 ![0, 1] bcast_S840000x1_S840000x128_0_1 (broadcastInDim S840000x1 ![0] bcast_S840000_S840000x1_0 (nrmVecF (F := F) a1)))))
          (broadcastInDim S200000x128 ![0, 1] bcast_S1x128_S200000x128_0_1 (broadcastInDim S1x128 ![1] bcast_S128_S1x128_1 (R (Proc.devRef .tc main_arg9)))))
        (broadcastInDim S200000x128 ![] bcast_S_S200000x128 (constant S_ .f32 0x00000000#32)) := by
  after_results_simp
  rw [G.v3, G.v6, G.v32]
  rfl

set_option maxHeartbeats 20000000 in
/-- Layer 5's result buffer from a valuation holding the graph's arrays, as the layer's array term. -/
theorem l5_read (a1 : IVec S2x640000 32) (R : Valuation τ sig (Elt F)) (G : Graph a1 R) :
    after l5 R (Proc.devRef .tc main_v122)
      = maximumf
        (addf
          (Host.scatterAdd scatter_S200000x128_S840000x1_S840000x128_1_0_0_1
            (broadcastInDim S200000x128 ![] bcast_S_S200000x128 (constant S_ .f32 0x00000000#32)) (dstIdx a1)
            (mulf (Host.gather gather_S200000x128_S840000x1_S840000x128_1_0_n_n_0_1_1128 (Host.dotGeneral dot_S200000x128_S128x128_S200000x128_1_0_0_1_n_n none (R (Proc.devRef .tc main_v104)) (R (Proc.devRef .tc main_arg10))) (srcIdx a1))
              (broadcastInDim S840000x128 ![0, 1] bcast_S840000x1_S840000x128_0_1 (broadcastInDim S840000x1 ![0] bcast_S840000_S840000x1_0 (nrmVecF (F := F) a1)))))
          (broadcastInDim S200000x128 ![0, 1] bcast_S1x128_S200000x128_0_1 (broadcastInDim S1x128 ![1] bcast_S128_S1x128_1 (R (Proc.devRef .tc main_arg11)))))
        (broadcastInDim S200000x128 ![] bcast_S_S200000x128 (constant S_ .f32 0x00000000#32)) := by
  after_results_simp
  rw [G.v3, G.v6, G.v32]
  rfl

set_option maxHeartbeats 20000000 in
/-- The head's result buffer as its array term. -/
theorem hd_read (R : Valuation τ sig (Elt F)) :
    after hd R (Proc.devRef .tc main_v131)
      = select
        (cmpf .ogt
          (addf (Host.dotGeneral dot_S200000x128_S128x1_S200000x1_1_0_0_1_n_n none (R (Proc.devRef .tc main_v122)) (R (Proc.devRef .tc main_arg12)))
            (broadcastInDim S200000x1 ![0, 1] bcast_S1x1_S200000x1_0_1 (broadcastInDim S1x1 ![1] bcast_S1_S1x1_1 (R (Proc.devRef .tc main_arg13)))))
          (broadcastInDim S200000x1 ![] bcast_S_S200000x1 (constant S_ .f32 0x00000000#32)))
        (addf (Host.dotGeneral dot_S200000x128_S128x1_S200000x1_1_0_0_1_n_n none (R (Proc.devRef .tc main_v122)) (R (Proc.devRef .tc main_arg12)))
          (broadcastInDim S200000x1 ![0, 1] bcast_S1x1_S200000x1_0_1 (broadcastInDim S1x1 ![1] bcast_S1_S1x1_1 (R (Proc.devRef .tc main_arg13)))))
        (mulf (broadcastInDim S200000x1 ![] bcast_S_S200000x1 (constant S_ .f32 0x3C23D70A#32))
          (addf (Host.dotGeneral dot_S200000x128_S128x1_S200000x1_1_0_0_1_n_n none (R (Proc.devRef .tc main_v122)) (R (Proc.devRef .tc main_arg12)))
            (broadcastInDim S200000x1 ![0, 1] bcast_S1x1_S200000x1_0_1 (broadcastInDim S1x1 ![1] bcast_S1_S1x1_1 (R (Proc.devRef .tc main_arg13)))))) := by
  after_results_simp
  rfl

end AnyFloat

/-! ## At the extended reals -/

def zerosN : FVec Ideal S200000 .f32 := broadcastInDim S200000 ![] bcast_S_S200000 (constant S_ .f32 0x00000000#32)
def onesN : FVec Ideal S200000 .f32 := broadcastInDim S200000 ![] bcast_S_S200000 (constant S_ .f32 0x3F800000#32)
/-- The degree of every node: ones accumulated at the destinations. -/
def deg (a1 : IVec S2x640000 32) : FVec Ideal S200000 .f32 :=
  Host.scatterAdd scatter_S200000_S840000x1_S840000_n_0_0_1 zerosN (dstIdx a1) (broadcastInDim S840000 ![] bcast_S_S840000 (constant S_ .f32 0x3F800000#32))
/-- The node factor: the inverse square root of a positive degree, zero otherwise. -/
def disVec (a1 : IVec S2x640000 32) : FVec Ideal S200000 .f32 :=
  select (cmpf .ogt (deg a1) zerosN) (Host.rsqrt (select (cmpf .ogt (deg a1) zerosN) (deg a1) onesN)) zerosN

/-- The node factors for arbitrary float values, taken at the extended reals, are the node factors. -/
theorem disVecF_ideal (a1 : IVec S2x640000 32) : disVecF (F := Ideal) a1 = disVec a1 := rfl

/-- An edge's weight read at the edge: the factor at its source's row times the factor at its destination's row. -/
theorem nrm_apply (a1 : IVec S2x640000 32) (e : Fin EE) :
    nrmVecF (F := Ideal) a1 (ix1 e) = dF (disVec a1) (sF (srcIdx a1) e) * dF (disVec a1) (sF (dstWIdx a1) e) := by
  have h1 : Host.gather gather_S200000_S840000x1_S840000_n_0_n_n_0_1_1 (disVec a1) (srcIdx a1) (ix1 e)
      = disVec a1 (ix1 (Cert.GraphIdx.rowOf NN_pos (srcIdx a1) e)) :=
    Cert.GraphIdx.gather1_apply gather_S200000_S840000x1_S840000_n_0_n_n_0_1_1_wf NN_pos (disVec a1) (srcIdx a1) e
  have h2 : Host.gather gather_S200000_S840000x1_S840000_n_0_n_n_0_1_1 (disVec a1) (dstWIdx a1) (ix1 e)
      = disVec a1 (ix1 (Cert.GraphIdx.rowOf NN_pos (dstWIdx a1) e)) :=
    Cert.GraphIdx.gather1_apply gather_S200000_S840000x1_S840000_n_0_n_n_0_1_1_wf NN_pos (disVec a1) (dstWIdx a1) e
  unfold nrmVecF
  rw [disVecF_ideal, mulf_apply, h1, h2]
  rfl

/-- Layer 1 at the extended reals: the weighted aggregation of the previous activations. -/
theorem l1_out (a1 : IVec S2x640000 32) (R : Valuation τ sig (Elt Ideal)) (G : Graph a1 R) :
    after l1 R (Proc.devRef .tc main_v50)
      = arr2 (actR (aggR (dF (disVec a1)) (sF (srcIdx a1)) (sF (dstWIdx a1)) (LF (dstIdx a1))
          (mm (f2 (R (Proc.devRef .tc main_arg0))) (f2 (R (Proc.devRef .tc main_arg2))))) (f1 (R (Proc.devRef .tc main_arg3)))) :=
  (l1_read a1 R G).trans
    (GcnRefArr.layer_arr gather_S200000x32_S840000x1_S840000x32_1_0_n_n_0_1_132_wf scatter_S200000x32_S840000x1_S840000x32_1_0_0_1_wf
      bcast_S_S200000x32 bcast_S840000_S840000x1_0 bcast_S840000x1_S840000x32_0_1 bcast_S32_S1x32_1 bcast_S1x32_S200000x32_0_1
      _ _ _ (srcIdx a1) (dstIdx a1) (dstWIdx a1) (disVec a1) (nrmVecF (F := Ideal) a1) (nrm_apply a1))

/-- Layer 2 at the extended reals: the weighted aggregation of the previous activations. -/
theorem l2_out (a1 : IVec S2x640000 32) (R : Valuation τ sig (Elt Ideal)) (G : Graph a1 R) :
    after l2 R (Proc.devRef .tc main_v68)
      = arr2 (actR (aggR (dF (disVec a1)) (sF (srcIdx a1)) (sF (dstWIdx a1)) (LF (dstIdx a1))
          (mm (f2 (R (Proc.devRef .tc main_v50))) (f2 (R (Proc.devRef .tc main_arg4))))) (f1 (R (Proc.devRef .tc main_arg5)))) :=
  (l2_read a1 R G).trans
    (GcnRefArr.layer_arr gather_S200000x128_S840000x1_S840000x128_1_0_n_n_0_1_1128_wf scatter_S200000x128_S840000x1_S840000x128_1_0_0_1_wf
      bcast_S_S200000x128 bcast_S840000_S840000x1_0 bcast_S840000x1_S840000x128_0_1 bcast_S128_S1x128_1 bcast_S1x128_S200000x128_0_1
      _ _ _ (srcIdx a1) (dstIdx a1) (dstWIdx a1) (disVec a1) (nrmVecF (F := Ideal) a1) (nrm_apply a1))

/-- Layer 3 at the extended reals: the weighted aggregation of the previous activations. -/
theorem l3_out (a1 : IVec S2x640000 32) (R : Valuation τ sig (Elt Ideal)) (G : Graph a1 R) :
    after l3 R (Proc.devRef .tc main_v86)
      = arr2 (actR (aggR (dF (disVec a1)) (sF (srcIdx a1)) (sF (dstWIdx a1)) (LF (dstIdx a1))
          (mm (f2 (R (Proc.devRef .tc main_v68))) (f2 (R (Proc.devRef .tc main_arg6))))) (f1 (R (Proc.devRef .tc main_arg7)))) :=
  (l3_read a1 R G).trans
    (GcnRefArr.layer_arr gather_S200000x128_S840000x1_S840000x128_1_0_n_n_0_1_1128_wf scatter_S200000x128_S840000x1_S840000x128_1_0_0_1_wf
      bcast_S_S200000x128 bcast_S840000_S840000x1_0 bcast_S840000x1_S840000x128_0_1 bcast_S128_S1x128_1 bcast_S1x128_S200000x128_0_1
      _ _ _ (srcIdx a1) (dstIdx a1) (dstWIdx a1) (disVec a1) (nrmVecF (F := Ideal) a1) (nrm_apply a1))

/-- Layer 4 at the extended reals: the weighted aggregation of the previous activations. -/
theorem l4_out (a1 : IVec S2x640000 32) (R : Valuation τ sig (Elt Ideal)) (G : Graph a1 R) :
    after l4 R (Proc.devRef .tc main_v104)
      = arr2 (actR (aggR (dF (disVec a1)) (sF (srcIdx a1)) (sF (dstWIdx a1)) (LF (dstIdx a1))
          (mm (f2 (R (Proc.devRef .tc main_v86))) (f2 (R (Proc.devRef .tc main_arg8))))) (f1 (R (Proc.devRef .tc main_arg9)))) :=
  (l4_read a1 R G).trans
    (GcnRefArr.layer_arr gather_S200000x128_S840000x1_S840000x128_1_0_n_n_0_1_1128_wf scatter_S200000x128_S840000x1_S840000x128_1_0_0_1_wf
      bcast_S_S200000x128 bcast_S840000_S840000x1_0 bcast_S840000x1_S840000x128_0_1 bcast_S128_S1x128_1 bcast_S1x128_S200000x128_0_1
      _ _ _ (srcIdx a1) (dstIdx a1) (dstWIdx a1) (disVec a1) (nrmVecF (F := Ideal) a1) (nrm_apply a1))

/-- Layer 5 at the extended reals: the weighted aggregation of the previous activations. -/
theorem l5_out (a1 : IVec S2x640000 32) (R : Valuation τ sig (Elt Ideal)) (G : Graph a1 R) :
    after l5 R (Proc.devRef .tc main_v122)
      = arr2 (actR (aggR (dF (disVec a1)) (sF (srcIdx a1)) (sF (dstWIdx a1)) (LF (dstIdx a1))
          (mm (f2 (R (Proc.devRef .tc main_v104))) (f2 (R (Proc.devRef .tc main_arg10))))) (f1 (R (Proc.devRef .tc main_arg11)))) :=
  (l5_read a1 R G).trans
    (GcnRefArr.layer_arr gather_S200000x128_S840000x1_S840000x128_1_0_n_n_0_1_1128_wf scatter_S200000x128_S840000x1_S840000x128_1_0_0_1_wf
      bcast_S_S200000x128 bcast_S840000_S840000x1_0 bcast_S840000x1_S840000x128_0_1 bcast_S128_S1x128_1 bcast_S1x128_S200000x128_0_1
      _ _ _ (srcIdx a1) (dstIdx a1) (dstWIdx a1) (disVec a1) (nrmVecF (F := Ideal) a1) (nrm_apply a1))

/-- The head at the extended reals: the affine map of the last activations to one column, then the leaky clamp. -/
theorem hd_out (R : Valuation τ sig (Elt Ideal)) :
    after hd R (Proc.devRef .tc main_v131)
      = arr2 (head leaky (f2 (R (Proc.devRef .tc main_v122))) (f2 (R (Proc.devRef .tc main_arg12))) ((R (Proc.devRef .tc main_arg13) : FVec Ideal S1 .f32) (ix1 0))) :=
  (hd_read R).trans (GcnRefArr.head_arr bcast_S_S200000x1 bcast_S1_S1x1_1 bcast_S1x1_S200000x1_0_1 _ _ _)

/-! ## The chain -/

/-- The result buffer after the whole line: the five layers and the head over the arguments. -/
theorem out_eq (V : Valuation τ sig (Elt Ideal)) :
    after ops V (Proc.devRef .tc main_v131)
      = arr2 (layersR (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) (V (Proc.devRef .tc main_arg12)) (V (Proc.devRef .tc main_arg13))
          (srcIdx (V (Proc.devRef .tc main_arg1))) (dstIdx (V (Proc.devRef .tc main_arg1))) (dstWIdx (V (Proc.devRef .tc main_arg1))) (disVec (V (Proc.devRef .tc main_arg1)))) := by
  have G1 := pre_graph V
  have A1 : ArgsEq V (after pre V) := args_step pre pre_args (fun _ _ => rfl)
  have G2 := graph_l1 G1
  have A2 := args_step l1 l1_args A1
  have G3 := graph_l2 G2
  have A3 := args_step l2 l2_args A2
  have G4 := graph_l3 G3
  have A4 := args_step l3 l3_args A3
  have G5 := graph_l4 G4
  have A5 := args_step l4 l4_args A4
  have A6 := args_step l5 l5_args A5
  have o1 := l1_out _ _ G1
  rw [A1 main_arg0 (by decide), A1 main_arg2 (by decide), A1 main_arg3 (by decide)] at o1
  have o2 := l2_out _ _ G2
  rw [o1, A2 main_arg4 (by decide), A2 main_arg5 (by decide)] at o2
  have o3 := l3_out _ _ G3
  rw [o2, A3 main_arg6 (by decide), A3 main_arg7 (by decide)] at o3
  have o4 := l4_out _ _ G4
  rw [o3, A4 main_arg8 (by decide), A4 main_arg9 (by decide)] at o4
  have o5 := l5_out _ _ G5
  rw [o4, A5 main_arg10 (by decide), A5 main_arg11 (by decide)] at o5
  have o6 := hd_out (after l5 (after l4 (after l3 (after l2 (after l1 (after pre V))))))
  rw [o5, A6 main_arg12 (by decide), A6 main_arg13 (by decide)] at o6
  rw [after_ops, o6]
  rfl

/-! ## The run -/

/-- On every device, from any memory with zero counters: every weakly fair execution of the reference terminates with
    its result the five layers and the head over the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v131)
        = Gcn.arr2 (Gcn.layersR (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
            (srcIdx (m ((c.tc : Thread nD τ).loc main_arg1))) (dstIdx (m ((c.tc : Thread nD τ).loc main_arg1)))
            (dstWIdx (m ((c.tc : Thread nD τ).loc main_arg1))) (disVec (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v131).trans (out_eq (launchContents m c)),
      (h c main_arg0).trans (ops_args (launchContents m c) main_arg0 (by decide)),
      (h c main_arg1).trans (ops_args (launchContents m c) main_arg1 (by decide)),
      (h c main_arg2).trans (ops_args (launchContents m c) main_arg2 (by decide)),
      (h c main_arg3).trans (ops_args (launchContents m c) main_arg3 (by decide)),
      (h c main_arg4).trans (ops_args (launchContents m c) main_arg4 (by decide)),
      (h c main_arg5).trans (ops_args (launchContents m c) main_arg5 (by decide)),
      (h c main_arg6).trans (ops_args (launchContents m c) main_arg6 (by decide)),
      (h c main_arg7).trans (ops_args (launchContents m c) main_arg7 (by decide)),
      (h c main_arg8).trans (ops_args (launchContents m c) main_arg8 (by decide)),
      (h c main_arg9).trans (ops_args (launchContents m c) main_arg9 (by decide)),
      (h c main_arg10).trans (ops_args (launchContents m c) main_arg10 (by decide)),
      (h c main_arg11).trans (ops_args (launchContents m c) main_arg11 (by decide)),
      (h c main_arg12).trans (ops_args (launchContents m c) main_arg12 (by decide)),
      (h c main_arg13).trans (ops_args (launchContents m c) main_arg13 (by decide))⟩)
    (run_after m ρ)

end Cert.ReferenceIdeal.RefValue

end
-- ==== Proof.lean ====
/-
  A graph convolution network, five GCNConv layers with symmetric normalisation and a one-column output head, as a
  pipelined kernel against its plain reference, at the ideal reading (every float an extended real, every operation
  exact, a change of float format the identity).

  Both programs compute, from the edge list with every node's loop appended, the degree of every node and the node
  factor d = deg^(-1/2) (zero where the degree is zero).  The reference weighs every gathered row of H·W by
  d(source)·d(destination) and sums the weighted rows at the destinations.  The kernel multiplies the rows of H·W by d
  before the gather, sums the plain rows, and multiplies each sum by d of its node afterwards, fused with the bias,
  the clamp at zero and the next layer's product; six pipelined regions of 25 row blocks each, with the gathers and
  accumulating scatters on the host between them.  The two arrangements agree entry by entry on the extended reals:
  the node factor is a nonnegative real, and a nonnegative real factor distributes over any finite sum, infinite
  terms included; an edge that the scatter lands on node p has p as its destination's gather row, since an index
  that reads as a node's number is not negative and the wrap of negative indices leaves it alone.  No finiteness of
  the inputs is used.

  The kernel's value is read off its frame run: each region's output array is one function of the arrays the region
  finds (its 25 blocks tile the rows), each host stretch a gather followed by an accumulating scatter, composed
  through the sixteen segments.  The reference's value is read off the run of its 173 host operations, stretch by
  stretch.  No operation of the kernel is rewritten for the ideal reading, so the conjunct relating its two readings is trivial.
-/
import proofs.«153643_j6382321401984_2_alg».proof.Defs
import proofs.«153643_j6382321401984_2_alg».proof.Proof.Gen.Kernel
import proofs.«153643_j6382321401984_2_alg».proof.Proof.Gen.Kernel.Skeleton
import proofs.«153643_j6382321401984_2_alg».proof.Proof.Gen.Kernel.Launch
import proofs.«153643_j6382321401984_2_alg».proof.Proof.Gen.Kernel.Points
import proofs.«153643_j6382321401984_2_alg».proof.Proof.Gen.Kernel.Frame
import proofs.«153643_j6382321401984_2_alg».proof.Proof.Gen.KernelIdeal
import proofs.«153643_j6382321401984_2_alg».proof.Proof.Gen.KernelIdeal.Skeleton
import proofs.«153643_j6382321401984_2_alg».proof.Proof.Gen.KernelIdeal.Launch
import proofs.«153643_j6382321401984_2_alg».proof.Proof.Gen.KernelIdeal.Points
import proofs.«153643_j6382321401984_2_alg».proof.Proof.Gen.KernelIdeal.Frame
import proofs.«153643_j6382321401984_2_alg».proof.Proof.Gen.ReferenceIdeal
import proofs.«153643_j6382321401984_2_alg».proof.Proof.Gen.Pre_finite_inputs
import proofs.«153643_j6382321401984_2_alg».proof.Proof.GcnLayers
import proofs.«153643_j6382321401984_2_alg».proof.Proof.KChain
import proofs.«153643_j6382321401984_2_alg».proof.Proof.KGraphFacts
import proofs.«153643_j6382321401984_2_alg».proof.Proof.RefValue
import Idealize.ShloMosaic.Adequacy
import Idealize.ShloMosaic.Init

set_option maxRecDepth 16384

noncomputable section

namespace Cert.Proof

open Idealize.ShloMosaic Idealize.SL.Sem

/-- The kernel at the word-level reading runs, nothing faulting, its arguments unchanged. -/
theorem frame_k : Cert.frame_Kernel := fun m ρ _ => Cert.Kernel.Gen.frame m ρ

/-- So does the kernel at the ideal reading. -/
theorem frame_ki : Cert.frame_KernelIdeal := fun m ρ _ => Cert.KernelIdeal.Gen.frame m ρ

/-- The reference's run of host operations, its result dropped. -/
theorem frame_ri : Cert.frame_ReferenceIdeal := fun m ρ _ =>
  (θ_run Cert.ReferenceIdeal.defs _ _).mono (fun _ h c => (h c).2) (Cert.ReferenceIdeal.RefValue.run m ρ)

/-- The graph arrays are the same terms of the edge list in the two programs. -/
theorem srcIdx_eq (a1 : IVec Cert.KernelIdeal.S2x640000 32) :
    Cert.ReferenceIdeal.RefValue.srcIdx a1 = Cert.KernelIdeal.KValue.srcIdx a1 := rfl
theorem dstIdx_eq (a1 : IVec Cert.KernelIdeal.S2x640000 32) :
    Cert.ReferenceIdeal.RefValue.dstIdx a1 = Cert.KernelIdeal.KValue.dstIdx a1 := rfl
theorem dstWIdx_eq (a1 : IVec Cert.KernelIdeal.S2x640000 32) :
    Cert.ReferenceIdeal.RefValue.dstWIdx a1
      = Cert.KernelIdeal.KValue.col (Cert.KernelIdeal.KValue.wrap (Cert.KernelIdeal.KValue.dstVec a1)) := rfl
theorem disVec_eq (a1 : IVec Cert.KernelIdeal.S2x640000 32) :
    Cert.ReferenceIdeal.RefValue.disVec a1 = Cert.KernelIdeal.KValue.disVec a1 := rfl

/-- The two programs at the ideal reading, run from memories agreeing on the arguments, end with equal results: the kernel's
    arrangement of the five layers and the head against the reference's. -/
theorem algebraic : Cert.algebraic_KernelIdeal_ReferenceIdeal := by
  intro m ρ m' ρ' _ hagree
  refine ⟨_, Cert.KernelIdeal.KValue.value_run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13⟩ := hagree c
  rw [e0, e1, e2, e3, e4, e5, e6, e7, e8, e9, e10, e11, e12, e13, srcIdx_eq, dstIdx_eq, dstWIdx_eq, disVec_eq]
  exact congrArg Gcn.arr2 (Gcn.layersK_eq_layersR _ _ _ _ _ _ _ _ _ _ _ _ _ _ _ _ _
    (Cert.KernelIdeal.KValue.dis_nonneg _) (Cert.KernelIdeal.KValue.lands_row _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
